-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x1024x3 : Shape := ⟨3, ![1, 1024, 3]⟩
abbrev S1x1x1024 : Shape := ⟨3, ![1, 1, 1024]⟩
abbrev S1x1x8192 : Shape := ⟨3, ![1, 1, 8192]⟩
abbrev S1x1024 : Shape := ⟨2, ![1, 1024]⟩
abbrev S1x8192 : Shape := ⟨2, ![1, 8192]⟩
abbrev S1024x3 : Shape := ⟨2, ![1024, 3]⟩
abbrev S1024 : Shape := ⟨1, ![1024]⟩
abbrev S1024x1 : Shape := ⟨2, ![1024, 1]⟩
abbrev S1024x5 : Shape := ⟨2, ![1024, 5]⟩
abbrev S5x1024 : Shape := ⟨2, ![5, 1024]⟩
abbrev S1024x1024 : Shape := ⟨2, ![1024, 1024]⟩
abbrev S4x8192 : Shape := ⟨2, ![4, 8192]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x8192, .f32⟩
  | .local _ .vmem, ⟨7, _⟩ => ⟨S1x1x8192, .f32⟩
  | .local _ .vmem, ⟨8, _⟩ => ⟨S1x1024, .f32⟩
  | .local _ .vmem, ⟨9, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v33 : BitVec 32 := Scalar.muli arg2 c1024_i32
  v33
def k0_cond3 (i : grid0.Coords) : BitVec 1 :=
  let arg1 : BitVec 32 := BitVec.ofNat 32 (i 1).val
  let c0_i32_17 : BitVec 32 := 0#32
  let v35 : BitVec 1 := Scalar.cmpi .eq arg1 c0_i32_17
  let v36 : BitVec 32 := Scalar.extui v35
  let c0_i32_18 : BitVec 32 := 0#32
  let v37 : BitVec 1 := Scalar.cmpi .ne v36 c0_i32_18
  v37

def k0_off1 (i : grid0.Coords) : Fin 2 → Nat :=
  let c0_25 : Index := 0#32
  let arg2 : BitVec 32 := BitVec.ofNat 32 (i 2).val
  let c1024_i32 : BitVec 32 := 1024#32
  let v33 : BitVec 32 := Scalar.muli arg2 c1024_i32
  let v34 : BitVec 32 := v33
  let v49 : Index := Scalar.indexCast v34
  ![0, v49.toNat]
def k0_cond4 (i : grid0.Coords) : BitVec 1 :=
  let arg1 : BitVec 32 := BitVec.ofNat 32 (i 1).val
  let c0_i32_19 : BitVec 32 := 0#32
  let v38 : BitVec 1 := Scalar.cmpi .ne arg1 c0_i32_19
  let v39 : BitVec 32 := Scalar.extui v38
  let c0_i32_20 : BitVec 32 := 0#32
  let v40 : BitVec 1 := Scalar.cmpi .ne v39 c0_i32_20
  v40

def k0_off2 (i : grid0.Coords) : Fin 2 → Nat :=
  let c0_25 : Index := 0#32
  let arg2 : BitVec 32 := BitVec.ofNat 32 (i 2).val
  let c1024_i32 : BitVec 32 := 1024#32
  let v33 : BitVec 32 := Scalar.muli arg2 c1024_i32
  let v34 : BitVec 32 := v33
  let v49 : Index := Scalar.indexCast v34
  ![0, v49.toNat]
def k0_cond5 (i : grid0.Coords) : BitVec 1 :=
  let arg2 : BitVec 32 := BitVec.ofNat 32 (i 2).val
  let c7_i32 : BitVec 32 := 7#32
  let v41 : BitVec 1 := Scalar.cmpi .eq arg2 c7_i32
  let v42 : BitVec 32 := Scalar.extui v41
  let c0_i32_21 : BitVec 32 := 0#32
  let v43 : BitVec 1 := Scalar.cmpi .ne v42 c0_i32_21
  v43

def k0_cond6 (i : grid0.Coords) : BitVec 1 :=
  let arg1 : BitVec 32 := BitVec.ofNat 32 (i 1).val
  let c7_i32_22 : BitVec 32 := 7#32
  let v44 : BitVec 1 := Scalar.cmpi .eq arg1 c7_i32_22
  let arg2 : BitVec 32 := BitVec.ofNat 32 (i 2).val
  let c7_i32_23 : BitVec 32 := 7#32
  let v45 : BitVec 1 := Scalar.cmpi .eq arg2 c7_i32_23
  let v46 : BitVec 1 := Scalar.andi v44 v45
  let v47 : BitVec 32 := Scalar.extui v46
  let c0_i32_24 : BitVec 32 := 0#32
  let v48 : BitVec 1 := Scalar.cmpi .ne v47 c0_i32_24
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  concatenates_S1024x3_S1024x1_S1024x1_S1024x5_d1 : Shape.Concatenates [S1024x3, S1024x1, S1024x1] S1024x5 1
  transposes_S1024x5_p1_0_S5x1024 : S1024x5.Transposes [1, 0] S5x1024
  reduces_S1024x1024_S1024 : S1024x1024.Reduces [1] S1024
  reduces_S1024x1024_S1024_2 : S1024x1024.Reduces [0] S1024
  shapeCasts_S1024_S1x1024 : S1024.ShapeCasts S1x1024
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x8192_S1x8192_0_0 : ∀ a, (![0, 0] : Fin 2 → Nat) a + S1x8192.size a ≤ S1x8192.size a
  h_S1x8192 : 0 < S1x8192.numel
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x1x8192_S4x8192 : S4x1x8192.ShapeCasts S4x8192
  reducesTo_S4x8192_S_d0_1 : S4x8192.ReducesTo [0, 1] S_
  h_S_ : 0 < S_.numel
  dot_S1024x5_S5x1024_S1024x1024_1_0_0_1_n_n_wf : DotDims.WF S1024x5 S5x1024 S1024x1024 [1] [0] [0] [1] [] []
  hrank0 : 0 < grid0.rank
  k0_mult1_dvd : ∀ i : grid0.Coords, 1024 ∣ (k0_mult1 i).toNat
  k0_off1_inb : ∀ i : grid0.Coords, ∀ (k0_h3 : k0_cond3 i = 1#1), ∀ a, (k0_off1 i) a + S1x1024.size a ≤ S1x8192.size a
  k0_off2_inb : ∀ i : grid0.Coords, ∀ (k0_h4 : k0_cond4 i = 1#1), ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x8192.size a
  hwx0_2 : ∀ i : grid0.Coords, EltTy.bits .f32 = 32 ∨ (Rect.block (s := S4x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1024x5_S5x1024_S1024x1024_1_0_0_1_n_n : DotDims S1024x5 S5x1024 S1024x1024 where
  lhsContracting := [1]
  rhsContracting := [0]
  lhsNonContracting := [0]
  rhsNonContracting := [1]
  lhsBatch := []
  rhsBatch := []
  wf := dot_S1024x5_S5x1024_S1024x1024_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond5 i == 1#1) | 3 => fun i => !(k0_cond6 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KB.Conds.lean ====
/-
  The six branches of the kernel body, decided over the grid.  A grid point t = 64·b + 8·i + j works on batch b, band i
  of the first cloud and band j of the second.  The body branches on j = 0 (start the row accumulator) against j ≠ 0
  (fold into it), on i = 0 (start a stretch of the column accumulator) against i ≠ 0 (fold into it), on j = 7 (hand the
  row accumulator to the first result's block) and on i = 7 ∧ j = 7 (hand the column accumulator to the second result's
  block).  Each condition is a scalar chain over the coordinates; here each is decided at every point of the grid in
  closed form, together with where the two result windows are idle and where their blocks are written back.
-/
import proofs.«154956_j81475529605150_2_alg».proof.Proof.Gen.Kernel.Frame
import proofs.«154956_j81475529605150_2_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions -/

/-- j = 0: the body's first branch, as its scalar chain over the coordinates. -/
abbrev cJ0 (i : grid0.Coords) : Prop := (Scalar.cmpi .ne (Scalar.extui (Scalar.cmpi .eq (BitVec.ofNat 32 (i 2).val) 0#32)) 0#32) = 1#1
/-- j ≠ 0: the second branch. -/
abbrev cJp (i : grid0.Coords) : Prop := (Scalar.cmpi .ne (Scalar.extui (Scalar.cmpi .ne (BitVec.ofNat 32 (i 2).val) 0#32)) 0#32) = 1#1
/-- i = 0, i ≠ 0, j = 7, i = 7 ∧ j = 7: the printed conditions. -/
abbrev cI0 (i : grid0.Coords) : Prop := k0_cond3 i = 1#1
abbrev cIp (i : grid0.Coords) : Prop := k0_cond4 i = 1#1
abbrev cJ7 (i : grid0.Coords) : Prop := k0_cond5 i = 1#1
abbrev cL (i : grid0.Coords) : Prop := k0_cond6 i = 1#1

theorem hcJ0 : ∀ t : Fin cfg0.N, cJ0 (grid0.coords t) ↔ t.val % 8 = 0 :=
  (by decide +kernel : ∀ t : Fin grid0.N, cJ0 (grid0.coords t) ↔ t.val % 8 = 0)
theorem hcJp : ∀ t : Fin cfg0.N, cJp (grid0.coords t) ↔ t.val % 8 ≠ 0 :=
  (by decide +kernel : ∀ t : Fin grid0.N, cJp (grid0.coords t) ↔ t.val % 8 ≠ 0)
theorem hcI0 : ∀ t : Fin cfg0.N, cI0 (grid0.coords t) ↔ t.val / 8 % 8 = 0 :=
  (by decide +kernel : ∀ t : Fin grid0.N, cI0 (grid0.coords t) ↔ t.val / 8 % 8 = 0)
theorem hcIp : ∀ t : Fin cfg0.N, cIp (grid0.coords t) ↔ t.val / 8 % 8 ≠ 0 :=
  (by decide +kernel : ∀ t : Fin grid0.N, cIp (grid0.coords t) ↔ t.val / 8 % 8 ≠ 0)
theorem hcJ7 : ∀ t : Fin cfg0.N, cJ7 (grid0.coords t) ↔ t.val % 8 = 7 :=
  (by decide +kernel : ∀ t : Fin grid0.N, cJ7 (grid0.coords t) ↔ t.val % 8 = 7)
theorem hcL : ∀ t : Fin cfg0.N, cL (grid0.coords t) ↔ t.val % 64 = 63 :=
  (by decide +kernel : ∀ t : Fin grid0.N, cL (grid0.coords t) ↔ t.val % 64 = 63)

/-- The stretch of the column accumulator a point works on starts at column 1024·j. -/
theorem off1_eq : ∀ t : Fin cfg0.N, k0_off1 (grid0.coords t) = ![0, 1024 * (t.val % 8)] :=
  (by decide +kernel : ∀ t : Fin grid0.N, k0_off1 (grid0.coords t) = ![0, 1024 * (t.val % 8)])
theorem off2_eq : ∀ t : Fin cfg0.N, k0_off2 (grid0.coords t) = ![0, 1024 * (t.val % 8)] :=
  (by decide +kernel : ∀ t : Fin grid0.N, k0_off2 (grid0.coords t) = ![0, 1024 * (t.val % 8)])

/-! ## Where the windows are idle, and where their blocks are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, cfg0.idle 2 (grid0.coords t) = true ↔ t.val % 8 ≠ 7 :=
  (by decide +kernel : ∀ t : Fin grid0.N, cfg0.idle 2 (grid0.coords t) = true ↔ t.val % 8 ≠ 7)
theorem idleAt0_3 : ∀ t : Fin cfg0.N, cfg0.idle 3 (grid0.coords t) = true ↔ t.val % 64 ≠ 63 :=
  (by decide +kernel : ∀ t : Fin grid0.N, cfg0.idle 3 (grid0.coords t) = true ↔ t.val % 64 ≠ 63)

/-! ## The memrefs the body is called with -/

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0 : Memref sig .tc .vmem S1x1024 .f32 := Memref.whole cc0_scratch0
abbrev scM1 : Memref sig .tc .vmem S1x8192 .f32 := Memref.whole cc0_scratch1

/-- What the launch hands the body besides the windows: the two accumulators at some contents, and the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Gen

end
-- ==== Proof.KB.Acc.lean ====
/-
  The running minima the kernel keeps, as functions of the tiles it has seen.  A point of the grid works on one band of
  1024 points of the first cloud and one band of 1024 points of the second; from the two bands it forms the 1024 × 1024
  tile of squared distances, the tile's row minima and its column minima, both clamped at zero.  The first scratch holds,
  for the current band of the first cloud, the minimum of the clamped row minima over the tiles seen so far (`rowAcc`);
  each 1024-wide stretch of the second scratch holds, for one band of the second cloud, the minimum of the clamped
  column minima over the bands of the first cloud seen so far (`colAcc`).  `band` cuts band `k` of batch `b` out of a
  whole cloud; `glue` lays eight stretches side by side.
-/
import proofs.«154956_j81475529605150_2_alg».proof.Proof.Gen.Kernel.Skeleton
import Idealize.ShloMosaic.Lib.ValueIdx

noncomputable section

namespace Cert.Kernel.Acc

open Idealize.ShloMosaic Idealize.ShloMosaic.ValueIdx Cert.Kernel Cert.Kernel.Gen

variable {F : FTy → Type} [FloatOps F]

/-- Band `k` (of eight, 1024 points each) of batch `b` of a cloud of 4 × 8192 points in three coordinates. Out-of-range
    `b`, `k` wrap around, so that the function is total. -/
def band (X : Vec F S4x8192x3 .f32) (b k : ℕ) : Vec F S1x1024x3 .f32 := fun y =>
  X (ix3 (⟨b % 4, Nat.mod_lt _ (by decide)⟩ : Fin 4)
         (⟨(k % 8) * 1024 + (y 1).val, by have := (y 1).isLt; have := Nat.mod_lt k (show 0 < 8 by decide); show _ < 8192; change (y 1).val < 1024 at *; omega⟩ : Fin 8192)
         (⟨(y 2).val, (y 2).isLt⟩ : Fin 3))

/-- The first scratch after tile `k` of a band `xa` of the first cloud against the bands `xb 0 … xb k` of the second: the
    first tile's clamped row minima, then the minimum with each later tile's. -/
def rowAcc (xa : Vec F S1x1024x3 .f32) (xb : ℕ → Vec F S1x1024x3 .f32) : ℕ → FVec F S1x1024 .f32
  | 0 => k0_pay8 xa (xb 0)
  | k + 1 => k0_pay9 xa (xb (k + 1)) (rowAcc xa xb k)

/-- One stretch of the second scratch after the bands `xa 0 … xa k` of the first cloud against a band `xb` of the second:
    the first tile's clamped column minima, then the minimum with each later tile's. -/
def colAcc (xa : ℕ → Vec F S1x1024x3 .f32) (xb : Vec F S1x1024x3 .f32) : ℕ → FVec F S1x1024 .f32
  | 0 => k0_pay1 (k0_pay6 (xa 0) xb)
  | k + 1 => k0_pay2 (k0_pay6 (xa (k + 1)) xb) (colAcc xa xb k)

/-- Eight 1024-wide stretches laid side by side as one row of 8192. -/
def glue (T : ℕ → FVec F S1x1024 .f32) : FVec F S1x8192 .f32 := fun j =>
  T ((j 1).val / 1024) (ix2 (0 : Fin 1) (⟨(j 1).val % 1024, Nat.mod_lt _ (by decide)⟩ : Fin 1024))

end Cert.Kernel.Acc

end
-- ==== Proof.KB.Data.lean ====
/-
  What the kernel's buffers hold, point by point.  A grid point t = 64·b + 8·i + j works on batch b, band i of the first
  cloud and band j of the second.  The two input windows' blocks at t are these two bands (`iblk0_eq`, `iblk1_eq`).
  After point t the row accumulator holds `rowState t`: the running minimum over the tiles j' ≤ j of the clamped row minima
  of band i against band j'.  Stretch k of the column accumulator holds `colState t k`: the running minimum of the clamped
  column minima of the bands i' of the first cloud against band k of the second — over i' ≤ i if the sweep of band i has
  reached stretch k (k ≤ j), over i' < i otherwise.  A stretch is `fresh` at t when this batch has written it: k ≤ j, or
  i ≥ 1.  `Inv t d` says that a row `d` of 8192 agrees with `colState t` on every fresh stretch.
-/
import proofs.«154956_j81475529605150_2_alg».proof.Proof.KB.Conds
import proofs.«154956_j81475529605150_2_alg».proof.Proof.KB.Acc

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Acc Idealize.ShloMosaic.ValueIdx

variable (m : (ℓ : Loc nD τ sig) → Buf (Elt F) ℓ) (ρ : Dev nD → PrngReg)

/-- The row accumulator after point `n`. -/
def rowState (c : Dev nD) (n : ℕ) : FVec F S1x1024 .f32 :=
  rowAcc (band (V m c main_arg0) (n / 64) (n / 8 % 8)) (fun k => band (V m c main_arg1) (n / 64) k) (n % 8)

/-- Stretch `k` of the column accumulator after point `n` (meaningful where `fresh n k`). -/
def colState (c : Dev nD) (n k : ℕ) : FVec F S1x1024 .f32 :=
  colAcc (fun i => band (V m c main_arg0) (n / 64) i) (band (V m c main_arg1) (n / 64) k) (if k ≤ n % 8 then n / 8 % 8 else n / 8 % 8 - 1)

/-- Stretch `k` has been written by the current batch after point `n`. -/
def fresh (n k : ℕ) : Prop := k ≤ n % 8 ∨ 1 ≤ n / 8 % 8

/-- A row of 8192 agrees with the column accumulator's state after point `n` on every fresh stretch. -/
def Inv (c : Dev nD) (n : ℕ) (d : Vec F S1x8192 .f32) : Prop :=
  ∀ (k : ℕ) (hk : k < 8) (q : Fin 1024), fresh n k →
    d (ix2 (0 : Fin 1) (⟨1024 * k + q.val, by have := q.isLt; omega⟩ : Fin 8192)) = colState m c n k (ix2 (0 : Fin 1) q)

/-- The windows' block indices in closed form, decided over the grid. -/
theorem idx_in : ∀ t : Fin cfg0.N, win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val % 8 ∧ win0_1.index t (2 : Fin 3) = 0 :=
  (by decide +kernel : ∀ t : Fin grid0.N, _)

theorem idx_out : ∀ t : Fin cfg0.N, win0_2.index t (0 : Fin 3) = t.val / 64 ∧ win0_2.index t (1 : Fin 3) = 0 ∧ win0_2.index t (2 : Fin 3) = t.val / 8 % 8
    ∧ win0_3.index t (0 : Fin 3) = t.val / 64 ∧ win0_3.index t (1 : Fin 3) = 0 ∧ win0_3.index t (2 : Fin 3) = 0 :=
  (by decide +kernel : ∀ t : Fin grid0.N, _)

/-- The first input window's block at point `t` is band i of batch b of the first cloud. -/
theorem iblk0_eq (c : Dev nD) (t : Fin cfg0.N) : iblk m c 0 t = band (V m c main_arg0) (t.val / 64) (t.val / 8 % 8) := by
  obtain ⟨e0, e1, e2, -, -, -⟩ := idx_in t
  have hN : t.val < 256 := lt_of_lt_of_eq t.isLt (show cfg0.N = 256 from N_0)
  funext y
  show V m c main_arg0 (((cfg0.win 0).blk t).view.emb y) = V m c main_arg0 _
  refine congrArg _ (funext fun a => Fin.ext ?_)
  match a with
  | ⟨0, _⟩ => show win0_0.index t (0 : Fin 3) * 1 + 1 * (y 0).val = t.val / 64 % 4; have hj : (y 0).val < 1 := (y 0).isLt; omega
  | ⟨1, _⟩ => show win0_0.index t (1 : Fin 3) * 1024 + 1 * (y 1).val = t.val / 8 % 8 % 8 * 1024 + (y 1).val; omega
  | ⟨2, _⟩ => show win0_0.index t (2 : Fin 3) * 3 + 1 * (y 2).val = (y 2).val; omega

/-- The second input window's block at point `t` is band j of batch b of the second cloud. -/
theorem iblk1_eq (c : Dev nD) (t : Fin cfg0.N) : iblk m c 1 t = band (V m c main_arg1) (t.val / 64) (t.val % 8) := by
  obtain ⟨-, -, -, e0, e1, e2⟩ := idx_in t
  have hN : t.val < 256 := lt_of_lt_of_eq t.isLt (show cfg0.N = 256 from N_0)
  funext y
  show V m c main_arg1 (((cfg0.win 1).blk t).view.emb y) = V m c main_arg1 _
  refine congrArg _ (funext fun a => Fin.ext ?_)
  match a with
  | ⟨0, _⟩ => show win0_1.index t (0 : Fin 3) * 1 + 1 * (y 0).val = t.val / 64 % 4; have hj : (y 0).val < 1 := (y 0).isLt; omega
  | ⟨1, _⟩ => show win0_1.index t (1 : Fin 3) * 1024 + 1 * (y 1).val = t.val % 8 % 8 * 1024 + (y 1).val; omega
  | ⟨2, _⟩ => show win0_1.index t (2 : Fin 3) * 3 + 1 * (y 2).val = (y 2).val; omega

end Cert.Kernel.Gen

end
-- ==== Proof.KB.Dats.lean ====
/-
  The pipeline's proof data.  The arrays are the clouds as launched.  After the body at point t the two input windows'
  buffers hold their blocks; the first result's buffer holds the row accumulator's state (it is stored there at j = 7,
  the only points where that window is live); the second result's holds the eight stretches of the column accumulator's
  state side by side (stored there at the batch's last point).  Between points the invariant keeps the row accumulator
  at its state and the column accumulator at SOME row that agrees with its state on every fresh stretch; before the
  first point both hold anything.
-/
import proofs.«154956_j81475529605150_2_alg».proof.Proof.KB.Data

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Acc Idealize.ShloMosaic.ValueIdx

variable (m : (ℓ : Loc nD τ sig) → Buf (Elt F) ℓ) (ρ : Dev nD → PrngReg)

/-- The invariant before position `n`. -/
def Phi (c : Dev nD) : ℕ → sProp 𝕄
  | 0 => Pipeline.ΦA spec0 c
  | n + 1 => iprop(iprop(owns (c : Thread nD τ) scM0 fullShare (rowState m c n)
      ∗ (∃ d, owns (c : Thread nD τ) scM1 fullShare d ∗ ⌜Inv m c n d⌝)) ∗ (∃ r, prngReg c r))

theorem Phi_zero (c : Dev nD) : Phi m c 0 = Pipeline.ΦA spec0 c := rfl

theorem Phi_succ (c : Dev nD) (n : ℕ) :
    Phi m c (n + 1) = iprop(iprop(owns (c : Thread nD τ) scM0 fullShare (rowState m c n)
      ∗ (∃ d, owns (c : Thread nD τ) scM1 fullShare d ∗ ⌜Inv m c n d⌝)) ∗ (∃ r, prngReg c r)) := rfl

theorem Phi_pos (c : Dev nD) (n : ℕ) (hz : n ≠ 0) :
    Phi m c n = iprop(iprop(owns (c : Thread nD τ) scM0 fullShare (rowState m c (n - 1))
      ∗ (∃ d, owns (c : Thread nD τ) scM1 fullShare d ∗ ⌜Inv m c (n - 1) d⌝)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (rowState m c t.val)
    | ⟨3, _⟩ => k0_pay4 (glue (fun k => colState m c t.val k))
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem Phi_at_succ (c : Dev nD) (t : Fin cfg0.N) : (dats m 0 c).Φ t.succ = Phi m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay3 (rowState m c t.val) := by dsimp only [dats]
theorem after0_3 (c : Dev nD) (t : Fin cfg0.N) : (dats m 0 c).after 3 t = k0_pay4 (glue (fun k => colState m c t.val k)) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.Kernel.Gen

end
-- ==== Proof.KB.Put.lean ====
/-
  A stretch of the column accumulator read and overwritten, as plain functions: `tileOf` cuts the 1024-wide stretch at
  given offsets out of a row of 8192, `putTile` replaces it.  A store through the whole shape leaves its payload; a store
  through a stretch of a buffer leaves `putTile` of what the buffer held.
-/
import proofs.«154956_j81475529605150_2_alg».proof.Proof.KB.Conds
import Idealize.ShloMosaic.Lib.WritesUnit
import Idealize.ShloMosaic.Lib.WholeRead
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A stretch of the column accumulator, read and overwritten -/

/-- The 1024-wide stretch of a row of 8192 that starts at the offsets `off`. -/
def tileOf (s1 : Vec F S1x8192 .f32) (off : Fin 2 → ℕ) (inb : ∀ a, off a + S1x1024.size a ≤ S1x8192.size a) : Vec F S1x1024 .f32 :=
  View.ld s1 (Rect.unit off S1x1024.size inb)

/-- The row of 8192 with the stretch at `off` replaced by `P`. -/
def putTile (s1 : Vec F S1x8192 .f32) (off : Fin 2 → ℕ) (P : Vec F S1x1024 .f32) : Vec F S1x8192 .f32 := fun y =>
  if h : ∀ a, off a ≤ (y a).val ∧ (y a).val < off a + S1x1024.size a then
    P (Rect.unitLocal (s := S1x8192) (off := off) (size := S1x1024.size) y h) else s1 y

/-- One store through the whole shape leaves its payload. -/
theorem read_put_whole {S : Shape} {e : EltTy} {Val : EltTy → Type} {sp : Space} (v : View sig .tc sp S e) (f : v.ty.Contents Val)
    {off : Fin S.rank → ℕ} (hz : off = fun _ => 0) (inb : ∀ a, off a + S.size a ≤ S.size a) (w : S.Idx → Val e) :
    v.read Val (v.writes Val f [(⟨Rect.unit off S.size inb, w⟩ : View.Piece Val S e)]) = w := by
  subst hz
  funext y
  exact View.read_writes_cons_unit_of_mem v f inb w [] y y rfl (fun a => (Nat.zero_add _).symm)

/-- One store through a stretch of a whole buffer held at contents that read `s1` leaves `putTile`. -/
theorem read_put_tile (M : Memref sig .tc .vmem S1x8192 .f32) (h : M.IsWhole) (s1 : Vec F S1x8192 .f32) (off : Fin 2 → ℕ)
    (inb : ∀ a, off a + S1x1024.size a ≤ S1x8192.size a) (P : Vec F S1x1024 .f32) :
    M.view.read (Elt F) (M.view.writes (Elt F) (h.unread s1) [(⟨Rect.unit off S1x1024.size inb, P⟩ : View.Piece (Elt F) S1x8192 .f32)])
      = putTile s1 off P := by
  funext y
  rw [View.read_writes_cons_unit M.view (h.unread s1) inb P [] y rfl]
  unfold putTile
  by_cases hy : ∀ a, off a ≤ (y a).val ∧ (y a).val < off a + S1x1024.size a
  · rw [dif_pos hy, dif_pos hy]
  · rw [dif_neg hy, dif_neg hy]
    exact congrFun (h.read_unread s1) y

theorem hz3 : (![0, 0, 0] : Fin 3 → ℕ) = fun _ => 0 := by funext a; fin_cases a <;> rfl
theorem hz2 : (![0, 0] : Fin 2 → ℕ) = fun _ => 0 := by funext a; fin_cases a <;> rfl

end Cert.Kernel.Gen

end
-- ==== Proof.KB.Steps.lean ====
/-
  The point-to-point steps of the kernel's two accumulators.  A grid point t = 64·b + 8·i + j folds the tile of band i of
  the first cloud against band j of the second into the row accumulator (started afresh at j = 0) and into stretch j of
  the column accumulator (started afresh at i = 0).  Here: the row accumulator's state after t from its state after
  t − 1; the column accumulator's invariant after t from the invariant after t − 1, for a row in which stretch j has
  been replaced by the fold's result; and, at the last point of a batch, that a row satisfying the invariant is the
  eight finished stretches laid side by side.
-/
import proofs.«154956_j81475529605150_2_alg».proof.Proof.KB.Data
import proofs.«154956_j81475529605150_2_alg».proof.Proof.KB.Put

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Acc Idealize.ShloMosaic.ValueIdx

variable (m : (ℓ : Loc nD τ sig) → Buf (Elt F) ℓ)

/-! ## The row accumulator -/

/-- At j = 0 the row accumulator is started: the first tile's clamped row minima. -/
theorem rowState_J0 (c : Dev nD) (t : Fin cfg0.N) (h : t.val % 8 = 0) :
    rowState m c t.val = k0_pay8 (iblk m c 0 t) (iblk m c 1 t) := by
  rw [iblk0_eq, iblk1_eq]
  unfold rowState
  rw [h]
  rfl

/-- At j ≠ 0 the row accumulator is its state after the previous point folded with the current tile: the previous point
    has the same batch, the same band of the first cloud, and band j − 1 of the second. -/
theorem rowState_Jp (c : Dev nD) (t : Fin cfg0.N) (h : t.val % 8 ≠ 0) :
    rowState m c t.val = k0_pay9 (iblk m c 0 t) (iblk m c 1 t) (rowState m c (t.val - 1)) := by
  rw [iblk0_eq, iblk1_eq]
  unfold rowState
  have h1 : (t.val - 1) / 64 = t.val / 64 := by omega
  have h2 : (t.val - 1) / 8 % 8 = t.val / 8 % 8 := by omega
  have h3 : t.val % 8 = (t.val - 1) % 8 + 1 := by omega
  rw [h1, h2, h3]
  rfl

/-! ## A stretch of a row of 8192, read and replaced, at column 1024·k + q -/

/-- The replaced stretch reads the payload. -/
theorem putTile_same (s1 : Vec F S1x8192 .f32) (P : Vec F S1x1024 .f32) (j : ℕ) (q : Fin 1024) (hlt : 1024 * j + q.val < 8192) :
    putTile s1 ![0, 1024 * j] P (ix2 (0 : Fin 1) (⟨1024 * j + q.val, hlt⟩ : Fin 8192)) = P (ix2 (0 : Fin 1) q) := by
  have hq : q.val < 1024 := q.isLt
  have hy : ∀ a : Fin S1x8192.rank, (![0, 1024 * j] : Fin 2 → ℕ) a ≤ ((ix2 (0 : Fin 1) (⟨1024 * j + q.val, hlt⟩ : Fin 8192) : S1x8192.Idx) a).val
      ∧ ((ix2 (0 : Fin 1) (⟨1024 * j + q.val, hlt⟩ : Fin 8192) : S1x8192.Idx) a).val < (![0, 1024 * j] : Fin 2 → ℕ) a + S1x1024.size a := by
    intro a; fin_cases a
    · show 0 ≤ 0 ∧ 0 < 0 + 1; omega
    · show 1024 * j ≤ 1024 * j + q.val ∧ 1024 * j + q.val < 1024 * j + 1024; omega
  unfold putTile
  rw [dif_pos hy]
  refine congrArg P (funext fun a => Fin.ext ?_)
  rw [Rect.unitLocal_val]
  fin_cases a
  · show 0 - 0 = 0; rfl
  · show 1024 * j + q.val - 1024 * j = q.val; omega

/-- Every other stretch reads the old row. -/
theorem putTile_other (s1 : Vec F S1x8192 .f32) (P : Vec F S1x1024 .f32) (j k : ℕ) (hkj : k ≠ j) (q : Fin 1024) (hlt : 1024 * k + q.val < 8192) :
    putTile s1 ![0, 1024 * j] P (ix2 (0 : Fin 1) (⟨1024 * k + q.val, hlt⟩ : Fin 8192))
      = s1 (ix2 (0 : Fin 1) (⟨1024 * k + q.val, hlt⟩ : Fin 8192)) := by
  have hq : q.val < 1024 := q.isLt
  unfold putTile
  rw [dif_neg]
  intro hy
  have h1 := hy 1
  change 1024 * j ≤ 1024 * k + q.val ∧ 1024 * k + q.val < 1024 * j + 1024 at h1
  omega

/-- The stretch cut out at column 1024·j reads the row at column 1024·j + q. -/
theorem tileOf_apply (s1 : Vec F S1x8192 .f32) (j : ℕ) (inb : ∀ a, (![0, 1024 * j] : Fin 2 → ℕ) a + S1x1024.size a ≤ S1x8192.size a)
    (y : S1x1024.Idx) (hlt : 1024 * j + (y 1).val < 8192) :
    tileOf s1 ![0, 1024 * j] inb y = s1 (ix2 (0 : Fin 1) (⟨1024 * j + (y 1).val, hlt⟩ : Fin 8192)) := by
  have hy0 : (y 0).val < 1 := (y 0).isLt
  unfold tileOf
  refine congrArg s1 (funext fun a => Fin.ext ?_)
  fin_cases a
  · show 0 + 1 * (y 0).val = 0; omega
  · show 1024 * j + 1 * (y 1).val = 1024 * j + (y 1).val; omega

/-! ## The column accumulator -/

/-- The column accumulator's state at a stretch depends on the point through its batch and its depth only. -/
theorem colState_congr (c : Dev nD) (n n' k : ℕ) (h64 : n / 64 = n' / 64)
    (hd : (if k ≤ n % 8 then n / 8 % 8 else n / 8 % 8 - 1) = (if k ≤ n' % 8 then n' / 8 % 8 else n' / 8 % 8 - 1)) :
    colState m c n k = colState m c n' k := by
  unfold colState; rw [h64, hd]

/-- i = 0, over the point's number: stretch j is started with the tile's clamped column minima; the stretches k < j were
    started at the points before, at the same depth 0. -/
theorem Inv_I0_aux (c : Dev nD) (n : ℕ) (hi : n / 8 % 8 = 0) (s1 : Vec F S1x8192 .f32) (hprev : n % 8 ≠ 0 → Inv m c (n - 1) s1)
    (off : Fin 2 → ℕ) (hoff : off = ![0, 1024 * (n % 8)]) (xa xb : Vec F S1x1024x3 .f32)
    (hxa : xa = band (V m c main_arg0) (n / 64) (n / 8 % 8)) (hxb : xb = band (V m c main_arg1) (n / 64) (n % 8)) :
    Inv m c n (putTile s1 off (k0_pay1 (k0_pay6 xa xb))) := by
  subst hoff hxa hxb
  unfold Inv
  intro k hk q hf
  have hq : q.val < 1024 := q.isLt
  have hkj : k ≤ n % 8 := by unfold fresh at hf; omega
  by_cases e : k = n % 8
  · subst e
    rw [putTile_same]
    unfold colState
    rw [if_pos le_rfl, hi]
    rfl
  · rw [putTile_other _ _ _ _ e]
    have hj : n % 8 ≠ 0 := by omega
    rw [hprev hj k hk q (by unfold fresh; omega)]
    exact congrFun (colState_congr m c (n - 1) n k (by omega) (by split_ifs <;> omega)) _

/-- i ≠ 0, over the point's number: every stretch has been written by this batch. Stretch j held the state of depth i − 1
    and is replaced by its fold with the tile's clamped column minima, the state of depth i; the other stretches keep
    their depth. -/
theorem Inv_Ip_aux (c : Dev nD) (n : ℕ) (hi : n / 8 % 8 ≠ 0) (s1 : Vec F S1x8192 .f32) (hprev : Inv m c (n - 1) s1)
    (off : Fin 2 → ℕ) (hoff : off = ![0, 1024 * (n % 8)]) (inb : ∀ a, off a + S1x1024.size a ≤ S1x8192.size a)
    (xa xb : Vec F S1x1024x3 .f32)
    (hxa : xa = band (V m c main_arg0) (n / 64) (n / 8 % 8)) (hxb : xb = band (V m c main_arg1) (n / 64) (n % 8)) :
    Inv m c n (putTile s1 off (k0_pay2 (k0_pay6 xa xb) (tileOf s1 off inb))) := by
  subst hoff hxa hxb
  unfold Inv
  intro k hk q hf
  have hq : q.val < 1024 := q.isLt
  by_cases e : k = n % 8
  · subst e
    rw [putTile_same]
    have hT : tileOf s1 ![0, 1024 * (n % 8)] inb = colState m c (n - 1) (n % 8) := by
      funext y
      have hy1 : (y 1).val < 1024 := (y 1).isLt
      have hy0 : (y 0).val < 1 := (y 0).isLt
      have ey : y = ix2 (0 : Fin 1) (⟨(y 1).val, hy1⟩ : Fin 1024) := by
        funext a; apply Fin.ext; fin_cases a
        · show (y 0).val = 0; omega
        · rfl
      refine (tileOf_apply s1 (n % 8) inb y (by omega)).trans ?_
      refine (hprev (n % 8) hk (⟨(y 1).val, hy1⟩ : Fin 1024) (by unfold fresh; omega)).trans ?_
      exact congrArg _ ey.symm
    rw [hT]
    unfold colState
    have hd1 : (if n % 8 ≤ (n - 1) % 8 then (n - 1) / 8 % 8 else (n - 1) / 8 % 8 - 1) = n / 8 % 8 - 1 := by split_ifs <;> omega
    have h64 : (n - 1) / 64 = n / 64 := by omega
    rw [hd1, h64, if_pos le_rfl]
    obtain ⟨i', hi'⟩ : ∃ i', n / 8 % 8 = i' + 1 := ⟨n / 8 % 8 - 1, by omega⟩
    rw [hi', Nat.add_sub_cancel]
    rfl
  · rw [putTile_other _ _ _ _ e]
    rw [hprev k hk q (by unfold fresh; omega)]
    exact congrFun (colState_congr m c (n - 1) n k (by omega) (by split_ifs <;> omega)) _

/-- i = 0: the invariant after the point, for the row with stretch j started. -/
theorem Inv_I0 (c : Dev nD) (t : Fin cfg0.N) (hi : t.val / 8 % 8 = 0) (s1 : Vec F S1x8192 .f32) (hprev : t.val % 8 ≠ 0 → Inv m c (t.val - 1) s1) :
    Inv m c t.val (putTile s1 (k0_off1 (grid0.coords t)) (k0_pay1 (k0_pay6 (iblk m c 0 t) (iblk m c 1 t)))) :=
  Inv_I0_aux m c t.val hi s1 hprev _ (off1_eq t) _ _ (iblk0_eq m c t) (iblk1_eq m c t)

/-- i ≠ 0: the invariant after the point, for the row with stretch j folded. -/
theorem Inv_Ip (c : Dev nD) (t : Fin cfg0.N) (hi : t.val / 8 % 8 ≠ 0) (s1 : Vec F S1x8192 .f32) (hprev : Inv m c (t.val - 1) s1)
    (inb : ∀ a, k0_off2 (grid0.coords t) a + S1x1024.size a ≤ S1x8192.size a) :
    Inv m c t.val (putTile s1 (k0_off2 (grid0.coords t)) (k0_pay2 (k0_pay6 (iblk m c 0 t) (iblk m c 1 t)) (tileOf s1 (k0_off2 (grid0.coords t)) inb))) :=
  Inv_Ip_aux m c t.val hi s1 hprev _ (off2_eq t) inb _ _ (iblk0_eq m c t) (iblk1_eq m c t)

/-- At the last point of a batch every stretch is fresh: a row satisfying the invariant is the eight states side by side. -/
theorem glue_of_Inv (c : Dev nD) (t : Fin cfg0.N) (hL : t.val % 64 = 63) (d : Vec F S1x8192 .f32) (h : Inv m c t.val d) :
    d = glue (fun k => colState m c t.val k) := by
  funext y
  have hy1 : (y 1).val < 8192 := (y 1).isLt
  have hy0 : (y 0).val < 1 := (y 0).isLt
  have hk : (y 1).val / 1024 < 8 := by omega
  have hf : fresh t.val ((y 1).val / 1024) := Or.inl (by omega)
  have key := h _ hk (⟨(y 1).val % 1024, Nat.mod_lt _ (by decide)⟩ : Fin 1024) hf
  refine Eq.trans (congrArg d ?_) key
  funext a; apply Fin.ext; fin_cases a
  · show (y 0).val = 0; omega
  · show (y 1).val = 1024 * ((y 1).val / 1024) + (y 1).val % 1024; omega

end Cert.Kernel.Gen

end
-- ==== Proof.KB.RunA.lean ====
/-
  The kernel body run at the grid points where the row accumulator is not handed over (j < 7): four cases, by j = 0 or not and i = 0 or not.  Each states what the six buffers hold afterwards as functions of what they held before.
-/
import proofs.«154956_j81475529605150_2_alg».proof.Proof.KB.Put

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where j = 0, i = 0: the row accumulator restarts from this tile's clamped row minima, the stretch of the column accumulator
    at this tile's columns restarts from its clamped column minima. -/
theorem run_00 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : cJ0 i) (hJp : ¬cJp i) (hI0 : cI0 i) (hIp : ¬cIp i) (hJ7 : ¬cJ7 i) (hL : ¬cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare o2 ∗ owns (c : Thread nD τ) arg6 fullShare o3
            ∗ owns (c : Thread nD τ) arg7 fullShare (k0_pay8 x0 x1)
            ∗ owns (c : Thread nD τ) arg8 fullShare (putTile s1 (k0_off1 i) (k0_pay1 (k0_pay6 x0 x1)))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

set_option maxHeartbeats 1000000 in
/-- The body at a point where j = 0, i ≠ 0: the row accumulator restarts from this tile's clamped row minima, the stretch of the column accumulator
    at this tile's columns is folded with its clamped column minima. -/
theorem run_0p (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : cJ0 i) (hJp : ¬cJp i) (hI0 : ¬cI0 i) (hIp : cIp i) (hJ7 : ¬cJ7 i) (hL : ¬cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare o2 ∗ owns (c : Thread nD τ) arg6 fullShare o3
            ∗ owns (c : Thread nD τ) arg7 fullShare (k0_pay8 x0 x1)
            ∗ owns (c : Thread nD τ) arg8 fullShare (putTile s1 (k0_off2 i) (k0_pay2 (k0_pay6 x0 x1) (tileOf s1 (k0_off2 i) (k0_off2_inb i hIp))))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

set_option maxHeartbeats 1000000 in
/-- The body at a point where 0 < j < 7, i = 0: the row accumulator is folded with this tile's clamped row minima, the stretch of the column accumulator
    at this tile's columns restarts from its clamped column minima. -/
theorem run_m0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : ¬cJ0 i) (hJp : cJp i) (hI0 : cI0 i) (hIp : ¬cIp i) (hJ7 : ¬cJ7 i) (hL : ¬cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare o2 ∗ owns (c : Thread nD τ) arg6 fullShare o3
            ∗ owns (c : Thread nD τ) arg7 fullShare (k0_pay9 x0 x1 s0)
            ∗ owns (c : Thread nD τ) arg8 fullShare (putTile s1 (k0_off1 i) (k0_pay1 (k0_pay6 x0 x1)))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

set_option maxHeartbeats 1000000 in
/-- The body at a point where 0 < j < 7, i ≠ 0: the row accumulator is folded with this tile's clamped row minima, the stretch of the column accumulator
    at this tile's columns is folded with its clamped column minima. -/
theorem run_mp (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : ¬cJ0 i) (hJp : cJp i) (hI0 : ¬cI0 i) (hIp : cIp i) (hJ7 : ¬cJ7 i) (hL : ¬cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare o2 ∗ owns (c : Thread nD τ) arg6 fullShare o3
            ∗ owns (c : Thread nD τ) arg7 fullShare (k0_pay9 x0 x1 s0)
            ∗ owns (c : Thread nD τ) arg8 fullShare (putTile s1 (k0_off2 i) (k0_pay2 (k0_pay6 x0 x1) (tileOf s1 (k0_off2 i) (k0_off2_inb i hIp))))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

end Cert.Kernel.Gen

end
-- ==== Proof.KB.RunB.lean ====
/-
  The kernel body run at the grid points where the row accumulator is handed to the first result's block (j = 7): three cases, i = 0, 0 < i < 7 or i = 7 — at i = 7 the column accumulator is handed to the second result's block as well.
-/
import proofs.«154956_j81475529605150_2_alg».proof.Proof.KB.Put

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where j = 7, i = 0: the row accumulator is folded with this tile's clamped row minima, the stretch of the column accumulator
    at this tile's columns restarts from its clamped column minima, the row accumulator goes to the first result's block. -/
theorem run_70 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : ¬cJ0 i) (hJp : cJp i) (hI0 : cI0 i) (hIp : ¬cIp i) (hJ7 : cJ7 i) (hL : ¬cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare (k0_pay3 (k0_pay9 x0 x1 s0)) ∗ owns (c : Thread nD τ) arg6 fullShare o3
            ∗ owns (c : Thread nD τ) arg7 fullShare (k0_pay9 x0 x1 s0)
            ∗ owns (c : Thread nD τ) arg8 fullShare (putTile s1 (k0_off1 i) (k0_pay1 (k0_pay6 x0 x1)))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_put_whole (S := S1x1x1024) _ _ hz3]
    simp only [View.readCov_unit_zero (S := S1x1024) _ hz2, View.readAt_eq_ld, harg3.read_unread, harg4.read_unread, harg5.read_unread, harg6.read_unread, harg7.read_unread, harg8.read_unread, View.ld_unit_zero (S := S1x1024x3) hz3, View.ld_unit_zero (S := S1x1024) hz2]
  isplitl [H3]
  · iexists _; isplitr; · ipureintro; exact harg6.read_unread _
    iexact H3
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

set_option maxHeartbeats 1000000 in
/-- The body at a point where j = 7, i ≠ 0, not the batch's last point: the row accumulator is folded with this tile's clamped row minima, the stretch of the column accumulator
    at this tile's columns is folded with its clamped column minima, the row accumulator goes to the first result's block. -/
theorem run_7p (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : ¬cJ0 i) (hJp : cJp i) (hI0 : ¬cI0 i) (hIp : cIp i) (hJ7 : cJ7 i) (hL : ¬cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare (k0_pay3 (k0_pay9 x0 x1 s0)) ∗ owns (c : Thread nD τ) arg6 fullShare o3
            ∗ owns (c : Thread nD τ) arg7 fullShare (k0_pay9 x0 x1 s0)
            ∗ owns (c : Thread nD τ) arg8 fullShare (putTile s1 (k0_off2 i) (k0_pay2 (k0_pay6 x0 x1) (tileOf s1 (k0_off2 i) (k0_off2_inb i hIp))))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_put_whole (S := S1x1x1024) _ _ hz3]
    simp only [View.readCov_unit_zero (S := S1x1024) _ hz2, View.readAt_eq_ld, harg3.read_unread, harg4.read_unread, harg5.read_unread, harg6.read_unread, harg7.read_unread, harg8.read_unread, View.ld_unit_zero (S := S1x1024x3) hz3, View.ld_unit_zero (S := S1x1024) hz2]
  isplitl [H3]
  · iexists _; isplitr; · ipureintro; exact harg6.read_unread _
    iexact H3
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

set_option maxHeartbeats 1000000 in
/-- The body at a point where j = 7, i ≠ 0, and it is the batch's last point: the row accumulator is folded with this tile's clamped row minima, the stretch of the column accumulator
    at this tile's columns is folded with its clamped column minima, the row accumulator goes to the first result's block, the column accumulator to the second's. -/
theorem run_7L (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : ¬cJ0 i) (hJp : cJp i) (hI0 : ¬cI0 i) (hIp : cIp i) (hJ7 : cJ7 i) (hL : cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare (k0_pay3 (k0_pay9 x0 x1 s0)) ∗ owns (c : Thread nD τ) arg6 fullShare (k0_pay4 (putTile s1 (k0_off2 i) (k0_pay2 (k0_pay6 x0 x1) (tileOf s1 (k0_off2 i) (k0_off2_inb i hIp)))))
            ∗ owns (c : Thread nD τ) arg7 fullShare (k0_pay9 x0 x1 s0)
            ∗ owns (c : Thread nD τ) arg8 fullShare (putTile s1 (k0_off2 i) (k0_pay2 (k0_pay6 x0 x1) (tileOf s1 (k0_off2 i) (k0_off2_inb i hIp))))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_put_whole (S := S1x1x1024) _ _ hz3]
    simp only [View.readCov_unit_zero (S := S1x1024) _ hz2, View.readAt_eq_ld, harg3.read_unread, harg4.read_unread, harg5.read_unread, harg6.read_unread, harg7.read_unread, harg8.read_unread, View.ld_unit_zero (S := S1x1024x3) hz3, View.ld_unit_zero (S := S1x1024) hz2]
  isplitl [H3]
  · iexists _; isplitr
    swap; · iexact H3
    ipureintro
    sl_unfold_run_names
    rw [read_put_whole (S := S1x1x8192) _ _ hz3]
    rw [View.readAt_eq_ld, read_put_tile, View.ld_unit_zero (S := S1x8192) hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

end Cert.Kernel.Gen

end
-- ==== Proof.KB.Body.lean ====
/-
  The body obligation and the run.  At every grid point the body is one of seven runs, picked by j = 0 / 0 < j < 7 / j = 7,
  i = 0 / i ≠ 0 and, at j = 7, whether the point is the batch's last.  Each run is handed the two input blocks, the two
  result buffers at whatever they hold, the row accumulator at its state after the point before (at anything, at the
  very first point) and the column accumulator at a row that agrees with its state on the fresh stretches; it hands
  back the accumulators at their states after this point (the steps of the two accumulators, proved apart), and a
  result's buffer at the accumulator's state where it stores it, untouched where the window is idle.
-/
import proofs.«154956_j81475529605150_2_alg».proof.Proof.KB.Dats
import proofs.«154956_j81475529605150_2_alg».proof.Proof.KB.Steps
import proofs.«154956_j81475529605150_2_alg».proof.Proof.KB.RunA
import proofs.«154956_j81475529605150_2_alg».proof.Proof.KB.RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Acc Idealize.ShloMosaic.ValueIdx

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_at_succ m c t, Phi_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases hj0 : t.val % 8 = 0
  · have hj7 : ¬t.val % 8 = 7 := by omega
    have hl : ¬t.val % 64 = 63 := by omega
    by_cases hi0 : t.val / 8 % 8 = 0
    · by_cases hz : t.val = 0
      ·
        rw [Dat.leavesExact_idle (dats m 0 c) 2 t ((idleAt0_2 t).mpr hj7) (Bool.eq_false_iff.mpr (fun h => hj7 ((flush0_2 t).mp h)))]
        rw [Dat.leavesExact_idle (dats m 0 c) 3 t ((idleAt0_3 t).mpr hl) (Bool.eq_false_iff.mpr (fun h => hl ((flush0_3 t).mp h)))]
        rw [rowState_J0 m c t hj0]
        rw [Phi_castSucc m c t, show Phi m c t.val = Phi m c 0 from by rw [hz], Phi_zero, PhiA0_eq]
        iintro ⟨⟨⟨⟨%s0, HS0⟩, ⟨%s1, HS1⟩⟩, Hg⟩, Ho, ⟨%d0, H0⟩, ⟨%d1, H1⟩, ⟨%d2, H2⟩, ⟨%d3, H3⟩⟩
        iapply (run_00 c (grid0.coords t) (ms0_0 t) (hs0_0 t) (ms0_1 t) (hs0_1 t) (ms0_2 t) (hs0_2 t) (ms0_3 t) (hs0_3 t) scM0 (Memref.isWhole_whole _) scM1 (Memref.isWhole_whole _)
          ((hcJ0 t).mpr hj0) (fun h => (hcJp t).mp h hj0) ((hcI0 t).mpr hi0) (fun h => (hcIp t).mp h hi0) (fun h => hj7 ((hcJ7 t).mp h)) (fun h => hl ((hcL t).mp h)) (iblk m c 0 t) (iblk m c 1 t) s0 s1 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitl [HS1]; · iexact HS1
            ipureintro; exact Inv_I0 m c t hi0 s1 (fun h => absurd (by omega) h)
          iexact Hg
        isplitl [Ho]; · iexact Ho
        isplitl [H0]; · iexact H0
        isplitl [H1]; · iexact H1
        isplitl [H2]; · iexists _; iexact H2
        iexists _; iexact H3
      ·
        rw [Dat.leavesExact_idle (dats m 0 c) 2 t ((idleAt0_2 t).mpr hj7) (Bool.eq_false_iff.mpr (fun h => hj7 ((flush0_2 t).mp h)))]
        rw [Dat.leavesExact_idle (dats m 0 c) 3 t ((idleAt0_3 t).mpr hl) (Bool.eq_false_iff.mpr (fun h => hl ((flush0_3 t).mp h)))]
        rw [rowState_J0 m c t hj0]
        rw [Phi_castSucc m c t, Phi_pos m c _ hz]
        iintro ⟨⟨⟨HS0, ⟨%s1, HS1, %hInv⟩⟩, Hg⟩, Ho, ⟨%d0, H0⟩, ⟨%d1, H1⟩, ⟨%d2, H2⟩, ⟨%d3, H3⟩⟩
        iapply (run_00 c (grid0.coords t) (ms0_0 t) (hs0_0 t) (ms0_1 t) (hs0_1 t) (ms0_2 t) (hs0_2 t) (ms0_3 t) (hs0_3 t) scM0 (Memref.isWhole_whole _) scM1 (Memref.isWhole_whole _)
          ((hcJ0 t).mpr hj0) (fun h => (hcJp t).mp h hj0) ((hcI0 t).mpr hi0) (fun h => (hcIp t).mp h hi0) (fun h => hj7 ((hcJ7 t).mp h)) (fun h => hl ((hcL t).mp h)) (iblk m c 0 t) (iblk m c 1 t) (rowState m c (t.val - 1)) s1 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitl [HS1]; · iexact HS1
            ipureintro; exact Inv_I0 m c t hi0 s1 (fun h => absurd hj0 h)
          iexact Hg
        isplitl [Ho]; · iexact Ho
        isplitl [H0]; · iexact H0
        isplitl [H1]; · iexact H1
        isplitl [H2]; · iexists _; iexact H2
        iexists _; iexact H3
    · have hz : t.val ≠ 0 := by omega
      rw [Dat.leavesExact_idle (dats m 0 c) 2 t ((idleAt0_2 t).mpr hj7) (Bool.eq_false_iff.mpr (fun h => hj7 ((flush0_2 t).mp h)))]
      rw [Dat.leavesExact_idle (dats m 0 c) 3 t ((idleAt0_3 t).mpr hl) (Bool.eq_false_iff.mpr (fun h => hl ((flush0_3 t).mp h)))]
      rw [rowState_J0 m c t hj0]
      rw [Phi_castSucc m c t, Phi_pos m c _ hz]
      iintro ⟨⟨⟨HS0, ⟨%s1, HS1, %hInv⟩⟩, Hg⟩, Ho, ⟨%d0, H0⟩, ⟨%d1, H1⟩, ⟨%d2, H2⟩, ⟨%d3, H3⟩⟩
      iapply (run_0p c (grid0.coords t) (ms0_0 t) (hs0_0 t) (ms0_1 t) (hs0_1 t) (ms0_2 t) (hs0_2 t) (ms0_3 t) (hs0_3 t) scM0 (Memref.isWhole_whole _) scM1 (Memref.isWhole_whole _)
        ((hcJ0 t).mpr hj0) (fun h => (hcJp t).mp h hj0) (fun h => hi0 ((hcI0 t).mp h)) ((hcIp t).mpr hi0) (fun h => hj7 ((hcJ7 t).mp h)) (fun h => hl ((hcL t).mp h)) (iblk m c 0 t) (iblk m c 1 t) (rowState m c (t.val - 1)) s1 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexists _; isplitl [HS1]; · iexact HS1
          ipureintro; exact Inv_Ip m c t hi0 s1 hInv _
        iexact Hg
      isplitl [Ho]; · iexact Ho
      isplitl [H0]; · iexact H0
      isplitl [H1]; · iexact H1
      isplitl [H2]; · iexists _; iexact H2
      iexists _; iexact H3
  · have hz : t.val ≠ 0 := by omega
    by_cases hj7 : t.val % 8 = 7
    · by_cases hi0 : t.val / 8 % 8 = 0
      · have hl : ¬t.val % 64 = 63 := by omega
        rw [show (dats m 0 c).leavesExact 2 t = owns (c : Thread nD τ) (ms0_2 t) fullShare ((dats m 0 c).after 2 t) from by
          unfold Dat.leavesExact; rw [show cfg0.idle 2 (grid0.coords t) = false from Bool.eq_false_iff.mpr (fun h => (idleAt0_2 t).mp h hj7)], after0_2]
        rw [Dat.leavesExact_idle (dats m 0 c) 3 t ((idleAt0_3 t).mpr hl) (Bool.eq_false_iff.mpr (fun h => hl ((flush0_3 t).mp h)))]
        rw [rowState_Jp m c t hj0]
        rw [Phi_castSucc m c t, Phi_pos m c _ hz]
        iintro ⟨⟨⟨HS0, ⟨%s1, HS1, %hInv⟩⟩, Hg⟩, Ho, ⟨%d0, H0⟩, ⟨%d1, H1⟩, ⟨%d2, H2⟩, ⟨%d3, H3⟩⟩
        iapply (run_70 c (grid0.coords t) (ms0_0 t) (hs0_0 t) (ms0_1 t) (hs0_1 t) (ms0_2 t) (hs0_2 t) (ms0_3 t) (hs0_3 t) scM0 (Memref.isWhole_whole _) scM1 (Memref.isWhole_whole _)
          (fun h => hj0 ((hcJ0 t).mp h)) ((hcJp t).mpr hj0) ((hcI0 t).mpr hi0) (fun h => (hcIp t).mp h hi0) ((hcJ7 t).mpr hj7) (fun h => hl ((hcL t).mp h)) (iblk m c 0 t) (iblk m c 1 t) (rowState m c (t.val - 1)) s1 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitl [HS1]; · iexact HS1
            ipureintro; exact Inv_I0 m c t hi0 s1 (fun _ => hInv)
          iexact Hg
        isplitl [Ho]; · iexact Ho
        isplitl [H0]; · iexact H0
        isplitl [H1]; · iexact H1
        isplitl [H2]; · iexact H2
        iexists _; iexact H3
      · by_cases hl : t.val % 64 = 63
        ·
          rw [show (dats m 0 c).leavesExact 2 t = owns (c : Thread nD τ) (ms0_2 t) fullShare ((dats m 0 c).after 2 t) from by
            unfold Dat.leavesExact; rw [show cfg0.idle 2 (grid0.coords t) = false from Bool.eq_false_iff.mpr (fun h => (idleAt0_2 t).mp h hj7)], after0_2]
          rw [show (dats m 0 c).leavesExact 3 t = owns (c : Thread nD τ) (ms0_3 t) fullShare ((dats m 0 c).after 3 t) from by
            unfold Dat.leavesExact; rw [show cfg0.idle 3 (grid0.coords t) = false from Bool.eq_false_iff.mpr (fun h => (idleAt0_3 t).mp h hl)], after0_3]
          rw [rowState_Jp m c t hj0]
          rw [Phi_castSucc m c t, Phi_pos m c _ hz]
          iintro ⟨⟨⟨HS0, ⟨%s1, HS1, %hInv⟩⟩, Hg⟩, Ho, ⟨%d0, H0⟩, ⟨%d1, H1⟩, ⟨%d2, H2⟩, ⟨%d3, H3⟩⟩
          iapply (run_7L c (grid0.coords t) (ms0_0 t) (hs0_0 t) (ms0_1 t) (hs0_1 t) (ms0_2 t) (hs0_2 t) (ms0_3 t) (hs0_3 t) scM0 (Memref.isWhole_whole _) scM1 (Memref.isWhole_whole _)
            (fun h => hj0 ((hcJ0 t).mp h)) ((hcJp t).mpr hj0) (fun h => hi0 ((hcI0 t).mp h)) ((hcIp t).mpr hi0) ((hcJ7 t).mpr hj7) ((hcL t).mpr hl) (iblk m c 0 t) (iblk m c 1 t) (rowState m c (t.val - 1)) s1 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, HS0, HS1⟩
          isplitl [HS0 HS1 Hg]
          · isplitl [HS0 HS1]
            · isplitl [HS0]; · iexact HS0
              iexists _; isplitl [HS1]; · iexact HS1
              ipureintro; exact Inv_Ip m c t hi0 s1 hInv _
            iexact Hg
          isplitl [Ho]; · iexact Ho
          isplitl [H0]; · iexact H0
          isplitl [H1]; · iexact H1
          isplitl [H2]; · iexact H2
          rw [← glue_of_Inv m c t hl (putTile s1 (k0_off2 (grid0.coords t)) (k0_pay2 (k0_pay6 (iblk m c 0 t) (iblk m c 1 t)) (tileOf s1 (k0_off2 (grid0.coords t)) (k0_off2_inb (grid0.coords t) ((hcIp t).mpr hi0)))))
      (Inv_Ip m c t hi0 s1 hInv _)]
          iexact H3
        ·
          rw [show (dats m 0 c).leavesExact 2 t = owns (c : Thread nD τ) (ms0_2 t) fullShare ((dats m 0 c).after 2 t) from by
            unfold Dat.leavesExact; rw [show cfg0.idle 2 (grid0.coords t) = false from Bool.eq_false_iff.mpr (fun h => (idleAt0_2 t).mp h hj7)], after0_2]
          rw [Dat.leavesExact_idle (dats m 0 c) 3 t ((idleAt0_3 t).mpr hl) (Bool.eq_false_iff.mpr (fun h => hl ((flush0_3 t).mp h)))]
          rw [rowState_Jp m c t hj0]
          rw [Phi_castSucc m c t, Phi_pos m c _ hz]
          iintro ⟨⟨⟨HS0, ⟨%s1, HS1, %hInv⟩⟩, Hg⟩, Ho, ⟨%d0, H0⟩, ⟨%d1, H1⟩, ⟨%d2, H2⟩, ⟨%d3, H3⟩⟩
          iapply (run_7p c (grid0.coords t) (ms0_0 t) (hs0_0 t) (ms0_1 t) (hs0_1 t) (ms0_2 t) (hs0_2 t) (ms0_3 t) (hs0_3 t) scM0 (Memref.isWhole_whole _) scM1 (Memref.isWhole_whole _)
            (fun h => hj0 ((hcJ0 t).mp h)) ((hcJp t).mpr hj0) (fun h => hi0 ((hcI0 t).mp h)) ((hcIp t).mpr hi0) ((hcJ7 t).mpr hj7) (fun h => hl ((hcL t).mp h)) (iblk m c 0 t) (iblk m c 1 t) (rowState m c (t.val - 1)) s1 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, HS0, HS1⟩
          isplitl [HS0 HS1 Hg]
          · isplitl [HS0 HS1]
            · isplitl [HS0]; · iexact HS0
              iexists _; isplitl [HS1]; · iexact HS1
              ipureintro; exact Inv_Ip m c t hi0 s1 hInv _
            iexact Hg
          isplitl [Ho]; · iexact Ho
          isplitl [H0]; · iexact H0
          isplitl [H1]; · iexact H1
          isplitl [H2]; · iexact H2
          iexists _; iexact H3
    · have hl : ¬t.val % 64 = 63 := by omega
      by_cases hi0 : t.val / 8 % 8 = 0
      ·
        rw [Dat.leavesExact_idle (dats m 0 c) 2 t ((idleAt0_2 t).mpr hj7) (Bool.eq_false_iff.mpr (fun h => hj7 ((flush0_2 t).mp h)))]
        rw [Dat.leavesExact_idle (dats m 0 c) 3 t ((idleAt0_3 t).mpr hl) (Bool.eq_false_iff.mpr (fun h => hl ((flush0_3 t).mp h)))]
        rw [rowState_Jp m c t hj0]
        rw [Phi_castSucc m c t, Phi_pos m c _ hz]
        iintro ⟨⟨⟨HS0, ⟨%s1, HS1, %hInv⟩⟩, Hg⟩, Ho, ⟨%d0, H0⟩, ⟨%d1, H1⟩, ⟨%d2, H2⟩, ⟨%d3, H3⟩⟩
        iapply (run_m0 c (grid0.coords t) (ms0_0 t) (hs0_0 t) (ms0_1 t) (hs0_1 t) (ms0_2 t) (hs0_2 t) (ms0_3 t) (hs0_3 t) scM0 (Memref.isWhole_whole _) scM1 (Memref.isWhole_whole _)
          (fun h => hj0 ((hcJ0 t).mp h)) ((hcJp t).mpr hj0) ((hcI0 t).mpr hi0) (fun h => (hcIp t).mp h hi0) (fun h => hj7 ((hcJ7 t).mp h)) (fun h => hl ((hcL t).mp h)) (iblk m c 0 t) (iblk m c 1 t) (rowState m c (t.val - 1)) s1 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitl [HS1]; · iexact HS1
            ipureintro; exact Inv_I0 m c t hi0 s1 (fun _ => hInv)
          iexact Hg
        isplitl [Ho]; · iexact Ho
        isplitl [H0]; · iexact H0
        isplitl [H1]; · iexact H1
        isplitl [H2]; · iexists _; iexact H2
        iexists _; iexact H3
      ·
        rw [Dat.leavesExact_idle (dats m 0 c) 2 t ((idleAt0_2 t).mpr hj7) (Bool.eq_false_iff.mpr (fun h => hj7 ((flush0_2 t).mp h)))]
        rw [Dat.leavesExact_idle (dats m 0 c) 3 t ((idleAt0_3 t).mpr hl) (Bool.eq_false_iff.mpr (fun h => hl ((flush0_3 t).mp h)))]
        rw [rowState_Jp m c t hj0]
        rw [Phi_castSucc m c t, Phi_pos m c _ hz]
        iintro ⟨⟨⟨HS0, ⟨%s1, HS1, %hInv⟩⟩, Hg⟩, Ho, ⟨%d0, H0⟩, ⟨%d1, H1⟩, ⟨%d2, H2⟩, ⟨%d3, H3⟩⟩
        iapply (run_mp c (grid0.coords t) (ms0_0 t) (hs0_0 t) (ms0_1 t) (hs0_1 t) (ms0_2 t) (hs0_2 t) (ms0_3 t) (hs0_3 t) scM0 (Memref.isWhole_whole _) scM1 (Memref.isWhole_whole _)
          (fun h => hj0 ((hcJ0 t).mp h)) ((hcJp t).mpr hj0) (fun h => hi0 ((hcI0 t).mp h)) ((hcIp t).mpr hi0) (fun h => hj7 ((hcJ7 t).mp h)) (fun h => hl ((hcL t).mp h)) (iblk m c 0 t) (iblk m c 1 t) (rowState m c (t.val - 1)) s1 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitl [HS1]; · iexact HS1
            ipureintro; exact Inv_Ip m c t hi0 s1 hInv _
          iexact Hg
        isplitl [Ho]; · iexact Ho
        isplitl [H0]; · iexact H0
        isplitl [H1]; · iexact H1
        isplitl [H2]; · iexists _; iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl, Phi_zero]
  try exact Idealize.SL.BI.Entails.refl _

/-- After the last point the invariant gives the accumulators back at some contents. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 256 := N_0; omega), PhiA0_eq]
  iintro ⟨⟨HS0, ⟨%d, HS1, %_h⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline ends at what the library computes
    from the proof data, every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Gen

end
-- ==== Proof.KI.Conds.lean ====
/-
  The six branches of the kernel body, decided over the grid.  A grid point t = 64·b + 8·i + j works on batch b, band i
  of the first cloud and band j of the second.  The body branches on j = 0 (start the row accumulator) against j ≠ 0
  (fold into it), on i = 0 (start a stretch of the column accumulator) against i ≠ 0 (fold into it), on j = 7 (hand the
  row accumulator to the first result's block) and on i = 7 ∧ j = 7 (hand the column accumulator to the second result's
  block).  Each condition is a scalar chain over the coordinates; here each is decided at every point of the grid in
  closed form, together with where the two result windows are idle and where their blocks are written back.
-/
import proofs.«154956_j81475529605150_2_alg».proof.Proof.Gen.KernelIdeal.Frame
import proofs.«154956_j81475529605150_2_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions -/

/-- j = 0: the body's first branch, as its scalar chain over the coordinates. -/
abbrev cJ0 (i : grid0.Coords) : Prop := (Scalar.cmpi .ne (Scalar.extui (Scalar.cmpi .eq (BitVec.ofNat 32 (i 2).val) 0#32)) 0#32) = 1#1
/-- j ≠ 0: the second branch. -/
abbrev cJp (i : grid0.Coords) : Prop := (Scalar.cmpi .ne (Scalar.extui (Scalar.cmpi .ne (BitVec.ofNat 32 (i 2).val) 0#32)) 0#32) = 1#1
/-- i = 0, i ≠ 0, j = 7, i = 7 ∧ j = 7: the printed conditions. -/
abbrev cI0 (i : grid0.Coords) : Prop := k0_cond3 i = 1#1
abbrev cIp (i : grid0.Coords) : Prop := k0_cond4 i = 1#1
abbrev cJ7 (i : grid0.Coords) : Prop := k0_cond5 i = 1#1
abbrev cL (i : grid0.Coords) : Prop := k0_cond6 i = 1#1

theorem hcJ0 : ∀ t : Fin cfg0.N, cJ0 (grid0.coords t) ↔ t.val % 8 = 0 :=
  (by decide +kernel : ∀ t : Fin grid0.N, cJ0 (grid0.coords t) ↔ t.val % 8 = 0)
theorem hcJp : ∀ t : Fin cfg0.N, cJp (grid0.coords t) ↔ t.val % 8 ≠ 0 :=
  (by decide +kernel : ∀ t : Fin grid0.N, cJp (grid0.coords t) ↔ t.val % 8 ≠ 0)
theorem hcI0 : ∀ t : Fin cfg0.N, cI0 (grid0.coords t) ↔ t.val / 8 % 8 = 0 :=
  (by decide +kernel : ∀ t : Fin grid0.N, cI0 (grid0.coords t) ↔ t.val / 8 % 8 = 0)
theorem hcIp : ∀ t : Fin cfg0.N, cIp (grid0.coords t) ↔ t.val / 8 % 8 ≠ 0 :=
  (by decide +kernel : ∀ t : Fin grid0.N, cIp (grid0.coords t) ↔ t.val / 8 % 8 ≠ 0)
theorem hcJ7 : ∀ t : Fin cfg0.N, cJ7 (grid0.coords t) ↔ t.val % 8 = 7 :=
  (by decide +kernel : ∀ t : Fin grid0.N, cJ7 (grid0.coords t) ↔ t.val % 8 = 7)
theorem hcL : ∀ t : Fin cfg0.N, cL (grid0.coords t) ↔ t.val % 64 = 63 :=
  (by decide +kernel : ∀ t : Fin grid0.N, cL (grid0.coords t) ↔ t.val % 64 = 63)

/-- The stretch of the column accumulator a point works on starts at column 1024·j. -/
theorem off1_eq : ∀ t : Fin cfg0.N, k0_off1 (grid0.coords t) = ![0, 1024 * (t.val % 8)] :=
  (by decide +kernel : ∀ t : Fin grid0.N, k0_off1 (grid0.coords t) = ![0, 1024 * (t.val % 8)])
theorem off2_eq : ∀ t : Fin cfg0.N, k0_off2 (grid0.coords t) = ![0, 1024 * (t.val % 8)] :=
  (by decide +kernel : ∀ t : Fin grid0.N, k0_off2 (grid0.coords t) = ![0, 1024 * (t.val % 8)])

/-! ## Where the windows are idle, and where their blocks are written back -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, cfg0.idle 2 (grid0.coords t) = true ↔ t.val % 8 ≠ 7 :=
  (by decide +kernel : ∀ t : Fin grid0.N, cfg0.idle 2 (grid0.coords t) = true ↔ t.val % 8 ≠ 7)
theorem idleAt0_3 : ∀ t : Fin cfg0.N, cfg0.idle 3 (grid0.coords t) = true ↔ t.val % 64 ≠ 63 :=
  (by decide +kernel : ∀ t : Fin grid0.N, cfg0.idle 3 (grid0.coords t) = true ↔ t.val % 64 ≠ 63)

/-! ## The memrefs the body is called with -/

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0 : Memref sig .tc .vmem S1x1024 .f32 := Memref.whole cc0_scratch0
abbrev scM1 : Memref sig .tc .vmem S1x8192 .f32 := Memref.whole cc0_scratch1

/-- What the launch hands the body besides the windows: the two accumulators at some contents, and the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Gen

end
-- ==== Proof.KI.Acc.lean ====
/-
  The running minima the kernel keeps, as functions of the tiles it has seen.  A point of the grid works on one band of
  1024 points of the first cloud and one band of 1024 points of the second; from the two bands it forms the 1024 × 1024
  tile of squared distances, the tile's row minima and its column minima, both clamped at zero.  The first scratch holds,
  for the current band of the first cloud, the minimum of the clamped row minima over the tiles seen so far (`rowAcc`);
  each 1024-wide stretch of the second scratch holds, for one band of the second cloud, the minimum of the clamped
  column minima over the bands of the first cloud seen so far (`colAcc`).  `band` cuts band `k` of batch `b` out of a
  whole cloud; `glue` lays eight stretches side by side.
-/
import proofs.«154956_j81475529605150_2_alg».proof.Proof.Gen.KernelIdeal.Skeleton
import Idealize.ShloMosaic.Lib.ValueIdx

noncomputable section

namespace Cert.KernelIdeal.Acc

open Idealize.ShloMosaic Idealize.ShloMosaic.ValueIdx Cert.KernelIdeal Cert.KernelIdeal.Gen

variable {F : FTy → Type} [FloatOps F]

/-- Band `k` (of eight, 1024 points each) of batch `b` of a cloud of 4 × 8192 points in three coordinates. Out-of-range
    `b`, `k` wrap around, so that the function is total. -/
def band (X : Vec F S4x8192x3 .f32) (b k : ℕ) : Vec F S1x1024x3 .f32 := fun y =>
  X (ix3 (⟨b % 4, Nat.mod_lt _ (by decide)⟩ : Fin 4)
         (⟨(k % 8) * 1024 + (y 1).val, by have := (y 1).isLt; have := Nat.mod_lt k (show 0 < 8 by decide); show _ < 8192; change (y 1).val < 1024 at *; omega⟩ : Fin 8192)
         (⟨(y 2).val, (y 2).isLt⟩ : Fin 3))

/-- The first scratch after tile `k` of a band `xa` of the first cloud against the bands `xb 0 … xb k` of the second: the
    first tile's clamped row minima, then the minimum with each later tile's. -/
def rowAcc (xa : Vec F S1x1024x3 .f32) (xb : ℕ → Vec F S1x1024x3 .f32) : ℕ → FVec F S1x1024 .f32
  | 0 => k0_pay8 xa (xb 0)
  | k + 1 => k0_pay9 xa (xb (k + 1)) (rowAcc xa xb k)

/-- One stretch of the second scratch after the bands `xa 0 … xa k` of the first cloud against a band `xb` of the second:
    the first tile's clamped column minima, then the minimum with each later tile's. -/
def colAcc (xa : ℕ → Vec F S1x1024x3 .f32) (xb : Vec F S1x1024x3 .f32) : ℕ → FVec F S1x1024 .f32
  | 0 => k0_pay1 (k0_pay6 (xa 0) xb)
  | k + 1 => k0_pay2 (k0_pay6 (xa (k + 1)) xb) (colAcc xa xb k)

/-- Eight 1024-wide stretches laid side by side as one row of 8192. -/
def glue (T : ℕ → FVec F S1x1024 .f32) : FVec F S1x8192 .f32 := fun j =>
  T ((j 1).val / 1024) (ix2 (0 : Fin 1) (⟨(j 1).val % 1024, Nat.mod_lt _ (by decide)⟩ : Fin 1024))

end Cert.KernelIdeal.Acc

end
-- ==== Proof.KI.Data.lean ====
/-
  What the kernel's buffers hold, point by point.  A grid point t = 64·b + 8·i + j works on batch b, band i of the first
  cloud and band j of the second.  The two input windows' blocks at t are these two bands (`iblk0_eq`, `iblk1_eq`).
  After point t the row accumulator holds `rowState t`: the running minimum over the tiles j' ≤ j of the clamped row minima
  of band i against band j'.  Stretch k of the column accumulator holds `colState t k`: the running minimum of the clamped
  column minima of the bands i' of the first cloud against band k of the second — over i' ≤ i if the sweep of band i has
  reached stretch k (k ≤ j), over i' < i otherwise.  A stretch is `fresh` at t when this batch has written it: k ≤ j, or
  i ≥ 1.  `Inv t d` says that a row `d` of 8192 agrees with `colState t` on every fresh stretch.
-/
import proofs.«154956_j81475529605150_2_alg».proof.Proof.KI.Conds
import proofs.«154956_j81475529605150_2_alg».proof.Proof.KI.Acc

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Acc Idealize.ShloMosaic.ValueIdx

variable (m : (ℓ : Loc nD τ sig) → Buf (Elt F) ℓ) (ρ : Dev nD → PrngReg)

/-- The row accumulator after point `n`. -/
def rowState (c : Dev nD) (n : ℕ) : FVec F S1x1024 .f32 :=
  rowAcc (band (V m c main_arg0) (n / 64) (n / 8 % 8)) (fun k => band (V m c main_arg1) (n / 64) k) (n % 8)

/-- Stretch `k` of the column accumulator after point `n` (meaningful where `fresh n k`). -/
def colState (c : Dev nD) (n k : ℕ) : FVec F S1x1024 .f32 :=
  colAcc (fun i => band (V m c main_arg0) (n / 64) i) (band (V m c main_arg1) (n / 64) k) (if k ≤ n % 8 then n / 8 % 8 else n / 8 % 8 - 1)

/-- Stretch `k` has been written by the current batch after point `n`. -/
def fresh (n k : ℕ) : Prop := k ≤ n % 8 ∨ 1 ≤ n / 8 % 8

/-- A row of 8192 agrees with the column accumulator's state after point `n` on every fresh stretch. -/
def Inv (c : Dev nD) (n : ℕ) (d : Vec F S1x8192 .f32) : Prop :=
  ∀ (k : ℕ) (hk : k < 8) (q : Fin 1024), fresh n k →
    d (ix2 (0 : Fin 1) (⟨1024 * k + q.val, by have := q.isLt; omega⟩ : Fin 8192)) = colState m c n k (ix2 (0 : Fin 1) q)

/-- The windows' block indices in closed form, decided over the grid. -/
theorem idx_in : ∀ t : Fin cfg0.N, win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val % 8 ∧ win0_1.index t (2 : Fin 3) = 0 :=
  (by decide +kernel : ∀ t : Fin grid0.N, _)

theorem idx_out : ∀ t : Fin cfg0.N, win0_2.index t (0 : Fin 3) = t.val / 64 ∧ win0_2.index t (1 : Fin 3) = 0 ∧ win0_2.index t (2 : Fin 3) = t.val / 8 % 8
    ∧ win0_3.index t (0 : Fin 3) = t.val / 64 ∧ win0_3.index t (1 : Fin 3) = 0 ∧ win0_3.index t (2 : Fin 3) = 0 :=
  (by decide +kernel : ∀ t : Fin grid0.N, _)

/-- The first input window's block at point `t` is band i of batch b of the first cloud. -/
theorem iblk0_eq (c : Dev nD) (t : Fin cfg0.N) : iblk m c 0 t = band (V m c main_arg0) (t.val / 64) (t.val / 8 % 8) := by
  obtain ⟨e0, e1, e2, -, -, -⟩ := idx_in t
  have hN : t.val < 256 := lt_of_lt_of_eq t.isLt (show cfg0.N = 256 from N_0)
  funext y
  show V m c main_arg0 (((cfg0.win 0).blk t).view.emb y) = V m c main_arg0 _
  refine congrArg _ (funext fun a => Fin.ext ?_)
  match a with
  | ⟨0, _⟩ => show win0_0.index t (0 : Fin 3) * 1 + 1 * (y 0).val = t.val / 64 % 4; have hj : (y 0).val < 1 := (y 0).isLt; omega
  | ⟨1, _⟩ => show win0_0.index t (1 : Fin 3) * 1024 + 1 * (y 1).val = t.val / 8 % 8 % 8 * 1024 + (y 1).val; omega
  | ⟨2, _⟩ => show win0_0.index t (2 : Fin 3) * 3 + 1 * (y 2).val = (y 2).val; omega

/-- The second input window's block at point `t` is band j of batch b of the second cloud. -/
theorem iblk1_eq (c : Dev nD) (t : Fin cfg0.N) : iblk m c 1 t = band (V m c main_arg1) (t.val / 64) (t.val % 8) := by
  obtain ⟨-, -, -, e0, e1, e2⟩ := idx_in t
  have hN : t.val < 256 := lt_of_lt_of_eq t.isLt (show cfg0.N = 256 from N_0)
  funext y
  show V m c main_arg1 (((cfg0.win 1).blk t).view.emb y) = V m c main_arg1 _
  refine congrArg _ (funext fun a => Fin.ext ?_)
  match a with
  | ⟨0, _⟩ => show win0_1.index t (0 : Fin 3) * 1 + 1 * (y 0).val = t.val / 64 % 4; have hj : (y 0).val < 1 := (y 0).isLt; omega
  | ⟨1, _⟩ => show win0_1.index t (1 : Fin 3) * 1024 + 1 * (y 1).val = t.val % 8 % 8 * 1024 + (y 1).val; omega
  | ⟨2, _⟩ => show win0_1.index t (2 : Fin 3) * 3 + 1 * (y 2).val = (y 2).val; omega

end Cert.KernelIdeal.Gen

end
-- ==== Proof.KI.Dats.lean ====
/-
  The pipeline's proof data.  The arrays are the clouds as launched.  After the body at point t the two input windows'
  buffers hold their blocks; the first result's buffer holds the row accumulator's state (it is stored there at j = 7,
  the only points where that window is live); the second result's holds the eight stretches of the column accumulator's
  state side by side (stored there at the batch's last point).  Between points the invariant keeps the row accumulator
  at its state and the column accumulator at SOME row that agrees with its state on every fresh stretch; before the
  first point both hold anything.
-/
import proofs.«154956_j81475529605150_2_alg».proof.Proof.KI.Data

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Acc Idealize.ShloMosaic.ValueIdx

variable (m : (ℓ : Loc nD τ sig) → Buf (Elt F) ℓ) (ρ : Dev nD → PrngReg)

/-- The invariant before position `n`. -/
def Phi (c : Dev nD) : ℕ → sProp 𝕄
  | 0 => Pipeline.ΦA spec0 c
  | n + 1 => iprop(iprop(owns (c : Thread nD τ) scM0 fullShare (rowState m c n)
      ∗ (∃ d, owns (c : Thread nD τ) scM1 fullShare d ∗ ⌜Inv m c n d⌝)) ∗ (∃ r, prngReg c r))

theorem Phi_zero (c : Dev nD) : Phi m c 0 = Pipeline.ΦA spec0 c := rfl

theorem Phi_succ (c : Dev nD) (n : ℕ) :
    Phi m c (n + 1) = iprop(iprop(owns (c : Thread nD τ) scM0 fullShare (rowState m c n)
      ∗ (∃ d, owns (c : Thread nD τ) scM1 fullShare d ∗ ⌜Inv m c n d⌝)) ∗ (∃ r, prngReg c r)) := rfl

theorem Phi_pos (c : Dev nD) (n : ℕ) (hz : n ≠ 0) :
    Phi m c n = iprop(iprop(owns (c : Thread nD τ) scM0 fullShare (rowState m c (n - 1))
      ∗ (∃ d, owns (c : Thread nD τ) scM1 fullShare d ∗ ⌜Inv m c (n - 1) d⌝)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (rowState m c t.val)
    | ⟨3, _⟩ => k0_pay4 (glue (fun k => colState m c t.val k))
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; simp only [Fin.coe_castSucc]

theorem Phi_at_succ (c : Dev nD) (t : Fin cfg0.N) : (dats m 0 c).Φ t.succ = Phi m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay3 (rowState m c t.val) := by dsimp only [dats]
theorem after0_3 (c : Dev nD) (t : Fin cfg0.N) : (dats m 0 c).after 3 t = k0_pay4 (glue (fun k => colState m c t.val k)) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.KernelIdeal.Gen

end
-- ==== Proof.KI.Put.lean ====
/-
  A stretch of the column accumulator read and overwritten, as plain functions: `tileOf` cuts the 1024-wide stretch at
  given offsets out of a row of 8192, `putTile` replaces it.  A store through the whole shape leaves its payload; a store
  through a stretch of a buffer leaves `putTile` of what the buffer held.
-/
import proofs.«154956_j81475529605150_2_alg».proof.Proof.KI.Conds
import Idealize.ShloMosaic.Lib.WritesUnit
import Idealize.ShloMosaic.Lib.WholeRead
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A stretch of the column accumulator, read and overwritten -/

/-- The 1024-wide stretch of a row of 8192 that starts at the offsets `off`. -/
def tileOf (s1 : Vec F S1x8192 .f32) (off : Fin 2 → ℕ) (inb : ∀ a, off a + S1x1024.size a ≤ S1x8192.size a) : Vec F S1x1024 .f32 :=
  View.ld s1 (Rect.unit off S1x1024.size inb)

/-- The row of 8192 with the stretch at `off` replaced by `P`. -/
def putTile (s1 : Vec F S1x8192 .f32) (off : Fin 2 → ℕ) (P : Vec F S1x1024 .f32) : Vec F S1x8192 .f32 := fun y =>
  if h : ∀ a, off a ≤ (y a).val ∧ (y a).val < off a + S1x1024.size a then
    P (Rect.unitLocal (s := S1x8192) (off := off) (size := S1x1024.size) y h) else s1 y

/-- One store through the whole shape leaves its payload. -/
theorem read_put_whole {S : Shape} {e : EltTy} {Val : EltTy → Type} {sp : Space} (v : View sig .tc sp S e) (f : v.ty.Contents Val)
    {off : Fin S.rank → ℕ} (hz : off = fun _ => 0) (inb : ∀ a, off a + S.size a ≤ S.size a) (w : S.Idx → Val e) :
    v.read Val (v.writes Val f [(⟨Rect.unit off S.size inb, w⟩ : View.Piece Val S e)]) = w := by
  subst hz
  funext y
  exact View.read_writes_cons_unit_of_mem v f inb w [] y y rfl (fun a => (Nat.zero_add _).symm)

/-- One store through a stretch of a whole buffer held at contents that read `s1` leaves `putTile`. -/
theorem read_put_tile (M : Memref sig .tc .vmem S1x8192 .f32) (h : M.IsWhole) (s1 : Vec F S1x8192 .f32) (off : Fin 2 → ℕ)
    (inb : ∀ a, off a + S1x1024.size a ≤ S1x8192.size a) (P : Vec F S1x1024 .f32) :
    M.view.read (Elt F) (M.view.writes (Elt F) (h.unread s1) [(⟨Rect.unit off S1x1024.size inb, P⟩ : View.Piece (Elt F) S1x8192 .f32)])
      = putTile s1 off P := by
  funext y
  rw [View.read_writes_cons_unit M.view (h.unread s1) inb P [] y rfl]
  unfold putTile
  by_cases hy : ∀ a, off a ≤ (y a).val ∧ (y a).val < off a + S1x1024.size a
  · rw [dif_pos hy, dif_pos hy]
  · rw [dif_neg hy, dif_neg hy]
    exact congrFun (h.read_unread s1) y

theorem hz3 : (![0, 0, 0] : Fin 3 → ℕ) = fun _ => 0 := by funext a; fin_cases a <;> rfl
theorem hz2 : (![0, 0] : Fin 2 → ℕ) = fun _ => 0 := by funext a; fin_cases a <;> rfl

end Cert.KernelIdeal.Gen

end
-- ==== Proof.KI.Steps.lean ====
/-
  The point-to-point steps of the kernel's two accumulators.  A grid point t = 64·b + 8·i + j folds the tile of band i of
  the first cloud against band j of the second into the row accumulator (started afresh at j = 0) and into stretch j of
  the column accumulator (started afresh at i = 0).  Here: the row accumulator's state after t from its state after
  t − 1; the column accumulator's invariant after t from the invariant after t − 1, for a row in which stretch j has
  been replaced by the fold's result; and, at the last point of a batch, that a row satisfying the invariant is the
  eight finished stretches laid side by side.
-/
import proofs.«154956_j81475529605150_2_alg».proof.Proof.KI.Data
import proofs.«154956_j81475529605150_2_alg».proof.Proof.KI.Put

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Acc Idealize.ShloMosaic.ValueIdx

variable (m : (ℓ : Loc nD τ sig) → Buf (Elt F) ℓ)

/-! ## The row accumulator -/

/-- At j = 0 the row accumulator is started: the first tile's clamped row minima. -/
theorem rowState_J0 (c : Dev nD) (t : Fin cfg0.N) (h : t.val % 8 = 0) :
    rowState m c t.val = k0_pay8 (iblk m c 0 t) (iblk m c 1 t) := by
  rw [iblk0_eq, iblk1_eq]
  unfold rowState
  rw [h]
  rfl

/-- At j ≠ 0 the row accumulator is its state after the previous point folded with the current tile: the previous point
    has the same batch, the same band of the first cloud, and band j − 1 of the second. -/
theorem rowState_Jp (c : Dev nD) (t : Fin cfg0.N) (h : t.val % 8 ≠ 0) :
    rowState m c t.val = k0_pay9 (iblk m c 0 t) (iblk m c 1 t) (rowState m c (t.val - 1)) := by
  rw [iblk0_eq, iblk1_eq]
  unfold rowState
  have h1 : (t.val - 1) / 64 = t.val / 64 := by omega
  have h2 : (t.val - 1) / 8 % 8 = t.val / 8 % 8 := by omega
  have h3 : t.val % 8 = (t.val - 1) % 8 + 1 := by omega
  rw [h1, h2, h3]
  rfl

/-! ## A stretch of a row of 8192, read and replaced, at column 1024·k + q -/

/-- The replaced stretch reads the payload. -/
theorem putTile_same (s1 : Vec F S1x8192 .f32) (P : Vec F S1x1024 .f32) (j : ℕ) (q : Fin 1024) (hlt : 1024 * j + q.val < 8192) :
    putTile s1 ![0, 1024 * j] P (ix2 (0 : Fin 1) (⟨1024 * j + q.val, hlt⟩ : Fin 8192)) = P (ix2 (0 : Fin 1) q) := by
  have hq : q.val < 1024 := q.isLt
  have hy : ∀ a : Fin S1x8192.rank, (![0, 1024 * j] : Fin 2 → ℕ) a ≤ ((ix2 (0 : Fin 1) (⟨1024 * j + q.val, hlt⟩ : Fin 8192) : S1x8192.Idx) a).val
      ∧ ((ix2 (0 : Fin 1) (⟨1024 * j + q.val, hlt⟩ : Fin 8192) : S1x8192.Idx) a).val < (![0, 1024 * j] : Fin 2 → ℕ) a + S1x1024.size a := by
    intro a; fin_cases a
    · show 0 ≤ 0 ∧ 0 < 0 + 1; omega
    · show 1024 * j ≤ 1024 * j + q.val ∧ 1024 * j + q.val < 1024 * j + 1024; omega
  unfold putTile
  rw [dif_pos hy]
  refine congrArg P (funext fun a => Fin.ext ?_)
  rw [Rect.unitLocal_val]
  fin_cases a
  · show 0 - 0 = 0; rfl
  · show 1024 * j + q.val - 1024 * j = q.val; omega

/-- Every other stretch reads the old row. -/
theorem putTile_other (s1 : Vec F S1x8192 .f32) (P : Vec F S1x1024 .f32) (j k : ℕ) (hkj : k ≠ j) (q : Fin 1024) (hlt : 1024 * k + q.val < 8192) :
    putTile s1 ![0, 1024 * j] P (ix2 (0 : Fin 1) (⟨1024 * k + q.val, hlt⟩ : Fin 8192))
      = s1 (ix2 (0 : Fin 1) (⟨1024 * k + q.val, hlt⟩ : Fin 8192)) := by
  have hq : q.val < 1024 := q.isLt
  unfold putTile
  rw [dif_neg]
  intro hy
  have h1 := hy 1
  change 1024 * j ≤ 1024 * k + q.val ∧ 1024 * k + q.val < 1024 * j + 1024 at h1
  omega

/-- The stretch cut out at column 1024·j reads the row at column 1024·j + q. -/
theorem tileOf_apply (s1 : Vec F S1x8192 .f32) (j : ℕ) (inb : ∀ a, (![0, 1024 * j] : Fin 2 → ℕ) a + S1x1024.size a ≤ S1x8192.size a)
    (y : S1x1024.Idx) (hlt : 1024 * j + (y 1).val < 8192) :
    tileOf s1 ![0, 1024 * j] inb y = s1 (ix2 (0 : Fin 1) (⟨1024 * j + (y 1).val, hlt⟩ : Fin 8192)) := by
  have hy0 : (y 0).val < 1 := (y 0).isLt
  unfold tileOf
  refine congrArg s1 (funext fun a => Fin.ext ?_)
  fin_cases a
  · show 0 + 1 * (y 0).val = 0; omega
  · show 1024 * j + 1 * (y 1).val = 1024 * j + (y 1).val; omega

/-! ## The column accumulator -/

/-- The column accumulator's state at a stretch depends on the point through its batch and its depth only. -/
theorem colState_congr (c : Dev nD) (n n' k : ℕ) (h64 : n / 64 = n' / 64)
    (hd : (if k ≤ n % 8 then n / 8 % 8 else n / 8 % 8 - 1) = (if k ≤ n' % 8 then n' / 8 % 8 else n' / 8 % 8 - 1)) :
    colState m c n k = colState m c n' k := by
  unfold colState; rw [h64, hd]

/-- i = 0, over the point's number: stretch j is started with the tile's clamped column minima; the stretches k < j were
    started at the points before, at the same depth 0. -/
theorem Inv_I0_aux (c : Dev nD) (n : ℕ) (hi : n / 8 % 8 = 0) (s1 : Vec F S1x8192 .f32) (hprev : n % 8 ≠ 0 → Inv m c (n - 1) s1)
    (off : Fin 2 → ℕ) (hoff : off = ![0, 1024 * (n % 8)]) (xa xb : Vec F S1x1024x3 .f32)
    (hxa : xa = band (V m c main_arg0) (n / 64) (n / 8 % 8)) (hxb : xb = band (V m c main_arg1) (n / 64) (n % 8)) :
    Inv m c n (putTile s1 off (k0_pay1 (k0_pay6 xa xb))) := by
  subst hoff hxa hxb
  unfold Inv
  intro k hk q hf
  have hq : q.val < 1024 := q.isLt
  have hkj : k ≤ n % 8 := by unfold fresh at hf; omega
  by_cases e : k = n % 8
  · subst e
    rw [putTile_same]
    unfold colState
    rw [if_pos le_rfl, hi]
    rfl
  · rw [putTile_other _ _ _ _ e]
    have hj : n % 8 ≠ 0 := by omega
    rw [hprev hj k hk q (by unfold fresh; omega)]
    exact congrFun (colState_congr m c (n - 1) n k (by omega) (by split_ifs <;> omega)) _

/-- i ≠ 0, over the point's number: every stretch has been written by this batch. Stretch j held the state of depth i − 1
    and is replaced by its fold with the tile's clamped column minima, the state of depth i; the other stretches keep
    their depth. -/
theorem Inv_Ip_aux (c : Dev nD) (n : ℕ) (hi : n / 8 % 8 ≠ 0) (s1 : Vec F S1x8192 .f32) (hprev : Inv m c (n - 1) s1)
    (off : Fin 2 → ℕ) (hoff : off = ![0, 1024 * (n % 8)]) (inb : ∀ a, off a + S1x1024.size a ≤ S1x8192.size a)
    (xa xb : Vec F S1x1024x3 .f32)
    (hxa : xa = band (V m c main_arg0) (n / 64) (n / 8 % 8)) (hxb : xb = band (V m c main_arg1) (n / 64) (n % 8)) :
    Inv m c n (putTile s1 off (k0_pay2 (k0_pay6 xa xb) (tileOf s1 off inb))) := by
  subst hoff hxa hxb
  unfold Inv
  intro k hk q hf
  have hq : q.val < 1024 := q.isLt
  by_cases e : k = n % 8
  · subst e
    rw [putTile_same]
    have hT : tileOf s1 ![0, 1024 * (n % 8)] inb = colState m c (n - 1) (n % 8) := by
      funext y
      have hy1 : (y 1).val < 1024 := (y 1).isLt
      have hy0 : (y 0).val < 1 := (y 0).isLt
      have ey : y = ix2 (0 : Fin 1) (⟨(y 1).val, hy1⟩ : Fin 1024) := by
        funext a; apply Fin.ext; fin_cases a
        · show (y 0).val = 0; omega
        · rfl
      refine (tileOf_apply s1 (n % 8) inb y (by omega)).trans ?_
      refine (hprev (n % 8) hk (⟨(y 1).val, hy1⟩ : Fin 1024) (by unfold fresh; omega)).trans ?_
      exact congrArg _ ey.symm
    rw [hT]
    unfold colState
    have hd1 : (if n % 8 ≤ (n - 1) % 8 then (n - 1) / 8 % 8 else (n - 1) / 8 % 8 - 1) = n / 8 % 8 - 1 := by split_ifs <;> omega
    have h64 : (n - 1) / 64 = n / 64 := by omega
    rw [hd1, h64, if_pos le_rfl]
    obtain ⟨i', hi'⟩ : ∃ i', n / 8 % 8 = i' + 1 := ⟨n / 8 % 8 - 1, by omega⟩
    rw [hi', Nat.add_sub_cancel]
    rfl
  · rw [putTile_other _ _ _ _ e]
    rw [hprev k hk q (by unfold fresh; omega)]
    exact congrFun (colState_congr m c (n - 1) n k (by omega) (by split_ifs <;> omega)) _

/-- i = 0: the invariant after the point, for the row with stretch j started. -/
theorem Inv_I0 (c : Dev nD) (t : Fin cfg0.N) (hi : t.val / 8 % 8 = 0) (s1 : Vec F S1x8192 .f32) (hprev : t.val % 8 ≠ 0 → Inv m c (t.val - 1) s1) :
    Inv m c t.val (putTile s1 (k0_off1 (grid0.coords t)) (k0_pay1 (k0_pay6 (iblk m c 0 t) (iblk m c 1 t)))) :=
  Inv_I0_aux m c t.val hi s1 hprev _ (off1_eq t) _ _ (iblk0_eq m c t) (iblk1_eq m c t)

/-- i ≠ 0: the invariant after the point, for the row with stretch j folded. -/
theorem Inv_Ip (c : Dev nD) (t : Fin cfg0.N) (hi : t.val / 8 % 8 ≠ 0) (s1 : Vec F S1x8192 .f32) (hprev : Inv m c (t.val - 1) s1)
    (inb : ∀ a, k0_off2 (grid0.coords t) a + S1x1024.size a ≤ S1x8192.size a) :
    Inv m c t.val (putTile s1 (k0_off2 (grid0.coords t)) (k0_pay2 (k0_pay6 (iblk m c 0 t) (iblk m c 1 t)) (tileOf s1 (k0_off2 (grid0.coords t)) inb))) :=
  Inv_Ip_aux m c t.val hi s1 hprev _ (off2_eq t) inb _ _ (iblk0_eq m c t) (iblk1_eq m c t)

/-- At the last point of a batch every stretch is fresh: a row satisfying the invariant is the eight states side by side. -/
theorem glue_of_Inv (c : Dev nD) (t : Fin cfg0.N) (hL : t.val % 64 = 63) (d : Vec F S1x8192 .f32) (h : Inv m c t.val d) :
    d = glue (fun k => colState m c t.val k) := by
  funext y
  have hy1 : (y 1).val < 8192 := (y 1).isLt
  have hy0 : (y 0).val < 1 := (y 0).isLt
  have hk : (y 1).val / 1024 < 8 := by omega
  have hf : fresh t.val ((y 1).val / 1024) := Or.inl (by omega)
  have key := h _ hk (⟨(y 1).val % 1024, Nat.mod_lt _ (by decide)⟩ : Fin 1024) hf
  refine Eq.trans (congrArg d ?_) key
  funext a; apply Fin.ext; fin_cases a
  · show (y 0).val = 0; omega
  · show (y 1).val = 1024 * ((y 1).val / 1024) + (y 1).val % 1024; omega

end Cert.KernelIdeal.Gen

end
-- ==== Proof.KI.RunA.lean ====
/-
  The kernel body run at the grid points where the row accumulator is not handed over (j < 7): four cases, by j = 0 or not and i = 0 or not.  Each states what the six buffers hold afterwards as functions of what they held before.
-/
import proofs.«154956_j81475529605150_2_alg».proof.Proof.KI.Put

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where j = 0, i = 0: the row accumulator restarts from this tile's clamped row minima, the stretch of the column accumulator
    at this tile's columns restarts from its clamped column minima. -/
theorem run_00 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : cJ0 i) (hJp : ¬cJp i) (hI0 : cI0 i) (hIp : ¬cIp i) (hJ7 : ¬cJ7 i) (hL : ¬cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare o2 ∗ owns (c : Thread nD τ) arg6 fullShare o3
            ∗ owns (c : Thread nD τ) arg7 fullShare (k0_pay8 x0 x1)
            ∗ owns (c : Thread nD τ) arg8 fullShare (putTile s1 (k0_off1 i) (k0_pay1 (k0_pay6 x0 x1)))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

set_option maxHeartbeats 1000000 in
/-- The body at a point where j = 0, i ≠ 0: the row accumulator restarts from this tile's clamped row minima, the stretch of the column accumulator
    at this tile's columns is folded with its clamped column minima. -/
theorem run_0p (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : cJ0 i) (hJp : ¬cJp i) (hI0 : ¬cI0 i) (hIp : cIp i) (hJ7 : ¬cJ7 i) (hL : ¬cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare o2 ∗ owns (c : Thread nD τ) arg6 fullShare o3
            ∗ owns (c : Thread nD τ) arg7 fullShare (k0_pay8 x0 x1)
            ∗ owns (c : Thread nD τ) arg8 fullShare (putTile s1 (k0_off2 i) (k0_pay2 (k0_pay6 x0 x1) (tileOf s1 (k0_off2 i) (k0_off2_inb i hIp))))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

set_option maxHeartbeats 1000000 in
/-- The body at a point where 0 < j < 7, i = 0: the row accumulator is folded with this tile's clamped row minima, the stretch of the column accumulator
    at this tile's columns restarts from its clamped column minima. -/
theorem run_m0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : ¬cJ0 i) (hJp : cJp i) (hI0 : cI0 i) (hIp : ¬cIp i) (hJ7 : ¬cJ7 i) (hL : ¬cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare o2 ∗ owns (c : Thread nD τ) arg6 fullShare o3
            ∗ owns (c : Thread nD τ) arg7 fullShare (k0_pay9 x0 x1 s0)
            ∗ owns (c : Thread nD τ) arg8 fullShare (putTile s1 (k0_off1 i) (k0_pay1 (k0_pay6 x0 x1)))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

set_option maxHeartbeats 1000000 in
/-- The body at a point where 0 < j < 7, i ≠ 0: the row accumulator is folded with this tile's clamped row minima, the stretch of the column accumulator
    at this tile's columns is folded with its clamped column minima. -/
theorem run_mp (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : ¬cJ0 i) (hJp : cJp i) (hI0 : ¬cI0 i) (hIp : cIp i) (hJ7 : ¬cJ7 i) (hL : ¬cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare o2 ∗ owns (c : Thread nD τ) arg6 fullShare o3
            ∗ owns (c : Thread nD τ) arg7 fullShare (k0_pay9 x0 x1 s0)
            ∗ owns (c : Thread nD τ) arg8 fullShare (putTile s1 (k0_off2 i) (k0_pay2 (k0_pay6 x0 x1) (tileOf s1 (k0_off2 i) (k0_off2_inb i hIp))))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

end Cert.KernelIdeal.Gen

end
-- ==== Proof.KI.RunB.lean ====
/-
  The kernel body run at the grid points where the row accumulator is handed to the first result's block (j = 7): three cases, i = 0, 0 < i < 7 or i = 7 — at i = 7 the column accumulator is handed to the second result's block as well.
-/
import proofs.«154956_j81475529605150_2_alg».proof.Proof.KI.Put

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where j = 7, i = 0: the row accumulator is folded with this tile's clamped row minima, the stretch of the column accumulator
    at this tile's columns restarts from its clamped column minima, the row accumulator goes to the first result's block. -/
theorem run_70 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : ¬cJ0 i) (hJp : cJp i) (hI0 : cI0 i) (hIp : ¬cIp i) (hJ7 : cJ7 i) (hL : ¬cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare (k0_pay3 (k0_pay9 x0 x1 s0)) ∗ owns (c : Thread nD τ) arg6 fullShare o3
            ∗ owns (c : Thread nD τ) arg7 fullShare (k0_pay9 x0 x1 s0)
            ∗ owns (c : Thread nD τ) arg8 fullShare (putTile s1 (k0_off1 i) (k0_pay1 (k0_pay6 x0 x1)))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_put_whole (S := S1x1x1024) _ _ hz3]
    simp only [View.readCov_unit_zero (S := S1x1024) _ hz2, View.readAt_eq_ld, harg3.read_unread, harg4.read_unread, harg5.read_unread, harg6.read_unread, harg7.read_unread, harg8.read_unread, View.ld_unit_zero (S := S1x1024x3) hz3, View.ld_unit_zero (S := S1x1024) hz2]
  isplitl [H3]
  · iexists _; isplitr; · ipureintro; exact harg6.read_unread _
    iexact H3
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

set_option maxHeartbeats 1000000 in
/-- The body at a point where j = 7, i ≠ 0, not the batch's last point: the row accumulator is folded with this tile's clamped row minima, the stretch of the column accumulator
    at this tile's columns is folded with its clamped column minima, the row accumulator goes to the first result's block. -/
theorem run_7p (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : ¬cJ0 i) (hJp : cJp i) (hI0 : ¬cI0 i) (hIp : cIp i) (hJ7 : cJ7 i) (hL : ¬cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare (k0_pay3 (k0_pay9 x0 x1 s0)) ∗ owns (c : Thread nD τ) arg6 fullShare o3
            ∗ owns (c : Thread nD τ) arg7 fullShare (k0_pay9 x0 x1 s0)
            ∗ owns (c : Thread nD τ) arg8 fullShare (putTile s1 (k0_off2 i) (k0_pay2 (k0_pay6 x0 x1) (tileOf s1 (k0_off2 i) (k0_off2_inb i hIp))))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_put_whole (S := S1x1x1024) _ _ hz3]
    simp only [View.readCov_unit_zero (S := S1x1024) _ hz2, View.readAt_eq_ld, harg3.read_unread, harg4.read_unread, harg5.read_unread, harg6.read_unread, harg7.read_unread, harg8.read_unread, View.ld_unit_zero (S := S1x1024x3) hz3, View.ld_unit_zero (S := S1x1024) hz2]
  isplitl [H3]
  · iexists _; isplitr; · ipureintro; exact harg6.read_unread _
    iexact H3
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

set_option maxHeartbeats 1000000 in
/-- The body at a point where j = 7, i ≠ 0, and it is the batch's last point: the row accumulator is folded with this tile's clamped row minima, the stretch of the column accumulator
    at this tile's columns is folded with its clamped column minima, the row accumulator goes to the first result's block, the column accumulator to the second's. -/
theorem run_7L (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hJ0 : ¬cJ0 i) (hJp : cJp i) (hI0 : ¬cI0 i) (hIp : cIp i) (hJ7 : cJ7 i) (hL : cL i)
    (x0 x1 : Vec F S1x1024x3 .f32) (s0 : Vec F S1x1024 .f32) (s1 : Vec F S1x8192 .f32) (o2 : Vec F S1x1x1024 .f32) (o3 : Vec F S1x1x8192 .f32)
    (E : Set ℕ) (K : PUnit → sProp 𝕄) :
    iprop(owns (c : Thread nD τ) arg3 fullShare x0 ∗ owns (c : Thread nD τ) arg4 fullShare x1 ∗ owns (c : Thread nD τ) arg5 fullShare o2 ∗ owns (c : Thread nD τ) arg6 fullShare o3
        ∗ owns (c : Thread nD τ) arg7 fullShare s0 ∗ owns (c : Thread nD τ) arg8 fullShare s1
        ∗ (iprop(owns (c : Thread nD τ) arg3 fullShare x0 ∗ owns (c : Thread nD τ) arg4 fullShare x1 ∗ owns (c : Thread nD τ) arg5 fullShare (k0_pay3 (k0_pay9 x0 x1 s0)) ∗ owns (c : Thread nD τ) arg6 fullShare (k0_pay4 (putTile s1 (k0_off2 i) (k0_pay2 (k0_pay6 x0 x1) (tileOf s1 (k0_off2 i) (k0_off2_inb i hIp)))))
            ∗ owns (c : Thread nD τ) arg7 fullShare (k0_pay9 x0 x1 s0)
            ∗ owns (c : Thread nD τ) arg8 fullShare (putTile s1 (k0_off2 i) (k0_pay2 (k0_pay6 x0 x1) (tileOf s1 (k0_off2 i) (k0_off2_inb i hIp))))) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3
  obtain rfl := harg7.eq_unread hfs0; obtain rfl := harg8.eq_unread hfs1
  sl_exec (disch := first | exact hJ0 | exact hJp | exact hI0 | exact hIp | exact hJ7 | exact hL)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_put_whole (S := S1x1x1024) _ _ hz3]
    simp only [View.readCov_unit_zero (S := S1x1024) _ hz2, View.readAt_eq_ld, harg3.read_unread, harg4.read_unread, harg5.read_unread, harg6.read_unread, harg7.read_unread, harg8.read_unread, View.ld_unit_zero (S := S1x1024x3) hz3, View.ld_unit_zero (S := S1x1024) hz2]
  isplitl [H3]
  · iexists _; isplitr
    swap; · iexact H3
    ipureintro
    sl_unfold_run_names
    rw [read_put_whole (S := S1x1x8192) _ _ hz3]
    rw [View.readAt_eq_ld, read_put_tile, View.ld_unit_zero (S := S1x8192) hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl
  isplitl [HS0]
  · iexists _; isplitr
    swap; · iexact HS0
    ipureintro
    sl_unfold_run_names
    rw [read_put_whole (S := S1x1024) _ _ hz2]
    simp only [View.readAt_eq_ld, harg3.read_unread, harg4.read_unread, harg5.read_unread, harg6.read_unread, harg7.read_unread, harg8.read_unread, View.ld_unit_zero (S := S1x1024x3) hz3, View.ld_unit_zero (S := S1x1024) hz2]
  · iexists _; isplitr
    swap; · iexact HS1
    ipureintro
    sl_unfold_run_names
    rw [read_put_tile]
    simp only [View.readAt_eq_ld, harg3.read_unread, harg4.read_unread, harg5.read_unread, harg6.read_unread, harg7.read_unread, harg8.read_unread, View.ld_unit_zero (S := S1x1024x3) hz3, View.ld_unit_zero (S := S1x1024) hz2]
    try rfl

end Cert.KernelIdeal.Gen

end
-- ==== Proof.KI.Body.lean ====
/-
  The body obligation and the run.  At every grid point the body is one of seven runs, picked by j = 0 / 0 < j < 7 / j = 7,
  i = 0 / i ≠ 0 and, at j = 7, whether the point is the batch's last.  Each run is handed the two input blocks, the two
  result buffers at whatever they hold, the row accumulator at its state after the point before (at anything, at the
  very first point) and the column accumulator at a row that agrees with its state on the fresh stretches; it hands
  back the accumulators at their states after this point (the steps of the two accumulators, proved apart), and a
  result's buffer at the accumulator's state where it stores it, untouched where the window is idle.
-/
import proofs.«154956_j81475529605150_2_alg».proof.Proof.KI.Dats
import proofs.«154956_j81475529605150_2_alg».proof.Proof.KI.Steps
import proofs.«154956_j81475529605150_2_alg».proof.Proof.KI.RunA
import proofs.«154956_j81475529605150_2_alg».proof.Proof.KI.RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Acc Idealize.ShloMosaic.ValueIdx

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_at_succ m c t, Phi_succ]
  have hN : t.val < 256 := lt_of_lt_of_eq t.isLt (show cfg0.N = 256 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases hj0 : t.val % 8 = 0
  · have hj7 : ¬t.val % 8 = 7 := by omega
    have hl : ¬t.val % 64 = 63 := by omega
    by_cases hi0 : t.val / 8 % 8 = 0
    · by_cases hz : t.val = 0
      ·
        rw [Dat.leavesExact_idle (dats m 0 c) 2 t ((idleAt0_2 t).mpr hj7) (Bool.eq_false_iff.mpr (fun h => hj7 ((flush0_2 t).mp h)))]
        rw [Dat.leavesExact_idle (dats m 0 c) 3 t ((idleAt0_3 t).mpr hl) (Bool.eq_false_iff.mpr (fun h => hl ((flush0_3 t).mp h)))]
        rw [rowState_J0 m c t hj0]
        rw [Phi_castSucc m c t, show Phi m c t.val = Phi m c 0 from by rw [hz], Phi_zero, PhiA0_eq]
        iintro ⟨⟨⟨⟨%s0, HS0⟩, ⟨%s1, HS1⟩⟩, Hg⟩, Ho, ⟨%d0, H0⟩, ⟨%d1, H1⟩, ⟨%d2, H2⟩, ⟨%d3, H3⟩⟩
        iapply (run_00 c (grid0.coords t) (ms0_0 t) (hs0_0 t) (ms0_1 t) (hs0_1 t) (ms0_2 t) (hs0_2 t) (ms0_3 t) (hs0_3 t) scM0 (Memref.isWhole_whole _) scM1 (Memref.isWhole_whole _)
          ((hcJ0 t).mpr hj0) (fun h => (hcJp t).mp h hj0) ((hcI0 t).mpr hi0) (fun h => (hcIp t).mp h hi0) (fun h => hj7 ((hcJ7 t).mp h)) (fun h => hl ((hcL t).mp h)) (iblk m c 0 t) (iblk m c 1 t) s0 s1 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitl [HS1]; · iexact HS1
            ipureintro; exact Inv_I0 m c t hi0 s1 (fun h => absurd (by omega) h)
          iexact Hg
        isplitl [Ho]; · iexact Ho
        isplitl [H0]; · iexact H0
        isplitl [H1]; · iexact H1
        isplitl [H2]; · iexists _; iexact H2
        iexists _; iexact H3
      ·
        rw [Dat.leavesExact_idle (dats m 0 c) 2 t ((idleAt0_2 t).mpr hj7) (Bool.eq_false_iff.mpr (fun h => hj7 ((flush0_2 t).mp h)))]
        rw [Dat.leavesExact_idle (dats m 0 c) 3 t ((idleAt0_3 t).mpr hl) (Bool.eq_false_iff.mpr (fun h => hl ((flush0_3 t).mp h)))]
        rw [rowState_J0 m c t hj0]
        rw [Phi_castSucc m c t, Phi_pos m c _ hz]
        iintro ⟨⟨⟨HS0, ⟨%s1, HS1, %hInv⟩⟩, Hg⟩, Ho, ⟨%d0, H0⟩, ⟨%d1, H1⟩, ⟨%d2, H2⟩, ⟨%d3, H3⟩⟩
        iapply (run_00 c (grid0.coords t) (ms0_0 t) (hs0_0 t) (ms0_1 t) (hs0_1 t) (ms0_2 t) (hs0_2 t) (ms0_3 t) (hs0_3 t) scM0 (Memref.isWhole_whole _) scM1 (Memref.isWhole_whole _)
          ((hcJ0 t).mpr hj0) (fun h => (hcJp t).mp h hj0) ((hcI0 t).mpr hi0) (fun h => (hcIp t).mp h hi0) (fun h => hj7 ((hcJ7 t).mp h)) (fun h => hl ((hcL t).mp h)) (iblk m c 0 t) (iblk m c 1 t) (rowState m c (t.val - 1)) s1 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitl [HS1]; · iexact HS1
            ipureintro; exact Inv_I0 m c t hi0 s1 (fun h => absurd hj0 h)
          iexact Hg
        isplitl [Ho]; · iexact Ho
        isplitl [H0]; · iexact H0
        isplitl [H1]; · iexact H1
        isplitl [H2]; · iexists _; iexact H2
        iexists _; iexact H3
    · have hz : t.val ≠ 0 := by omega
      rw [Dat.leavesExact_idle (dats m 0 c) 2 t ((idleAt0_2 t).mpr hj7) (Bool.eq_false_iff.mpr (fun h => hj7 ((flush0_2 t).mp h)))]
      rw [Dat.leavesExact_idle (dats m 0 c) 3 t ((idleAt0_3 t).mpr hl) (Bool.eq_false_iff.mpr (fun h => hl ((flush0_3 t).mp h)))]
      rw [rowState_J0 m c t hj0]
      rw [Phi_castSucc m c t, Phi_pos m c _ hz]
      iintro ⟨⟨⟨HS0, ⟨%s1, HS1, %hInv⟩⟩, Hg⟩, Ho, ⟨%d0, H0⟩, ⟨%d1, H1⟩, ⟨%d2, H2⟩, ⟨%d3, H3⟩⟩
      iapply (run_0p c (grid0.coords t) (ms0_0 t) (hs0_0 t) (ms0_1 t) (hs0_1 t) (ms0_2 t) (hs0_2 t) (ms0_3 t) (hs0_3 t) scM0 (Memref.isWhole_whole _) scM1 (Memref.isWhole_whole _)
        ((hcJ0 t).mpr hj0) (fun h => (hcJp t).mp h hj0) (fun h => hi0 ((hcI0 t).mp h)) ((hcIp t).mpr hi0) (fun h => hj7 ((hcJ7 t).mp h)) (fun h => hl ((hcL t).mp h)) (iblk m c 0 t) (iblk m c 1 t) (rowState m c (t.val - 1)) s1 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexists _; isplitl [HS1]; · iexact HS1
          ipureintro; exact Inv_Ip m c t hi0 s1 hInv _
        iexact Hg
      isplitl [Ho]; · iexact Ho
      isplitl [H0]; · iexact H0
      isplitl [H1]; · iexact H1
      isplitl [H2]; · iexists _; iexact H2
      iexists _; iexact H3
  · have hz : t.val ≠ 0 := by omega
    by_cases hj7 : t.val % 8 = 7
    · by_cases hi0 : t.val / 8 % 8 = 0
      · have hl : ¬t.val % 64 = 63 := by omega
        rw [show (dats m 0 c).leavesExact 2 t = owns (c : Thread nD τ) (ms0_2 t) fullShare ((dats m 0 c).after 2 t) from by
          unfold Dat.leavesExact; rw [show cfg0.idle 2 (grid0.coords t) = false from Bool.eq_false_iff.mpr (fun h => (idleAt0_2 t).mp h hj7)], after0_2]
        rw [Dat.leavesExact_idle (dats m 0 c) 3 t ((idleAt0_3 t).mpr hl) (Bool.eq_false_iff.mpr (fun h => hl ((flush0_3 t).mp h)))]
        rw [rowState_Jp m c t hj0]
        rw [Phi_castSucc m c t, Phi_pos m c _ hz]
        iintro ⟨⟨⟨HS0, ⟨%s1, HS1, %hInv⟩⟩, Hg⟩, Ho, ⟨%d0, H0⟩, ⟨%d1, H1⟩, ⟨%d2, H2⟩, ⟨%d3, H3⟩⟩
        iapply (run_70 c (grid0.coords t) (ms0_0 t) (hs0_0 t) (ms0_1 t) (hs0_1 t) (ms0_2 t) (hs0_2 t) (ms0_3 t) (hs0_3 t) scM0 (Memref.isWhole_whole _) scM1 (Memref.isWhole_whole _)
          (fun h => hj0 ((hcJ0 t).mp h)) ((hcJp t).mpr hj0) ((hcI0 t).mpr hi0) (fun h => (hcIp t).mp h hi0) ((hcJ7 t).mpr hj7) (fun h => hl ((hcL t).mp h)) (iblk m c 0 t) (iblk m c 1 t) (rowState m c (t.val - 1)) s1 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitl [HS1]; · iexact HS1
            ipureintro; exact Inv_I0 m c t hi0 s1 (fun _ => hInv)
          iexact Hg
        isplitl [Ho]; · iexact Ho
        isplitl [H0]; · iexact H0
        isplitl [H1]; · iexact H1
        isplitl [H2]; · iexact H2
        iexists _; iexact H3
      · by_cases hl : t.val % 64 = 63
        ·
          rw [show (dats m 0 c).leavesExact 2 t = owns (c : Thread nD τ) (ms0_2 t) fullShare ((dats m 0 c).after 2 t) from by
            unfold Dat.leavesExact; rw [show cfg0.idle 2 (grid0.coords t) = false from Bool.eq_false_iff.mpr (fun h => (idleAt0_2 t).mp h hj7)], after0_2]
          rw [show (dats m 0 c).leavesExact 3 t = owns (c : Thread nD τ) (ms0_3 t) fullShare ((dats m 0 c).after 3 t) from by
            unfold Dat.leavesExact; rw [show cfg0.idle 3 (grid0.coords t) = false from Bool.eq_false_iff.mpr (fun h => (idleAt0_3 t).mp h hl)], after0_3]
          rw [rowState_Jp m c t hj0]
          rw [Phi_castSucc m c t, Phi_pos m c _ hz]
          iintro ⟨⟨⟨HS0, ⟨%s1, HS1, %hInv⟩⟩, Hg⟩, Ho, ⟨%d0, H0⟩, ⟨%d1, H1⟩, ⟨%d2, H2⟩, ⟨%d3, H3⟩⟩
          iapply (run_7L c (grid0.coords t) (ms0_0 t) (hs0_0 t) (ms0_1 t) (hs0_1 t) (ms0_2 t) (hs0_2 t) (ms0_3 t) (hs0_3 t) scM0 (Memref.isWhole_whole _) scM1 (Memref.isWhole_whole _)
            (fun h => hj0 ((hcJ0 t).mp h)) ((hcJp t).mpr hj0) (fun h => hi0 ((hcI0 t).mp h)) ((hcIp t).mpr hi0) ((hcJ7 t).mpr hj7) ((hcL t).mpr hl) (iblk m c 0 t) (iblk m c 1 t) (rowState m c (t.val - 1)) s1 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, HS0, HS1⟩
          isplitl [HS0 HS1 Hg]
          · isplitl [HS0 HS1]
            · isplitl [HS0]; · iexact HS0
              iexists _; isplitl [HS1]; · iexact HS1
              ipureintro; exact Inv_Ip m c t hi0 s1 hInv _
            iexact Hg
          isplitl [Ho]; · iexact Ho
          isplitl [H0]; · iexact H0
          isplitl [H1]; · iexact H1
          isplitl [H2]; · iexact H2
          rw [← glue_of_Inv m c t hl (putTile s1 (k0_off2 (grid0.coords t)) (k0_pay2 (k0_pay6 (iblk m c 0 t) (iblk m c 1 t)) (tileOf s1 (k0_off2 (grid0.coords t)) (k0_off2_inb (grid0.coords t) ((hcIp t).mpr hi0)))))
      (Inv_Ip m c t hi0 s1 hInv _)]
          iexact H3
        ·
          rw [show (dats m 0 c).leavesExact 2 t = owns (c : Thread nD τ) (ms0_2 t) fullShare ((dats m 0 c).after 2 t) from by
            unfold Dat.leavesExact; rw [show cfg0.idle 2 (grid0.coords t) = false from Bool.eq_false_iff.mpr (fun h => (idleAt0_2 t).mp h hj7)], after0_2]
          rw [Dat.leavesExact_idle (dats m 0 c) 3 t ((idleAt0_3 t).mpr hl) (Bool.eq_false_iff.mpr (fun h => hl ((flush0_3 t).mp h)))]
          rw [rowState_Jp m c t hj0]
          rw [Phi_castSucc m c t, Phi_pos m c _ hz]
          iintro ⟨⟨⟨HS0, ⟨%s1, HS1, %hInv⟩⟩, Hg⟩, Ho, ⟨%d0, H0⟩, ⟨%d1, H1⟩, ⟨%d2, H2⟩, ⟨%d3, H3⟩⟩
          iapply (run_7p c (grid0.coords t) (ms0_0 t) (hs0_0 t) (ms0_1 t) (hs0_1 t) (ms0_2 t) (hs0_2 t) (ms0_3 t) (hs0_3 t) scM0 (Memref.isWhole_whole _) scM1 (Memref.isWhole_whole _)
            (fun h => hj0 ((hcJ0 t).mp h)) ((hcJp t).mpr hj0) (fun h => hi0 ((hcI0 t).mp h)) ((hcIp t).mpr hi0) ((hcJ7 t).mpr hj7) (fun h => hl ((hcL t).mp h)) (iblk m c 0 t) (iblk m c 1 t) (rowState m c (t.val - 1)) s1 _ _ Set.univ _)
          isplitl [H0]; · iexact H0
          isplitl [H1]; · iexact H1
          isplitl [H2]; · iexact H2
          isplitl [H3]; · iexact H3
          isplitl [HS0]; · iexact HS0
          isplitl [HS1]; · iexact HS1
          iintro ⟨H0, H1, H2, H3, HS0, HS1⟩
          isplitl [HS0 HS1 Hg]
          · isplitl [HS0 HS1]
            · isplitl [HS0]; · iexact HS0
              iexists _; isplitl [HS1]; · iexact HS1
              ipureintro; exact Inv_Ip m c t hi0 s1 hInv _
            iexact Hg
          isplitl [Ho]; · iexact Ho
          isplitl [H0]; · iexact H0
          isplitl [H1]; · iexact H1
          isplitl [H2]; · iexact H2
          iexists _; iexact H3
    · have hl : ¬t.val % 64 = 63 := by omega
      by_cases hi0 : t.val / 8 % 8 = 0
      ·
        rw [Dat.leavesExact_idle (dats m 0 c) 2 t ((idleAt0_2 t).mpr hj7) (Bool.eq_false_iff.mpr (fun h => hj7 ((flush0_2 t).mp h)))]
        rw [Dat.leavesExact_idle (dats m 0 c) 3 t ((idleAt0_3 t).mpr hl) (Bool.eq_false_iff.mpr (fun h => hl ((flush0_3 t).mp h)))]
        rw [rowState_Jp m c t hj0]
        rw [Phi_castSucc m c t, Phi_pos m c _ hz]
        iintro ⟨⟨⟨HS0, ⟨%s1, HS1, %hInv⟩⟩, Hg⟩, Ho, ⟨%d0, H0⟩, ⟨%d1, H1⟩, ⟨%d2, H2⟩, ⟨%d3, H3⟩⟩
        iapply (run_m0 c (grid0.coords t) (ms0_0 t) (hs0_0 t) (ms0_1 t) (hs0_1 t) (ms0_2 t) (hs0_2 t) (ms0_3 t) (hs0_3 t) scM0 (Memref.isWhole_whole _) scM1 (Memref.isWhole_whole _)
          (fun h => hj0 ((hcJ0 t).mp h)) ((hcJp t).mpr hj0) ((hcI0 t).mpr hi0) (fun h => (hcIp t).mp h hi0) (fun h => hj7 ((hcJ7 t).mp h)) (fun h => hl ((hcL t).mp h)) (iblk m c 0 t) (iblk m c 1 t) (rowState m c (t.val - 1)) s1 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitl [HS1]; · iexact HS1
            ipureintro; exact Inv_I0 m c t hi0 s1 (fun _ => hInv)
          iexact Hg
        isplitl [Ho]; · iexact Ho
        isplitl [H0]; · iexact H0
        isplitl [H1]; · iexact H1
        isplitl [H2]; · iexists _; iexact H2
        iexists _; iexact H3
      ·
        rw [Dat.leavesExact_idle (dats m 0 c) 2 t ((idleAt0_2 t).mpr hj7) (Bool.eq_false_iff.mpr (fun h => hj7 ((flush0_2 t).mp h)))]
        rw [Dat.leavesExact_idle (dats m 0 c) 3 t ((idleAt0_3 t).mpr hl) (Bool.eq_false_iff.mpr (fun h => hl ((flush0_3 t).mp h)))]
        rw [rowState_Jp m c t hj0]
        rw [Phi_castSucc m c t, Phi_pos m c _ hz]
        iintro ⟨⟨⟨HS0, ⟨%s1, HS1, %hInv⟩⟩, Hg⟩, Ho, ⟨%d0, H0⟩, ⟨%d1, H1⟩, ⟨%d2, H2⟩, ⟨%d3, H3⟩⟩
        iapply (run_mp c (grid0.coords t) (ms0_0 t) (hs0_0 t) (ms0_1 t) (hs0_1 t) (ms0_2 t) (hs0_2 t) (ms0_3 t) (hs0_3 t) scM0 (Memref.isWhole_whole _) scM1 (Memref.isWhole_whole _)
          (fun h => hj0 ((hcJ0 t).mp h)) ((hcJp t).mpr hj0) (fun h => hi0 ((hcI0 t).mp h)) ((hcIp t).mpr hi0) (fun h => hj7 ((hcJ7 t).mp h)) (fun h => hl ((hcL t).mp h)) (iblk m c 0 t) (iblk m c 1 t) (rowState m c (t.val - 1)) s1 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitl [HS1]; · iexact HS1
            ipureintro; exact Inv_Ip m c t hi0 s1 hInv _
          iexact Hg
        isplitl [Ho]; · iexact Ho
        isplitl [H0]; · iexact H0
        isplitl [H1]; · iexact H1
        isplitl [H2]; · iexists _; iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl, Phi_zero]
  try exact Idealize.SL.BI.Entails.refl _

/-- After the last point the invariant gives the accumulators back at some contents. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 256 := N_0; omega), PhiA0_eq]
  iintro ⟨⟨HS0, ⟨%d, HS1, %_h⟩⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline ends at what the library computes
    from the proof data, every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Gen

end
-- ==== Proof.Spec.lean ====
/-
  The two clouds' nearest-neighbour distances, as plain functions on the extended reals.  For clouds `X`, `Y` of
  4 × 8192 points in three coordinates: the squared norm of a point, the inner product of a point of `X` with a point
  of `Y`, the squared distance written as (|x|² + |y|²) − 2·⟨x, y⟩ and clamped at zero, and for every point of one
  cloud the least such distance to the other cloud.
-/
import Idealize.ShloMosaic.Lib.ValueIdx
import Idealize.ShloMosaic.PureOps.Ideal

noncomputable section

namespace Chamfer

open Idealize.ShloMosaic Idealize.ShloMosaic.ValueIdx

/-- A cloud: 4 batches of 8192 points in three coordinates. -/
abbrev Cloud : Type := (⟨3, ![4, 8192, 3]⟩ : Shape).Idx → EReal

/-- Every coordinate of every point is a real number. -/
def IsReal (X : Cloud) : Prop := ∀ j, ∃ r : ℝ, X j = (r : EReal)

/-- The squared norm of point `n` of batch `b`. -/
def sqn (X : Cloud) (b : Fin 4) (n : Fin 8192) : EReal := ∑ d : Fin 3, X (ix3 b n d) * X (ix3 b n d)

/-- The inner product of point `n` of `X` with point `m` of `Y`, in batch `b`. -/
def dotp (X Y : Cloud) (b : Fin 4) (n m : Fin 8192) : EReal := ∑ d : Fin 3, X (ix3 b n d) * Y (ix3 b m d)

/-- The squared distance (|x|² + |y|²) − 2·⟨x, y⟩, clamped at zero. The factor and the clamp are the programs' float
    words for 2 and 0. -/
def dist (X Y : Cloud) (b : Fin 4) (n m : Fin 8192) : EReal :=
  max ((sqn X b n + sqn Y b m) - Ideal.ofBits .f32 0x40000000#32 * dotp X Y b n m) (Ideal.ofBits .f32 0x00000000#32)

/-- The least clamped squared distance from point `n` of `X` to the points of `Y`. -/
def near1 (X Y : Cloud) (b : Fin 4) (n : Fin 8192) : EReal := Finset.univ.inf fun m : Fin 8192 => dist X Y b n m

/-- The least clamped squared distance from point `m` of `Y` to the points of `X`. -/
def near2 (X Y : Cloud) (b : Fin 4) (m : Fin 8192) : EReal := Finset.univ.inf fun n : Fin 8192 => dist X Y b n m

/-! ## One tile, as the kernel forms it -/

/-- A band: 1024 points in three coordinates, under a leading unit axis. -/
abbrev Band : Type := (⟨3, ![1, 1024, 3]⟩ : Shape).Idx → EReal

/-- Band `k` (of eight, 1024 points each) of batch `b` of a cloud; out-of-range `b`, `k` wrap around. -/
def bandE (X : Cloud) (b k : ℕ) : Band := fun y =>
  X (ix3 (⟨b % 4, Nat.mod_lt _ (by decide)⟩ : Fin 4)
         (⟨(k % 8) * 1024 + (y 1).val, by have := (y 1).isLt; have := Nat.mod_lt k (show 0 < 8 by decide); show _ < 8192; change (y 1).val < 1024 at *; omega⟩ : Fin 8192)
         (⟨(y 2).val, (y 2).isLt⟩ : Fin 3))

/-- The programs' float words for 1, −2, 0 and +∞, read as extended reals. -/
def one : EReal := Ideal.ofBits .f32 0x3F800000#32
def negTwo : EReal := Ideal.ofBits .f32 0xC0000000#32
def zero : EReal := Ideal.ofBits .f32 0x00000000#32
def top : EReal := Ideal.ofBits .f32 0x7F800000#32

/-- The squared norm of point `r` of a band. -/
def sqb (x : Band) (r : Fin 1024) : EReal := ∑ d : Fin 3, x (ix3 (0 : Fin 1) r d) * x (ix3 (0 : Fin 1) r d)

/-- Row `r` of the left factor: the point's three coordinates, its squared norm, 1. -/
def lhs5 (xa : Band) (r : Fin 1024) (k : Fin 5) : EReal :=
  if h : k.val < 3 then xa (ix3 (0 : Fin 1) r (⟨k.val, h⟩ : Fin 3)) else if k.val = 3 then sqb xa r else one

/-- Row `q` of the right factor: −2 times the point's three coordinates, 1, its squared norm. -/
def rhs5 (xb : Band) (q : Fin 1024) (k : Fin 5) : EReal :=
  if h : k.val < 3 then negTwo * xb (ix3 (0 : Fin 1) q (⟨k.val, h⟩ : Fin 3)) else if k.val = 3 then one else sqb xb q

/-- Entry (r, q) of the tile: the five products summed. -/
def tile (xa xb : Band) (r q : Fin 1024) : EReal := ∑ k : Fin 5, lhs5 xa r k * rhs5 xb q k

/-- The tile's minimum along row `r`, clamped at zero. -/
def rowMin (xa xb : Band) (r : Fin 1024) : EReal :=
  max ((Finset.univ : Finset (Fin 1024)).fold min top (fun q => tile xa xb r q)) zero

/-- The tile's minimum along column `q`, clamped at zero. -/
def colMin (xa xb : Band) (q : Fin 1024) : EReal :=
  max ((Finset.univ : Finset (Fin 1024)).fold min top (fun r => tile xa xb r q)) zero

/-- The running minimum of the clamped row minima over the tiles of `xa` against `xb 0 … xb k`. -/
def racc (xa : Band) (xb : ℕ → Band) : ℕ → Fin 1024 → EReal
  | 0, r => rowMin xa (xb 0) r
  | k + 1, r => min (racc xa xb k r) (rowMin xa (xb (k + 1)) r)

/-- The running minimum of the clamped column minima over the tiles of `xa 0 … xa k` against `xb`. -/
def cacc (xa : ℕ → Band) (xb : Band) : ℕ → Fin 1024 → EReal
  | 0, q => colMin (xa 0) xb q
  | k + 1, q => min (cacc xa xb k q) (colMin (xa (k + 1)) xb q)

end Chamfer

end
-- ==== Proof.RefStages.lean ====
import proofs.«154956_j81475529605150_2_alg».proof.Proof.Gen.ReferenceIdeal.Read
import proofs.«154956_j81475529605150_2_alg».proof.Proof.Spec
/-
  The reference program, stage by stage, as the plain functions of Spec: the clamped squared distance it forms at
  every pair of points, and its two minima — along the second cloud's points and along the first cloud's points.
-/

noncomputable section

namespace Chamfer.Ref

open Idealize.ShloMosaic Idealize.ShloMosaic.ValueIdx
open Cert.ReferenceIdeal Cert.ReferenceIdeal.Gen Cert.ReferenceIdeal.Read

/-- The float word of +∞ is the top of the extended reals. -/
theorem ofBits_posInf : Ideal.ofBits .f32 0x7F800000#32 = (⊤ : EReal) := by simp [Ideal.ofBits, Ideal.ieee]

/-! ## Where each operand is read for the entry (b, n, m) -/

theorem idx_sq1 (b : Fin 4) (n m : Fin 8192) (k : Fin 3) :
    idx_main_v1 (idx_main_v5 (idx_main_v7 (ix3 b n m))) k = ix3 b n k :=
  funext fun a => match a with | ⟨0, _⟩ => rfl | ⟨1, _⟩ => rfl | ⟨2, _⟩ => rfl

theorem idx_sq2 (b : Fin 4) (n m : Fin 8192) (k : Fin 3) :
    idx_main_v3 (idx_main_v6 (idx_main_v8 (ix3 b n m))) k = ix3 b m k :=
  funext fun a => match a with | ⟨0, _⟩ => rfl | ⟨1, _⟩ => rfl | ⟨2, _⟩ => rfl

theorem idx_crossL (b : Fin 4) (n m : Fin 8192) (k : Fin 3) : lidx_main_v4 (ix3 b n m) k = ix3 b n k :=
  funext fun a => match a with | ⟨0, _⟩ => rfl | ⟨1, _⟩ => rfl | ⟨2, _⟩ => rfl

theorem idx_crossR (b : Fin 4) (n m : Fin 8192) (k : Fin 3) : ridx_main_v4 (ix3 b n m) k = ix3 b m k :=
  funext fun a => match a with | ⟨0, _⟩ => rfl | ⟨1, _⟩ => rfl | ⟨2, _⟩ => rfl

/-- The program's array of clamped squared distances, read at (b, n, m). -/
theorem dist_stage (X Y : (⟨S4x8192x3, .f32⟩ : BufTy).Contents (Elt Ideal)) (b : Fin 4) (n m : Fin 8192) :
    val_main_v14 (F := Ideal) X Y (ix3 b n m) = Chamfer.dist X Y b n m := by
  rw [val_main_v14_apply, val_main_v12_apply, val_main_v9_apply, val_main_v11_apply, val_main_v13_apply, val_main_cst_2_apply,
    val_main_v10_apply, val_main_cst_1_apply, val_main_v7_apply, val_main_v5_apply, val_main_v1_apply, val_main_v8_apply,
    val_main_v6_apply, val_main_v3_apply, val_main_v4_apply, val_main_cst_apply, val_main_cst_0_apply]
  unfold Chamfer.dist Chamfer.sqn Chamfer.dotp
  simp only [val_main_v0_apply, val_main_v2_apply, Ideal.ofBits_def, Ideal.addf_def, Ideal.subf_def, Ideal.mulf_def,
    Ideal.maximumf_def, Ideal.ofBits_zero_f32, zero_add, idx_sq1, idx_sq2, idx_crossL, idx_crossR]

/-! ## The two minima -/

/-- Entry (b, n) of the reduced array with coordinate `k` put back on the last axis is (b, n, k). -/
theorem lift_d2 (h : S4x8192x8192.Reduces [2] S4x8192) (b : Fin 4) (n : Fin 8192) (k : Fin (S4x8192x8192.size 2)) :
    h.lift (ix2 b n) k = ix3 b n (⟨k.val, k.isLt⟩ : Fin 8192) := by
  funext c; apply Fin.ext
  fin_cases c <;> rfl

/-- Entry (b, m) of the reduced array with coordinate `k` put back on the middle axis is (b, k, m). -/
theorem lift_d1 (h : S4x8192x8192.Reduces [1] S4x8192) (b : Fin 4) (m : Fin 8192) (k : Fin (S4x8192x8192.size 1)) :
    h.lift (ix2 b m) k = ix3 b (⟨k.val, k.isLt⟩ : Fin 8192) m := by
  funext c; apply Fin.ext
  fin_cases c <;> rfl

/-- A fold of `min` from the top over all of a finite type is the infimum. -/
theorem fold_min_top {ι : Type} [Fintype ι] (f : ι → EReal) :
    (Finset.univ : Finset ι).fold min (⊤ : EReal) f = Finset.univ.inf f := rfl

/-- The program's minimum along the second cloud's points, at (b, n), is the least clamped squared distance from point
    `n` of the first cloud to the second. -/
theorem near1_stage (X Y : (⟨S4x8192x3, .f32⟩ : BufTy).Contents (Elt Ideal)) (b : Fin 4) (n : Fin 8192) :
    val_main_v15 (F := Ideal) X Y (ix2 b n) = Chamfer.near1 X Y b n := by
  have h : S4x8192x8192.Reduces [2] S4x8192 := by decide
  unfold val_main_v15 Chamfer.near1
  simp only [← dist_stage]
  generalize val_main_v14 (F := Ideal) X Y = y
  refine (Host.reduce_eq_fold_single (α := Ideal .f32) FloatOps.minimumf y (val_main_cst_3 (F := Ideal)) reducesTo_S4x8192x8192_S4x8192_d2 h h_S_ (ix2 b n)).trans ?_
  have e0 : (val_main_cst_3 (F := Ideal)) (Shape.Idx.first h_S_) = (⊤ : EReal) := ofBits_posInf
  have hf : (y ∘ h.lift (ix2 b n)) = fun k : Fin 8192 => y (ix3 b n k) := funext fun k => congrArg y (lift_d2 h b n k)
  rw [e0, hf]
  rfl

/-- The program's minimum along the first cloud's points, at (b, m), is the least clamped squared distance from point
    `m` of the second cloud to the first. -/
theorem near2_stage (X Y : (⟨S4x8192x3, .f32⟩ : BufTy).Contents (Elt Ideal)) (b : Fin 4) (m : Fin 8192) :
    val_main_v16 (F := Ideal) X Y (ix2 b m) = Chamfer.near2 X Y b m := by
  have h : S4x8192x8192.Reduces [1] S4x8192 := by decide
  unfold val_main_v16 Chamfer.near2
  simp only [← dist_stage]
  generalize val_main_v14 (F := Ideal) X Y = y
  refine (Host.reduce_eq_fold_single (α := Ideal .f32) FloatOps.minimumf y (val_main_cst_4 (F := Ideal)) reducesTo_S4x8192x8192_S4x8192_d1 h h_S_ (ix2 b m)).trans ?_
  have e0 : (val_main_cst_4 (F := Ideal)) (Shape.Idx.first h_S_) = (⊤ : EReal) := ofBits_posInf
  have hf : (y ∘ h.lift (ix2 b m)) = fun k : Fin 8192 => y (ix3 b k m) := funext fun k => congrArg y (lift_d1 h b m k)
  rw [e0, hf]
  rfl

/-- The program's result: the mean of the first minima plus the mean of the second minima, each a host sum from the zero
    word divided by the word of 32768. -/
theorem tail_eq (X Y : (⟨S4x8192x3, .f32⟩ : BufTy).Contents (Elt Ideal)) :
    val_main_v21 (F := Ideal) X Y
      = addf (Host.divf (Host.reduceAdd (val_main_v15 (F := Ideal) X Y) (constant (F := Ideal) S_ .f32 0x00000000#32) reducesTo_S4x8192_S_d0_1 h_S_)
                (constant (F := Ideal) S_ .f32 0x47000000#32))
             (Host.divf (Host.reduceAdd (val_main_v16 (F := Ideal) X Y) (constant (F := Ideal) S_ .f32 0x00000000#32) reducesTo_S4x8192_S_d0_1 h_S_)
                (constant (F := Ideal) S_ .f32 0x47000000#32)) := rfl

end Chamfer.Ref

end
-- ==== Proof.LibMinReduce.lean ====
/-
  A minimum taken along one axis of a rank-2 array of extended reals, read at coordinates: the reduction at a row (a
  column) is the fold of `min` from the accumulator's value over that row's (column's) entries.  Over generic extents;
  indices are built from coordinates.
-/
import Idealize.ShloMosaic.Lib.ValueIdx
import Idealize.ShloMosaic.PureOps.Ideal.Laws

noncomputable section

namespace MinReduce

open Idealize.ShloMosaic Idealize.ShloMosaic.ValueIdx

variable {φ : FTy}

/-- Along the last axis of two: the entry at row `i` is the fold of `min` over the row. -/
theorem min_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (i : Fin a) :
    multiReduction .minimumf [1] ⟨1, ![a]⟩ src acc h hφ hacc (ix1 i)
      = (Finset.univ : Finset (Fin b)).fold min (Ideal.ofBits φ acc) (fun k => src (ix2 i k)) := by
  rw [multiReduction_minimumf_eq_fold]
  refine (h.fold_filter_drop_single FloatOps.minimumf _ src (ix1 i)).trans ?_
  exact Finset.fold_congr fun k _ => congrArg src (funext fun ax => Fin.ext (by
    match ax with | ⟨0, _⟩ => rfl | ⟨1, _⟩ => rfl))

/-- Along the first axis of two: the entry at column `j` is the fold of `min` over the column. -/
theorem min_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (j : Fin b) :
    multiReduction .minimumf [0] ⟨1, ![b]⟩ src acc h hφ hacc (ix1 j)
      = (Finset.univ : Finset (Fin a)).fold min (Ideal.ofBits φ acc) (fun k => src (ix2 k j)) := by
  rw [multiReduction_minimumf_eq_fold]
  refine (h.fold_filter_drop_single FloatOps.minimumf _ src (ix1 j)).trans ?_
  exact Finset.fold_congr fun k _ => congrArg src (funext fun ax => Fin.ext (by
    match ax with | ⟨0, _⟩ => rfl | ⟨1, _⟩ => rfl))

end MinReduce

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.Tiles.lean ====
/-
  The kernel's arithmetic on one pair of bands, read entry by entry on the extended reals.

  From a band `xa` of 1024 points of the first cloud and a band `xb` of 1024 points of the second the kernel builds two
  1024 × 5 arrays: the rows of the left one are a point's three coordinates, its squared norm and 1; the rows of the right
  one are −2 times a point's three coordinates, then 1 and the point's squared norm.  The left array times the transpose of
  the right one is the 1024 × 1024 tile: entry (r, q) is the sum of the five products of row r of the left array with row q
  of the right one (`pay5_apply`).  The minimum of the tile along a row, clamped at zero, is that row's clamped minimum
  (`pay7_apply`), and likewise along a column (`pay6_apply`).  The two scratch arrays hold running minima of these over
  the tiles seen so far (`rowAcc_apply`, `colAcc_apply`); the last two statements read the final copies, which only
  insert a unit axis.

  No step needs a finiteness hypothesis: the sums start from the zero word, which adds nothing, and everything else is
  read index by index.
-/
import proofs.«154956_j81475529605150_2_alg».proof.Proof.KI.Acc
import proofs.«154956_j81475529605150_2_alg».proof.Proof.Spec
import proofs.«154956_j81475529605150_2_alg».proof.Proof.LibMinReduce
import proofs.«154956_j81475529605150_2_alg».proof.Proof.LibMatProd
import proofs.«154956_j81475529605150_2_alg».proof.Proof.LibDot2
import proofs.«154956_j81475529605150_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Chamfer.Tiles

open Idealize.ShloMosaic Idealize.ShloMosaic.ValueIdx Cert.KernelIdeal Cert.KernelIdeal.Gen Cert.KernelIdeal.Acc

/-! ## Three arrays with the same number of rows laid side by side

Joining an n × a, an n × b and an n × c array along the second axis gives an n × d array (d = a + b + c) whose row r is
row r of the first, then row r of the second, then row r of the third.  Position l < a of the joined row reads the first
array at l, position a + l the second at l, position a + b + l the third at l. -/

section Cat3
variable {α : Type} {n a b c d : ℕ}

/-- A position of the joined row inside the first array's columns reads the first array. -/
theorem cat3_fst (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, d]⟩ 1)
    (r : Fin n) (k : Fin d) (l : Fin a) (hl : k.val = l.val) :
    concatenate ⟨2, ![n, d]⟩ 1 [⟨⟨2, ![n, a]⟩, x⟩, ⟨⟨2, ![n, b]⟩, y⟩, ⟨⟨2, ![n, c]⟩, z⟩] h (ix2 r k) = x (ix2 r l) :=
  concatenate_apply_piece (t := ⟨2, ![n, d]⟩) (1 : Fin 2) [⟨⟨2, ![n, a]⟩, x⟩, ⟨⟨2, ![n, b]⟩, y⟩, ⟨⟨2, ![n, c]⟩, z⟩] h
    (ix2 r k) 0 (by show 0 < 3; omega) ⟨2, ![n, a]⟩ x rfl rfl 0 rfl
    (ix2 r l) (fun e he => by match e, he with | ⟨0, _⟩, _ => rfl | ⟨1, _⟩, he => exact absurd rfl he)
    (by show 0 + l.val = k.val; omega)

/-- Position a + l of the joined row reads position l of the second array's row. -/
theorem cat3_snd (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, d]⟩ 1)
    (r : Fin n) (k : Fin d) (l : Fin b) (hl : k.val = a + l.val) :
    concatenate ⟨2, ![n, d]⟩ 1 [⟨⟨2, ![n, a]⟩, x⟩, ⟨⟨2, ![n, b]⟩, y⟩, ⟨⟨2, ![n, c]⟩, z⟩] h (ix2 r k) = y (ix2 r l) :=
  concatenate_apply_piece (t := ⟨2, ![n, d]⟩) (1 : Fin 2) [⟨⟨2, ![n, a]⟩, x⟩, ⟨⟨2, ![n, b]⟩, y⟩, ⟨⟨2, ![n, c]⟩, z⟩] h
    (ix2 r k) 1 (by show 1 < 3; omega) ⟨2, ![n, b]⟩ y rfl rfl a rfl
    (ix2 r l) (fun e he => by match e, he with | ⟨0, _⟩, _ => rfl | ⟨1, _⟩, he => exact absurd rfl he)
    (by show a + l.val = k.val; omega)

/-- Position a + b + l of the joined row reads position l of the third array's row. -/
theorem cat3_thd (x : (⟨2, ![n, a]⟩ : Shape).Idx → α) (y : (⟨2, ![n, b]⟩ : Shape).Idx → α)
    (z : (⟨2, ![n, c]⟩ : Shape).Idx → α)
    (h : Shape.Concatenates [(⟨2, ![n, a]⟩ : Shape), ⟨2, ![n, b]⟩, ⟨2, ![n, c]⟩] ⟨2, ![n, d]⟩ 1)
    (r : Fin n) (k : Fin d) (l : Fin c) (hl : k.val = a + b + l.val) :
    concatenate ⟨2, ![n, d]⟩ 1 [⟨⟨2, ![n, a]⟩, x⟩, ⟨⟨2, ![n, b]⟩, y⟩, ⟨⟨2, ![n, c]⟩, z⟩] h (ix2 r k) = z (ix2 r l) :=
  concatenate_apply_piece (t := ⟨2, ![n, d]⟩) (1 : Fin 2) [⟨⟨2, ![n, a]⟩, x⟩, ⟨⟨2, ![n, b]⟩, y⟩, ⟨⟨2, ![n, c]⟩, z⟩] h
    (ix2 r k) 2 (by show 2 < 3; omega) ⟨2, ![n, c]⟩ z rfl rfl (a + b) rfl
    (ix2 r l) (fun e he => by match e, he with | ⟨0, _⟩, _ => rfl | ⟨1, _⟩, he => exact absurd rfl he)
    (by show a + b + l.val = k.val; omega)

end Cat3

/-! ## The two factors, row by row -/

/-- The column of squared norms: the band with its unit axis dropped, squared entry by entry, summed over the three
    coordinates from the zero word, and set up as one column.  Its entry in row `r` is the squared norm of point `r`. -/
theorem sqcol_apply (v : Vec Ideal S1x1024x3 .f32) (h1 : S1x1024x3.ShapeCasts S1024x3) (h2 : S1024x3.Reduces [1] S1024)
    (hφ : FKind.Formats .f32) (hacc : (0x00000000#32 : BitVec (FTy.bits .f32)) = FKind.add.neutral .f32 hφ)
    (h3 : S1024.ShapeCasts S1024x1) (r : Fin 1024) (u : Fin 1) :
    shapeCast S1024x1 (multiReduction (F := Ideal) .add [1] S1024
        (mulf (shapeCast S1024x3 v h1) (shapeCast S1024x3 v h1) : FVec Ideal S1024x3 .f32) 0x00000000#32 h2 hφ hacc) h3 (ix2 r u)
      = Chamfer.sqb v r := by
  refine (PushPull.Layout.cast_a_a1 _ h3 r u).trans ?_
  refine (PushPull.Layout.sum_ab_1 _ _ h2 hφ hacc r).trans ?_
  exact Finset.sum_congr rfl fun e _ =>
    congrArg₂ (· * ·) (shapeCast_1ab_ab_apply v h1 r e) (shapeCast_1ab_ab_apply v h1 r e)

/-- Row `r` of the left factor: the point's three coordinates, its squared norm, the word for 1. -/
theorem lhs_row (xa : Vec Ideal S1x1024x3 .f32) (h1 : S1x1024x3.ShapeCasts S1024x3) (h2 : S1024x3.Reduces [1] S1024)
    (hφ : FKind.Formats .f32) (hacc : (0x00000000#32 : BitVec (FTy.bits .f32)) = FKind.add.neutral .f32 hφ)
    (h3 : S1024.ShapeCasts S1024x1) (h4 : Shape.Concatenates [S1024x3, S1024x1, S1024x1] S1024x5 1)
    (r : Fin 1024) (k : Fin 5) :
    (concatenate S1024x5 1
        [⟨S1024x3, (shapeCast S1024x3 xa h1 : FVec Ideal S1024x3 .f32)⟩,
         ⟨S1024x1, shapeCast S1024x1 (multiReduction (F := Ideal) .add [1] S1024
            (mulf (shapeCast S1024x3 xa h1) (shapeCast S1024x3 xa h1) : FVec Ideal S1024x3 .f32) 0x00000000#32 h2 hφ hacc) h3⟩,
         ⟨S1024x1, broadcast S1024x1 (Scalar.ofBits (F := Ideal) .f32 0x3F800000#32)⟩] h4 : FVec Ideal S1024x5 .f32) (ix2 r k)
      = Chamfer.lhs5 xa r k := by
  unfold Chamfer.lhs5
  split_ifs with hk hk3
  · exact (cat3_fst _ _ _ h4 r k ⟨k.val, hk⟩ rfl).trans (shapeCast_1ab_ab_apply xa h1 r _)
  · exact (cat3_snd _ _ _ h4 r k (0 : Fin 1) (by show k.val = 3 + 0; omega)).trans
      (sqcol_apply xa h1 h2 hφ hacc h3 r 0)
  · exact (cat3_thd _ _ _ h4 r k (0 : Fin 1) (by have := k.isLt; show k.val = 3 + 1 + 0; omega)).trans rfl

/-- Row `q` of the right factor: the word for −2 times the point's three coordinates, the word for 1, its squared norm. -/
theorem rhs_row (xb : Vec Ideal S1x1024x3 .f32) (h1 : S1x1024x3.ShapeCasts S1024x3) (h2 : S1024x3.Reduces [1] S1024)
    (hφ : FKind.Formats .f32) (hacc : (0x00000000#32 : BitVec (FTy.bits .f32)) = FKind.add.neutral .f32 hφ)
    (h3 : S1024.ShapeCasts S1024x1) (h4 : Shape.Concatenates [S1024x3, S1024x1, S1024x1] S1024x5 1)
    (q : Fin 1024) (k : Fin 5) :
    (concatenate S1024x5 1
        [⟨S1024x3, (mulf (broadcast S1024x3 (Scalar.ofBits (F := Ideal) .f32 0xC0000000#32)) (shapeCast S1024x3 xb h1) : FVec Ideal S1024x3 .f32)⟩,
         ⟨S1024x1, broadcast S1024x1 (Scalar.ofBits (F := Ideal) .f32 0x3F800000#32)⟩,
         ⟨S1024x1, shapeCast S1024x1 (multiReduction (F := Ideal) .add [1] S1024
            (mulf (shapeCast S1024x3 xb h1) (shapeCast S1024x3 xb h1) : FVec Ideal S1024x3 .f32) 0x00000000#32 h2 hφ hacc) h3⟩] h4 : FVec Ideal S1024x5 .f32) (ix2 q k)
      = Chamfer.rhs5 xb q k := by
  unfold Chamfer.rhs5
  split_ifs with hk hk3
  · exact (cat3_fst _ _ _ h4 q k ⟨k.val, hk⟩ rfl).trans
      (congrArg (Chamfer.negTwo * ·) (shapeCast_1ab_ab_apply xb h1 q _))
  · exact (cat3_snd _ _ _ h4 q k (0 : Fin 1) (by show k.val = 3 + 0; omega)).trans rfl
  · exact (cat3_thd _ _ _ h4 q k (0 : Fin 1) (by have := k.isLt; show k.val = 3 + 1 + 0; omega)).trans
      (sqcol_apply xb h1 h2 hφ hacc h3 q 0)

/-! ## The tile -/

/-- Entry (r, q) of the tile: the left factor times the transposed right factor onto the zero array is, entry by
    entry, the sum over the five columns of the products of the two rows. -/
theorem pay5_apply (xa xb : Vec Ideal S1x1024x3 .f32) (r q : Fin 1024) :
    k0_pay5 (F := Ideal) xa xb (ix2 r q) = Chamfer.tile xa xb r q := by
  unfold k0_pay5
  refine (MatProd.matmul_zero_entry dot_S1024x5_S5x1024_S1024x1024_1_0_0_1_n_n (some .fp32)
    (Dot2.rank_contr _ rfl) (Dot2.size_contr _ rfl _) (Dot2.lhs0 _ rfl rfl) (Dot2.lhs1 _ rfl _)
    (Dot2.rhs0 _ rfl _) (Dot2.rhs1 _ rfl rfl rfl rfl) _ _ r q).trans ?_
  unfold MatProd.entry Chamfer.tile
  refine Finset.sum_congr rfl fun k _ => ?_
  exact congrArg₂ (· * ·) (lhs_row xa _ _ _ _ _ _ r k)
    ((transpose_ix2_apply _ _ k q).trans (rhs_row xb _ _ _ _ _ _ q k))

/-! ## Row and column minima -/

/-- The tile's minimum along row `r` (from the word for +∞), set up as a column, clamped at the zero word and transposed
    into a row: at position `r`, the row's clamped minimum. -/
theorem pay7_apply (xa xb : Vec Ideal S1x1024x3 .f32) (r : Fin 1024) :
    k0_pay7 (F := Ideal) xa xb (ix2 (0 : Fin 1) r) = Chamfer.rowMin xa xb r := by
  unfold k0_pay7
  refine (transpose_ix2_apply _ _ (0 : Fin 1) r).trans ?_
  refine (maximumf_apply _ _ _).trans ?_
  unfold Chamfer.rowMin
  refine congrArg₂ max ?_ rfl
  refine (PushPull.Layout.cast_a_a1 _ _ r (0 : Fin 1)).trans ?_
  refine (MinReduce.min_ab_1 _ _ _ _ _ r).trans ?_
  exact Finset.fold_congr fun q _ => pay5_apply xa xb r q

/-- The tile's minimum along column `q`, set up as a row and clamped at the zero word. -/
theorem pay6_apply (xa xb : Vec Ideal S1x1024x3 .f32) (q : Fin 1024) :
    k0_pay6 (F := Ideal) xa xb (ix2 (0 : Fin 1) q) = Chamfer.colMin xa xb q := by
  unfold k0_pay6
  refine (maximumf_apply _ _ _).trans ?_
  unfold Chamfer.colMin
  refine congrArg₂ max ?_ rfl
  refine (shapeCast_a_1a_apply _ _ (0 : Fin 1) q).trans ?_
  refine (MinReduce.min_ab_0 _ _ _ _ _ q).trans ?_
  exact Finset.fold_congr fun r _ => pay5_apply xa xb r q

/-! ## The running minima -/

/-- The first scratch after tile `k`: the running minimum of the clamped row minima. -/
theorem rowAcc_apply (xa : Vec Ideal S1x1024x3 .f32) (xb : ℕ → Vec Ideal S1x1024x3 .f32) (k : ℕ) (r : Fin 1024) :
    rowAcc (F := Ideal) xa xb k (ix2 (0 : Fin 1) r) = Chamfer.racc xa xb k r := by
  induction k with
  | zero =>
    show k0_pay8 (F := Ideal) xa (xb 0) (ix2 (0 : Fin 1) r) = Chamfer.rowMin xa (xb 0) r
    unfold k0_pay8
    exact (congrFun (shapeCast_self _ _) _).trans (pay7_apply xa (xb 0) r)
  | succ k ih =>
    show k0_pay9 (F := Ideal) xa (xb (k + 1)) (rowAcc (F := Ideal) xa xb k) (ix2 (0 : Fin 1) r)
      = min (Chamfer.racc xa xb k r) (Chamfer.rowMin xa (xb (k + 1)) r)
    unfold k0_pay9
    refine (congrFun (shapeCast_self _ _) _).trans ?_
    refine (minimumf_apply _ _ _).trans ?_
    exact congrArg₂ min ih (pay7_apply xa (xb (k + 1)) r)

/-- One stretch of the second scratch after band `k` of the first cloud: the running minimum of the clamped column
    minima. -/
theorem colAcc_apply (xa : ℕ → Vec Ideal S1x1024x3 .f32) (xb : Vec Ideal S1x1024x3 .f32) (k : ℕ) (q : Fin 1024) :
    colAcc (F := Ideal) xa xb k (ix2 (0 : Fin 1) q) = Chamfer.cacc xa xb k q := by
  induction k with
  | zero =>
    show k0_pay1 (F := Ideal) (k0_pay6 (F := Ideal) (xa 0) xb) (ix2 (0 : Fin 1) q) = Chamfer.colMin (xa 0) xb q
    unfold k0_pay1
    exact (congrFun (shapeCast_self _ _) _).trans (pay6_apply (xa 0) xb q)
  | succ k ih =>
    show k0_pay2 (F := Ideal) (k0_pay6 (F := Ideal) (xa (k + 1)) xb) (colAcc (F := Ideal) xa xb k) (ix2 (0 : Fin 1) q)
      = min (Chamfer.cacc xa xb k q) (Chamfer.colMin (xa (k + 1)) xb q)
    unfold k0_pay2
    refine (congrFun (shapeCast_self _ _) _).trans ?_
    refine (minimumf_apply _ _ _).trans ?_
    exact congrArg₂ min ih (pay6_apply (xa (k + 1)) xb q)

/-! ## The final copies and the bands -/

/-- The first result's block is the first scratch with a unit axis inserted. -/
theorem pay3_apply (v : Vec Ideal S1x1024 .f32) (r : Fin 1024) :
    k0_pay3 (F := Ideal) v (ix3 (0 : Fin 1) (0 : Fin 1) r) = v (ix2 (0 : Fin 1) r) := by
  unfold k0_pay3
  exact shapeCast_ab_1ab_apply v _ (0 : Fin 1) (0 : Fin 1) r

/-- The second result's block is the second scratch with a unit axis inserted. -/
theorem pay4_apply (v : Vec Ideal S1x8192 .f32) (j : Fin 8192) :
    k0_pay4 (F := Ideal) v (ix3 (0 : Fin 1) (0 : Fin 1) j) = v (ix2 (0 : Fin 1) j) := by
  unfold k0_pay4
  exact shapeCast_ab_1ab_apply v _ (0 : Fin 1) (0 : Fin 1) j

/-- A band cut out of a cloud by the kernel's windows is the band of the specification. -/
theorem band_eq (X : Vec Ideal S4x8192x3 .f32) (b k : ℕ) : band (F := Ideal) X b k = Chamfer.bandE X b k := rfl

end Chamfer.Tiles

end
-- ==== Proof.Law.lean ====
/-
  The tiled running minima are the reference's nearest-neighbour distances: pure mathematics on the extended reals.

  For clouds whose coordinates are all real, one tile entry, the five products
  x·(−2y) + |x|²·1 + 1·|y|², is the real number (|x|² + |y|²) − 2·⟨x, y⟩ (an identity of real numbers pushed through
  the coercion; distributivity fails at the infinities, which is why finiteness is assumed). Clamping at zero commutes
  with a minimum, a fold of `min` from +∞ is a `Finset.inf`, and the infimum over the 8192 points of a cloud is the
  minimum over its eight bands of the infima over each band's 1024 points.
-/
import proofs.«154956_j81475529605150_2_alg».proof.Proof.Spec
import Idealize.ShloMosaic.PureOps.Ideal
import Idealize.ShloMosaic.Lib.ValueIdx

noncomputable section

namespace Chamfer

open Idealize.ShloMosaic Idealize.ShloMosaic.ValueIdx

namespace Law

/-! ## The float words, as extended reals -/

/-- The word `0x3F800000` is the real number 1. -/
theorem one_eq : one = ((1 : ℝ) : EReal) := by
  unfold one; simp [Ideal.ofBits, Ideal.ieee, -EReal.coe_mul]; norm_num

/-- The word `0xC0000000` is the real number −2. -/
theorem negTwo_eq : negTwo = ((-2 : ℝ) : EReal) := by
  unfold negTwo; simp [Ideal.ofBits, Ideal.ieee, -EReal.coe_mul]; norm_num

/-- The word `0x40000000` is the real number 2. -/
theorem two_eq : Ideal.ofBits .f32 0x40000000#32 = ((2 : ℝ) : EReal) := by
  simp [Ideal.ofBits, Ideal.ieee, -EReal.coe_mul]; norm_num

/-- The word `0x00000000` is 0. -/
theorem zero_eq : zero = (0 : EReal) := by
  unfold zero; simp [Ideal.ofBits, Ideal.ieee]

/-- The word `0x7F800000` is +∞. -/
theorem top_eq : top = (⊤ : EReal) := by
  unfold top; simp [Ideal.ofBits, Ideal.ieee]

/-! ## One tile entry -/

/-- The five products, written out: the three coordinate products x_d · (−2 · y_d), then |x|² · 1, then 1 · |y|². -/
theorem tile_expand (xa xb : Band) (r q : Fin 1024) :
    tile xa xb r q = (∑ d : Fin 3, xa (ix3 (0 : Fin 1) r d) * (negTwo * xb (ix3 (0 : Fin 1) q d)))
      + sqb xa r * one + one * sqb xb q := by
  unfold tile
  rw [Fin.sum_univ_five, Fin.sum_univ_three]
  rfl

/-- Point `r` of band `k`, as a point of the whole cloud: number `k · 1024 + r`. -/
def pt (k : Fin 8) (r : Fin 1024) : Fin 8192 :=
  ⟨k.val * 1024 + r.val, by have := k.isLt; have := r.isLt; omega⟩

/-- Coordinate `d` of point `r` of band `k` of batch `b` is coordinate `d` of point `k · 1024 + r` of that batch:
    for `b < 4` and `k < 8` the wrap-around of the band's indices is the identity. -/
theorem bandE_apply (X : Cloud) (b : Fin 4) (k : Fin 8) (r : Fin 1024) (d : Fin 3) :
    bandE X b.val k.val (ix3 (0 : Fin 1) r d) = X (ix3 b (pt k r) d) := by
  have hb : b.val % 4 = b.val := Nat.mod_eq_of_lt b.isLt
  have hk : k.val % 8 = k.val := Nat.mod_eq_of_lt k.isLt
  unfold bandE
  congr 1
  funext a
  match a with
  | ⟨0, _⟩ => exact Fin.ext hb
  | ⟨1, _⟩ => exact Fin.ext (by show (k.val % 8) * 1024 + r.val = k.val * 1024 + r.val; rw [hk])
  | ⟨2, _⟩ => rfl

/-- With every coordinate real, a tile entry is (|x|² + |y|²) − 2·⟨x, y⟩: all terms are coercions of real numbers, the
    coercion respects sums, products and differences of reals, and the identity
    ∑ x_d (−2 y_d) + |x|²·1 + 1·|y|² = (|x|² + |y|²) − 2 ∑ x_d y_d holds in the real numbers. -/
theorem tile_eq (X Y : Cloud) (hX : IsReal X) (hY : IsReal Y) (b : Fin 4) (ni k : Fin 8) (r q : Fin 1024) :
    tile (bandE X b.val ni.val) (bandE Y b.val k.val) r q
      = (sqn X b (pt ni r) + sqn Y b (pt k q)) - Ideal.ofBits .f32 0x40000000#32 * dotp X Y b (pt ni r) (pt k q) := by
  choose x hx using hX
  choose y hy using hY
  rw [tile_expand]
  simp only [sqb, sqn, dotp, bandE_apply, hx, hy, one_eq, negTwo_eq, two_eq, Fin.sum_univ_three]
  simp only [← EReal.coe_mul, ← EReal.coe_add, ← EReal.coe_sub, EReal.coe_eq_coe_iff]
  ring

/-! ## Order facts: folds of `min`, clamping, and the running minimum -/

/-- A fold of `min` starting from +∞ is the infimum. -/
theorem fold_min_top {ι : Type} (s : Finset ι) (f : ι → EReal) : s.fold min ⊤ f = s.inf f := by
  classical
  induction s using Finset.induction_on with
  | empty => simp
  | insert a s ha ih => rw [Finset.fold_insert ha, Finset.inf_insert, ih]

/-- A tile's clamped row minimum is the least clamped distance from the row's point to the points of the band:
    `max (inf f) 0 = inf (max (f ·) 0)` in a distributive lattice. -/
theorem rowMin_eq (X Y : Cloud) (hX : IsReal X) (hY : IsReal Y) (b : Fin 4) (ni k : Fin 8) (r : Fin 1024) :
    rowMin (bandE X b.val ni.val) (bandE Y b.val k.val) r
      = Finset.univ.inf (fun q : Fin 1024 => dist X Y b (pt ni r) (pt k q)) := by
  unfold rowMin dist
  rw [top_eq, fold_min_top, Finset.inf_sup_distrib_right]
  refine Finset.inf_congr rfl (fun q _ => ?_)
  rw [tile_eq X Y hX hY]; rfl

/-- A tile's clamped column minimum is the least clamped distance from the points of the band to the column's point. -/
theorem colMin_eq (X Y : Cloud) (hX : IsReal X) (hY : IsReal Y) (b : Fin 4) (k mi : Fin 8) (q : Fin 1024) :
    colMin (bandE X b.val k.val) (bandE Y b.val mi.val) q
      = Finset.univ.inf (fun r : Fin 1024 => dist X Y b (pt k r) (pt mi q)) := by
  unfold colMin dist
  rw [top_eq, fold_min_top, Finset.inf_sup_distrib_right]
  refine Finset.inf_congr rfl (fun r _ => ?_)
  rw [tile_eq X Y hX hY]; rfl

/-- The running minimum over the tiles `0 … K` is the infimum of the row minima over `k ≤ K`. -/
theorem racc_eq (xa : Band) (xb : ℕ → Band) (K : ℕ) (r : Fin 1024) :
    racc xa xb K r = (Finset.range (K + 1)).inf (fun k => rowMin xa (xb k) r) := by
  induction K with
  | zero => simp [racc]
  | succ K ih => rw [racc, ih, Finset.range_add_one (n := K + 1), Finset.inf_insert, inf_comm]

/-- The running minimum over the tiles `0 … K` is the infimum of the column minima over `k ≤ K`. -/
theorem cacc_eq (xa : ℕ → Band) (xb : Band) (K : ℕ) (q : Fin 1024) :
    cacc xa xb K q = (Finset.range (K + 1)).inf (fun k => colMin (xa k) xb q) := by
  induction K with
  | zero => simp [cacc]
  | succ K ih => rw [cacc, ih, Finset.range_add_one (n := K + 1), Finset.inf_insert, inf_comm]

end Law

open Law

/-! ## The two laws -/

/-- After all eight tiles, the running row minimum at point `r` of band `ni` of `X` is the least clamped distance from
    that point to all 8192 points of `Y`. Both inequalities: point `m` of `Y` lies in band `m / 1024` at place
    `m % 1024`, so the minimum over bands and places is below the distance to `m`; and every (band, place) is a point
    of `Y`, so the infimum over all points is below each band's infimum. -/
theorem racc_near1 (X Y : Cloud) (hX : IsReal X) (hY : IsReal Y) (b : Fin 4) (ni : Fin 8) (r : Fin 1024) :
    racc (bandE X b.val ni.val) (fun k => bandE Y b.val k) 7 r
      = near1 X Y b ⟨ni.val * 1024 + r.val, by have := ni.isLt; have := r.isLt; omega⟩ := by
  rw [racc_eq]
  show _ = Finset.univ.inf (fun m : Fin 8192 => dist X Y b (pt ni r) m)
  apply le_antisymm
  · refine Finset.le_inf fun m _ => ?_
    have hk : m.val / 1024 < 8 := by have := m.isLt; omega
    refine (Finset.inf_le (Finset.mem_range.mpr (show m.val / 1024 < 7 + 1 from hk))).trans ?_
    have h := rowMin_eq X Y hX hY b ni ⟨m.val / 1024, hk⟩ r
    show rowMin (bandE X b.val ni.val) (bandE Y b.val (m.val / 1024)) r ≤ _
    rw [h]
    refine (Finset.inf_le (Finset.mem_univ (⟨m.val % 1024, Nat.mod_lt _ (by decide)⟩ : Fin 1024))).trans (le_of_eq ?_)
    congr 1
    exact Fin.ext (Nat.div_add_mod' m.val 1024)
  · refine Finset.le_inf fun k hk => ?_
    have hk' : k < 8 := Finset.mem_range.mp hk
    have h := rowMin_eq X Y hX hY b ni ⟨k, hk'⟩ r
    show _ ≤ rowMin (bandE X b.val ni.val) (bandE Y b.val k) r
    rw [h]
    exact Finset.le_inf fun q _ => Finset.inf_le (Finset.mem_univ _)

/-- After all eight tiles, the running column minimum at point `q` of band `mi` of `Y` is the least clamped distance
    from all 8192 points of `X` to that point; the same two inequalities, with the roles of the clouds exchanged. -/
theorem cacc_near2 (X Y : Cloud) (hX : IsReal X) (hY : IsReal Y) (b : Fin 4) (mi : Fin 8) (q : Fin 1024) :
    cacc (fun k => bandE X b.val k) (bandE Y b.val mi.val) 7 q
      = near2 X Y b ⟨mi.val * 1024 + q.val, by have := mi.isLt; have := q.isLt; omega⟩ := by
  rw [cacc_eq]
  show _ = Finset.univ.inf (fun n : Fin 8192 => dist X Y b n (pt mi q))
  apply le_antisymm
  · refine Finset.le_inf fun n _ => ?_
    have hk : n.val / 1024 < 8 := by have := n.isLt; omega
    refine (Finset.inf_le (Finset.mem_range.mpr (show n.val / 1024 < 7 + 1 from hk))).trans ?_
    have h := colMin_eq X Y hX hY b ⟨n.val / 1024, hk⟩ mi q
    show colMin (bandE X b.val (n.val / 1024)) (bandE Y b.val mi.val) q ≤ _
    rw [h]
    refine (Finset.inf_le (Finset.mem_univ (⟨n.val % 1024, Nat.mod_lt _ (by decide)⟩ : Fin 1024))).trans (le_of_eq ?_)
    congr 1
    exact Fin.ext (Nat.div_add_mod' n.val 1024)
  · refine Finset.le_inf fun k hk => ?_
    have hk' : k < 8 := Finset.mem_range.mp hk
    have h := colMin_eq X Y hX hY b ⟨k, hk'⟩ mi q
    show _ ≤ colMin (bandE X b.val k) (bandE Y b.val mi.val) q
    rw [h]
    exact Finset.le_inf fun r _ => Finset.inf_le (Finset.mem_univ _)

end Chamfer

end
-- ==== Proof.KArrays.lean ====
/-
  What the kernel's two result arrays hold when the region ends, on the extended reals.

  A grid point t = 64·b + 8·i + j works on batch b, band i of the first cloud and band j of the second.  The first
  result is written back at the points with j = 7, one block of 1024 entries at block index (b, 0, i): by then the row
  accumulator has seen band i against all eight bands of the second cloud, so entry r of the block is the least clamped
  squared distance from point 1024·i + r of the first cloud to the second cloud.  These blocks tile the 4 × 1 × 8192
  array: entry (b, 0, n) lies in the block of the point 64·b + 8·(n / 1024) + 7.  The second result is written back at
  the batch's last point (i = j = 7), the whole row of 8192 at block index (b, 0, 0): every stretch of the column
  accumulator has then seen all eight bands of the first cloud, so entry n is the least clamped squared distance from
  the first cloud to point n of the second.  Entry (b, 0, n) lies in the block of the point 64·b + 63.
-/
import proofs.«154956_j81475529605150_2_alg».proof.Proof.KI.Dats
import proofs.«154956_j81475529605150_2_alg».proof.Proof.Tiles
import proofs.«154956_j81475529605150_2_alg».proof.Proof.Law
import Idealize.ShloMosaic.Lib.Pipeline.Value

set_option maxRecDepth 16384

noncomputable section

namespace Chamfer.KArrays

open Idealize.ShloMosaic Idealize.ShloMosaic.TcCoe Idealize.ShloMosaic.ValueIdx Cert.KernelIdeal Cert.KernelIdeal.Gen
  Cert.KernelIdeal.Acc Idealize.ShloMosaic.Pipeline

variable (m : (ℓ : Loc nD τ sig) → Buf (Elt Ideal) ℓ)

/-! ## The two target arrays -/

/-- Entry (b, 0, n): the least clamped squared distance from point n of batch b of `X` to the points of `Y`. -/
def toSecond (X Y : Chamfer.Cloud) : S4x1x8192.Idx → EReal := fun i =>
  Chamfer.near1 X Y ⟨(i 0).val, (i 0).isLt⟩ ⟨(i 2).val, (i 2).isLt⟩

/-- Entry (b, 0, n): the least clamped squared distance from the points of batch b of `X` to point n of `Y`. -/
def toFirst (X Y : Chamfer.Cloud) : S4x1x8192.Idx → EReal := fun i =>
  Chamfer.near2 X Y ⟨(i 0).val, (i 0).isLt⟩ ⟨(i 2).val, (i 2).isLt⟩

/-! ## The first result -/

/-- At a point with j = 7 the block handed back holds, at entry r, the least distance from point 1024·i + r. -/
theorem rowBlock_value (c : Dev nD) (hX : Chamfer.IsReal (V m c main_arg0)) (hY : Chamfer.IsReal (V m c main_arg1))
    (n : ℕ) (hn : n < 256) (hf : n % 8 = 7) (y : S1x1x1024.Idx) :
    k0_pay3 (F := Ideal) (rowState m c n) y
      = Chamfer.near1 (V m c main_arg0) (V m c main_arg1) ⟨n / 64, by omega⟩
          ⟨n / 8 % 8 * 1024 + (y 2).val, by have := (y 2).isLt; change (y 2).val < 1024 at this; omega⟩ := by
  obtain ⟨u, u', r, rfl⟩ : ∃ (u : Fin 1) (u' : Fin 1) (r : Fin 1024), y = ix3 u u' r := ⟨y 0, y 1, y 2, eq_ix3 y⟩
  obtain rfl : u = 0 := Subsingleton.elim _ _
  obtain rfl : u' = 0 := Subsingleton.elim _ _
  refine (Tiles.pay3_apply _ r).trans ?_
  unfold rowState
  rw [hf]
  refine (Tiles.rowAcc_apply _ _ 7 r).trans ?_
  exact Chamfer.racc_near1 (V m c main_arg0) (V m c main_arg1) hX hY ⟨n / 64, by omega⟩ ⟨n / 8 % 8, by omega⟩ r

/-- What a point with j = 7 writes back is its block of the target array. -/
theorem flushed2_eq (c : Dev nD) (hX : Chamfer.IsReal (V m c main_arg0)) (hY : Chamfer.IsReal (V m c main_arg1))
    (t : Fin cfg0.N) (hf : (cfg0.win 2).flush t = true) :
    (dats m 0 c).flushed 2 t
      = ((cfg0.win 2).blk t).view.read (Elt Ideal) (toSecond (V m c main_arg0) (V m c main_arg1)) := by
  have hN : t.val < 256 := lt_of_lt_of_eq t.isLt (show cfg0.N = 256 from N_0)
  have h7 : t.val % 8 = 7 := (flush0_2 t).mp hf
  obtain ⟨e0, e1, e2, -, -, -⟩ := idx_out t
  show (cfg0.win 2).cut (grid0.coords t) ((dats m 0 c).after 2 t) = _
  rw [after0_2]
  funext y
  show k0_pay3 (F := Ideal) (rowState m c t.val) y
    = toSecond (V m c main_arg0) (V m c main_arg1) (((cfg0.win 2).blk t).view.emb y)
  refine (rowBlock_value m c hX hY t.val hN h7 y).trans ?_
  refine congrArg₂ (Chamfer.near1 (V m c main_arg0) (V m c main_arg1)) (Fin.ext ?_) (Fin.ext ?_)
  · show t.val / 64 = win0_2.index t (0 : Fin 3) * 1 + 1 * (y 0).val
    have hj : (y 0).val < 1 := (y 0).isLt
    omega
  · show t.val / 8 % 8 * 1024 + (y 2).val = win0_2.index t (2 : Fin 3) * 1024 + 1 * (y 2).val
    omega

/-- An entry of the array is in point `t`'s block iff each coordinate is in the block's range on its axis. -/
theorem mem_blk2 (t : Fin cfg0.N) (i : S4x1x8192.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v0_0).slice (win0_2.rect t)).set ↔ _
  rw [View.set_slice_whole, Rect.mem_set_unit]
  exact Iff.rfl

/-- Entry (b, 0, n) lies in the block written back at the point 64·b + 8·(n / 1024) + 7. -/
theorem cover2 (i : S4x1x8192.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  have hlt : 64 * (i 0).val + 8 * ((i 2).val / 1024) + 7 < cfg0.N :=
    lt_of_lt_of_eq (by omega : _ < 256) (show 256 = cfg0.N from N_0.symm)
  refine ⟨⟨64 * (i 0).val + 8 * ((i 2).val / 1024) + 7, hlt⟩, (flush0_2 _).mpr (by show (64 * (i 0).val + 8 * ((i 2).val / 1024) + 7) % 8 = 7; omega), ?_⟩
  obtain ⟨e0, e1, e2, -, -, -⟩ := idx_out ⟨64 * (i 0).val + 8 * ((i 2).val / 1024) + 7, hlt⟩
  have v : (⟨64 * (i 0).val + 8 * ((i 2).val / 1024) + 7, hlt⟩ : Fin cfg0.N).val = 64 * (i 0).val + 8 * ((i 2).val / 1024) + 7 := rfl
  rw [mem_blk2]
  intro a
  match a with
  | ⟨0, _⟩ =>
    show win0_2.index _ (0 : Fin 3) * 1 ≤ (i 0).val ∧ (i 0).val < win0_2.index _ (0 : Fin 3) * 1 + 1
    omega
  | ⟨1, _⟩ =>
    show win0_2.index _ (1 : Fin 3) * 1 ≤ (i 1).val ∧ (i 1).val < win0_2.index _ (1 : Fin 3) * 1 + 1
    omega
  | ⟨2, _⟩ =>
    show win0_2.index _ (2 : Fin 3) * 1024 ≤ (i 2).val ∧ (i 2).val < win0_2.index _ (2 : Fin 3) * 1024 + 1024
    omega

/-- THE FIRST RESULT after the region: entry (b, 0, n) is the least clamped squared distance from point n of batch b
    of the first cloud to the second cloud. -/
theorem final2 (c : Dev nD) (hX : Chamfer.IsReal (V m c main_arg0)) (hY : Chamfer.IsReal (V m c main_arg1)) :
    (dats m 0 c).arrAt 2 cfg0.N = fun i =>
      Chamfer.near1 (V m c main_arg0) (V m c main_arg1) ⟨(i 0).val, (i 0).isLt⟩ ⟨(i 2).val, (i 2).isLt⟩ :=
  (dats m 0 c).arrAt_eq_of_cover 2 (toSecond (V m c main_arg0) (V m c main_arg1))
    (fun t hf => flushed2_eq m c hX hY t hf) cover2

/-! ## The second result -/

/-- At a batch's last point the row handed back holds, at entry n, the least distance to point n. -/
theorem colBlock_value (c : Dev nD) (hX : Chamfer.IsReal (V m c main_arg0)) (hY : Chamfer.IsReal (V m c main_arg1))
    (n : ℕ) (hn : n < 256) (hf : n % 64 = 63) (y : S1x1x8192.Idx) :
    k0_pay4 (F := Ideal) (glue (fun k => colState m c n k)) y
      = Chamfer.near2 (V m c main_arg0) (V m c main_arg1) ⟨n / 64, by omega⟩ ⟨(y 2).val, (y 2).isLt⟩ := by
  obtain ⟨u, u', q, rfl⟩ : ∃ (u : Fin 1) (u' : Fin 1) (q : Fin 8192), y = ix3 u u' q := ⟨y 0, y 1, y 2, eq_ix3 y⟩
  obtain rfl : u = 0 := Subsingleton.elim _ _
  obtain rfl : u' = 0 := Subsingleton.elim _ _
  have hq : q.val < 8192 := q.isLt
  have h8 : n % 8 = 7 := by omega
  have h88 : n / 8 % 8 = 7 := by omega
  refine (Tiles.pay4_apply _ q).trans ?_
  show colState m c n (q.val / 1024) (ix2 (0 : Fin 1) (⟨q.val % 1024, Nat.mod_lt _ (by decide)⟩ : Fin 1024)) = _
  unfold colState
  rw [h8, h88, if_pos (show q.val / 1024 ≤ 7 by omega)]
  refine (Tiles.colAcc_apply _ _ 7 _).trans ?_
  refine (Chamfer.cacc_near2 (V m c main_arg0) (V m c main_arg1) hX hY ⟨n / 64, by omega⟩ ⟨q.val / 1024, by omega⟩
    ⟨q.val % 1024, Nat.mod_lt _ (by decide)⟩).trans ?_
  refine congrArg (Chamfer.near2 (V m c main_arg0) (V m c main_arg1) _) (Fin.ext ?_)
  show q.val / 1024 * 1024 + q.val % 1024 = q.val
  omega

/-- What a batch's last point writes back is its block of the target array. -/
theorem flushed3_eq (c : Dev nD) (hX : Chamfer.IsReal (V m c main_arg0)) (hY : Chamfer.IsReal (V m c main_arg1))
    (t : Fin cfg0.N) (hf : (cfg0.win 3).flush t = true) :
    (dats m 0 c).flushed 3 t
      = ((cfg0.win 3).blk t).view.read (Elt Ideal) (toFirst (V m c main_arg0) (V m c main_arg1)) := by
  have hN : t.val < 256 := lt_of_lt_of_eq t.isLt (show cfg0.N = 256 from N_0)
  have h63 : t.val % 64 = 63 := (flush0_3 t).mp hf
  obtain ⟨-, -, -, e0, e1, e2⟩ := idx_out t
  show (cfg0.win 3).cut (grid0.coords t) ((dats m 0 c).after 3 t) = _
  rw [after0_3]
  funext y
  show k0_pay4 (F := Ideal) (glue (fun k => colState m c t.val k)) y
    = toFirst (V m c main_arg0) (V m c main_arg1) (((cfg0.win 3).blk t).view.emb y)
  refine (colBlock_value m c hX hY t.val hN h63 y).trans ?_
  refine congrArg₂ (Chamfer.near2 (V m c main_arg0) (V m c main_arg1)) (Fin.ext ?_) (Fin.ext ?_)
  · show t.val / 64 = win0_3.index t (0 : Fin 3) * 1 + 1 * (y 0).val
    have hj : (y 0).val < 1 := (y 0).isLt
    omega
  · show (y 2).val = win0_3.index t (2 : Fin 3) * 8192 + 1 * (y 2).val
    omega

/-- An entry of the array is in point `t`'s block iff each coordinate is in the block's range on its axis. -/
theorem mem_blk3 (t : Fin cfg0.N) (i : S4x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Entry (b, 0, n) lies in the block written back at the point 64·b + 63. -/
theorem cover3 (i : S4x1x8192.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  have hlt : 64 * (i 0).val + 63 < cfg0.N :=
    lt_of_lt_of_eq (by omega : _ < 256) (show 256 = cfg0.N from N_0.symm)
  refine ⟨⟨64 * (i 0).val + 63, hlt⟩, (flush0_3 _).mpr (by show (64 * (i 0).val + 63) % 64 = 63; omega), ?_⟩
  obtain ⟨-, -, -, e0, e1, e2⟩ := idx_out ⟨64 * (i 0).val + 63, hlt⟩
  have v : (⟨64 * (i 0).val + 63, hlt⟩ : Fin cfg0.N).val = 64 * (i 0).val + 63 := rfl
  rw [mem_blk3]
  intro a
  match a with
  | ⟨0, _⟩ =>
    show win0_3.index _ (0 : Fin 3) * 1 ≤ (i 0).val ∧ (i 0).val < win0_3.index _ (0 : Fin 3) * 1 + 1
    omega
  | ⟨1, _⟩ =>
    show win0_3.index _ (1 : Fin 3) * 1 ≤ (i 1).val ∧ (i 1).val < win0_3.index _ (1 : Fin 3) * 1 + 1
    omega
  | ⟨2, _⟩ =>
    show win0_3.index _ (2 : Fin 3) * 8192 ≤ (i 2).val ∧ (i 2).val < win0_3.index _ (2 : Fin 3) * 8192 + 8192
    omega

/-- THE SECOND RESULT after the region: entry (b, 0, n) is the least clamped squared distance from the first cloud's
    batch b to point n of the second cloud. -/
theorem final3 (c : Dev nD) (hX : Chamfer.IsReal (V m c main_arg0)) (hY : Chamfer.IsReal (V m c main_arg1)) :
    (dats m 0 c).arrAt 3 cfg0.N = fun i =>
      Chamfer.near2 (V m c main_arg0) (V m c main_arg1) ⟨(i 0).val, (i 0).isLt⟩ ⟨(i 2).val, (i 2).isLt⟩ :=
  (dats m 0 c).arrAt_eq_of_cover 3 (toFirst (V m c main_arg0) (V m c main_arg1))
    (fun t hf => flushed3_eq m c hX hY t hf) cover3

end Chamfer.KArrays

end
-- ==== Proof.KTail.lean ====
/-
  The kernel program's host operations after the region, as one function of the region's two result arrays: each array
  reshaped from [4, 1, 8192] to [4, 8192], summed over both axes from the zero word, divided by the word of 32768, and the
  two quotients added.
-/
import proofs.«154956_j81475529605150_2_alg».proof.Proof.KI.Dats
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The tail: mean-like quotients of the two arrays' total sums, added. -/
def tailK (A B : FVec F S4x8192 .f32) : FVec F S_ .f32 :=
  addf (Host.divf (Host.reduceAdd A (constant S_ .f32 0x00000000#32) reducesTo_S4x8192_S_d0_1 h_S_) (constant S_ .f32 0x47000000#32))
    (Host.divf (Host.reduceAdd B (constant S_ .f32 0x00000000#32) reducesTo_S4x8192_S_d0_1 h_S_) (constant S_ .f32 0x47000000#32))

/-- The program's result after the region is the tail of the two result arrays as the region leaves them. -/
theorem tail_v7 (c : Dev nD) : Pipeline.afterTail₀ cfgs (dats m) 0 (V0 m) [hostOps1] c main_v7
      = tailK (shapeCast S4x8192 ((dats m 0 c).arrAt 2 cfg0.N) shapeCasts_S4x1x8192_S4x8192)
          (shapeCast S4x8192 ((dats m 0 c).arrAt 3 cfg0.N) shapeCasts_S4x1x8192_S4x8192) := by
  unfold Pipeline.afterTail₀
  simp only [List.flatten_cons, List.flatten_nil, List.append_nil]
  show StableHlo.after hostOps1 _ (Proc.devRef .tc main_v7) = _
  after_results
  rw [Pipeline.withArrays_arr spec0 launch0.win.arr_inj c _ _ 2, Pipeline.withArrays_arr spec0 launch0.win.arr_inj c _ _ 3]
  rfl

/-- The reshape read at an index: entry (b, n) of the [4, 8192] array is entry (b, 0, n) of the [4, 1, 8192] one. -/
theorem cast_apply (D : Vec F S4x1x8192 .f32) (b : Fin 4) (n : Fin 8192) :
    shapeCast S4x8192 D shapeCasts_S4x1x8192_S4x8192 (ValueIdx.ix2 b n) = D (ValueIdx.ix3 b (0 : Fin 1) n) := by
  unfold shapeCast
  refine congrArg D (Shape.reshapeEquiv_eq_of_rowMajor shapeCasts_S4x1x8192_S4x8192
    (x := ValueIdx.ix2 b n) (y := ValueIdx.ix3 b (0 : Fin 1) n) ?_)
  rw [Shape.rowMajor_val_three, Shape.rowMajor_val_two]
  show (b.val * 1 + 0) * 8192 + n.val = b.val * 8192 + n.val
  omega

end Cert.KernelIdeal.Gen

end
-- ==== Proof.LibFiniteReal.lean ====
/-
  An array of extended reals every entry of which has absolute value below +∞ is an array of real numbers.

  A "finite inputs" precondition is printed, per float array, as: the absolute value entry by entry, compared (ordered
  less-than) against the broadcast word of +∞, and the comparison bits joined by `and` over all axes starting from 1.
  `real_of_abs_lt_inf` is the fact at one entry: an extended real `x` with `max x (-x) < ⊤` is neither `⊤` nor `⊥`, hence
  a real number.  `all_real` is the fact for one array of ANY shape: if that conjunction is 1, every entry is a real
  number (the entry is read at a symbolic index; nothing is evaluated over the index set).  Imports only the library.
-/
import Idealize.ShloMosaic.Lib.ValueIdx
import Idealize.ShloMosaic.Lib.ReduceAll
import Idealize.ShloMosaic.PureOps.Ideal.Laws

noncomputable section

namespace FiniteReal

open Idealize.ShloMosaic

/-- The rank-0 shape has exactly one index (a function out of the empty set of axes). -/
instance subsingleton_scalar_idx : Subsingleton (⟨0, ![]⟩ : Shape).Idx := ⟨fun _ _ => funext fun d => d.elim0⟩

/-- The word `0x7F800000` denotes `+∞` at f32. -/
theorem ofBits_inf : Ideal.ofBits .f32 0x7F800000#32 = (⊤ : EReal) := by simp [Ideal.ofBits, Ideal.ieee]

/-- A one-bit word built from a Boolean is 1 exactly when the Boolean is true. -/
theorem ofBool_eq_one (b : Bool) : BitVec.ofBool b = 1#1 ↔ b = true := by cases b <;> decide

/-- THE ELEMENT FACT: an extended real `x` with `|x| < +∞` (the comparison the predicate makes at one entry) is a
    real number: `x = ⊥` gives `|x| = max ⊥ ⊤ = ⊤`, `x = ⊤` gives `|x| = ⊤`, neither below `⊤`. -/
theorem real_of_abs_lt_inf (x : EReal)
    (hx : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  change Ideal.cmp .olt (max x (-x)) (Ideal.ofBits .f32 0x7F800000#32) = 1#1 at hx
  rw [ofBits_inf] at hx
  unfold Ideal.cmp at hx
  rw [ofBool_eq_one] at hx
  have hlt : max x (-x) < ⊤ := of_decide_eq_true hx
  rw [max_lt_iff] at hlt
  induction x using EReal.rec with
  | bot => exact absurd hlt.2 (by simp)
  | coe r => exact ⟨r, rfl⟩
  | top => exact absurd hlt.1 (by simp)

/-- ONE ARRAY: if the conjunction over all entries of `|a j| < +∞` (a reduction by `and` over all axes, from 1, of
    the entrywise comparison against the broadcast `+∞`) is 1, every entry of `a` is a real number. Generic in the
    array's shape: the entry is read at a symbolic index. -/
theorem all_real {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel) (a : FVec Ideal s .f32)
    (i : (⟨0, ![]⟩ : Shape).Idx)
    (e : Host.reduce IntOp.andi
        (cmpf .olt (Host.absf a)
          (broadcastInDim s ![] hb (constant (F := Ideal) (⟨0, ![]⟩ : Shape) .f32 0x7F800000#32)))
        (constantI (⟨0, ![]⟩ : Shape) 1 1#1) hr hu i = 1#1) :
    ∀ j, ∃ r : ℝ, a j = (r : EReal) := fun j =>
  real_of_abs_lt_inf (a j) (Host.reduce_andi_all _ _ hr hu i e j)

end FiniteReal

end
-- ==== Proof.Finite.lean ====
/-
  From the certificate's precondition to "every coordinate is a real number".

  The precondition says that the printed predicate, the conjunction of the two arrays' "all |a j| < +∞", is 1. A
  conjunction of two bits is 1 only if both are, and for one array the conjunction over all entries of |a j| < +∞ being
  1 makes every entry a real number (the general fact is imported).
-/
import proofs.«154956_j81475529605150_2_alg».proof.Defs
import proofs.«154956_j81475529605150_2_alg».proof.Proof.Gen.Pre_finite_inputs
import proofs.«154956_j81475529605150_2_alg».proof.Proof.Spec
import proofs.«154956_j81475529605150_2_alg».proof.Proof.LibFiniteReal

noncomputable section

namespace Chamfer.Finite

open Idealize.ShloMosaic Idealize.SL.Sem

/-- Both conjuncts of the precondition at one device: each array's "all |a j| < +∞" is 1. -/
theorem both (m : (ℓ : Loc Cert.KernelIdeal.nD Cert.KernelIdeal.τ Cert.KernelIdeal.sig) → Buf (Elt Ideal) ℓ)
    [hP : Cert.Pre_finite_inputs.Facts] (h : Cert.Pre_KernelIdeal m) (c : Dev Cert.KernelIdeal.nD) :
    (∀ j, ∃ r : ℝ, m ((c.tc : Thread Cert.KernelIdeal.nD Cert.KernelIdeal.τ).loc Cert.KernelIdeal.main_arg0) j = (r : EReal))
    ∧ (∀ j, ∃ r : ℝ, m ((c.tc : Thread Cert.KernelIdeal.nD Cert.KernelIdeal.τ).loc Cert.KernelIdeal.main_arg1) j = (r : EReal)) := by
  have h0 := congrFun (h c) ValueIdx.ix0
  dsimp only [Cert.Pre_finite_inputs.fn] at h0
  obtain ⟨ha, hb⟩ := IntOp.andi_eq_one.1 h0
  exact ⟨FiniteReal.all_real _ _ _ _ ValueIdx.ix0 ha, FiniteReal.all_real _ _ _ _ ValueIdx.ix0 hb⟩

/-- Every coordinate of the first cloud is a real number. -/
theorem isReal_arg0 (m : (ℓ : Loc Cert.KernelIdeal.nD Cert.KernelIdeal.τ Cert.KernelIdeal.sig) → Buf (Elt Ideal) ℓ)
    [hP : Cert.Pre_finite_inputs.Facts] (h : Cert.Pre_KernelIdeal m) (c : Dev Cert.KernelIdeal.nD) :
    Chamfer.IsReal (m ((c.tc : Thread Cert.KernelIdeal.nD Cert.KernelIdeal.τ).loc Cert.KernelIdeal.main_arg0)) :=
  (both m h c).1

/-- Every coordinate of the second cloud is a real number. -/
theorem isReal_arg1 (m : (ℓ : Loc Cert.KernelIdeal.nD Cert.KernelIdeal.τ Cert.KernelIdeal.sig) → Buf (Elt Ideal) ℓ)
    [hP : Cert.Pre_finite_inputs.Facts] (h : Cert.Pre_KernelIdeal m) (c : Dev Cert.KernelIdeal.nD) :
    Chamfer.IsReal (m ((c.tc : Thread Cert.KernelIdeal.nD Cert.KernelIdeal.τ).loc Cert.KernelIdeal.main_arg1)) :=
  (both m h c).2

end Chamfer.Finite

end
-- ==== Proof.lean ====
/-
  The certificate of a kernel that computes the symmetric nearest-neighbour (Chamfer) distance of two clouds of
  4 × 8192 points in three coordinates: the mean over the first cloud of each point's least squared distance to the
  second cloud, plus the same with the clouds exchanged, squared distances clamped at zero.

  The kernel sweeps the 8 × 8 tiles of 1024 × 1024 pairs of every batch.  For a tile it forms the squared distances as
  ONE matrix product of the augmented rows (x, |x|², 1) and (−2y, 1, |y|²), takes the tile's row and column minima,
  clamps them at zero, and folds them into two running minima it keeps between grid points: one per point of the
  current band of the first cloud (reset when a new band starts, written out after the band's last tile), one per
  point of the second cloud (a stretch reset when the batch's first band meets it, written out at the batch's last
  point).  The reference forms all 8192 × 8192 squared distances (|x|² + |y|²) − 2⟨x, y⟩ of a batch at once, clamps
  them, and takes minima along either axis.  Both then average and add in the same way.

  Why the two agree on the extended reals: for REAL coordinates (the precondition: every input is finite) the matrix
  product x·(−2y) + |x|²·1 + 1·|y|² is the reference's (|x|² + |y|²) − 2⟨x, y⟩ — distributivity, which fails at
  infinities and is why finiteness is used; clamping at zero commutes with a minimum; and the minimum over 8192 points
  is the minimum over the eight bands of the bands' minima, in whatever order the bands come.

  The three frames: the word-level kernel and the idealized kernel run the same body, proved once for any float
  instance (the body's seven control cases by symbolic execution, the accumulators' contents tracked from point to
  point); the reference's frame is its run with the result dropped.  Nothing was rewritten by the idealization.
-/
import proofs.«154956_j81475529605150_2_alg».proof.Defs
import proofs.«154956_j81475529605150_2_alg».proof.Proof.Gen.Kernel
import proofs.«154956_j81475529605150_2_alg».proof.Proof.Gen.KernelIdeal
import proofs.«154956_j81475529605150_2_alg».proof.Proof.Gen.ReferenceIdeal
import proofs.«154956_j81475529605150_2_alg».proof.Proof.Gen.Pre_finite_inputs
import proofs.«154956_j81475529605150_2_alg».proof.Proof.Gen.ReferenceIdeal.Run
import proofs.«154956_j81475529605150_2_alg».proof.Proof.KB.Body
import proofs.«154956_j81475529605150_2_alg».proof.Proof.KI.Body
import proofs.«154956_j81475529605150_2_alg».proof.Proof.RefStages
import proofs.«154956_j81475529605150_2_alg».proof.Proof.KArrays
import proofs.«154956_j81475529605150_2_alg».proof.Proof.KTail
import proofs.«154956_j81475529605150_2_alg».proof.Proof.Finite
import Idealize.ShloMosaic.Adequacy
import Idealize.ShloMosaic.Init

noncomputable section

namespace Cert.Proof

open Idealize.ShloMosaic Idealize.SL.Sem Idealize.ShloMosaic.ValueIdx

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.KernelIdeal Cert.KernelIdeal.Gen in
/-- The kernel program's result: the common tail (two means and their sum) of the two result arrays of the region,
    each with its unit axis dropped. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7)
          = tailK (F := Ideal) (shapeCast S4x8192 ((dats m 0 c).arrAt 2 cfg0.N) shapeCasts_S4x1x8192_S4x8192)
              (shapeCast S4x8192 ((dats m 0 c).arrAt 3 cfg0.N) shapeCasts_S4x1x8192_S4x8192)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v7 (Pipeline.mem_restRefs_of main_v7 rfl (by decide))).trans (tail_v7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

open Cert.KernelIdeal Cert.KernelIdeal.Gen in
/-- With real coordinates the first result array, its unit axis dropped, is the reference's array of least distances
    from the first cloud's points; -/
theorem first_eq (m : (ℓ : Loc nD τ sig) → Buf (Elt Ideal) ℓ) (hpre : Cert.Pre_KernelIdeal m) (c : Dev nD) :
    shapeCast S4x8192 ((dats m 0 c).arrAt 2 cfg0.N) shapeCasts_S4x1x8192_S4x8192
      = Cert.ReferenceIdeal.Read.val_main_v15 (F := Ideal) (m ((c.tc : Thread nD τ).loc main_arg0)) (m ((c.tc : Thread nD τ).loc main_arg1)) := by
  funext j
  obtain ⟨b, n, rfl⟩ : ∃ (b : Fin 4) (n : Fin 8192), j = ix2 b n := ⟨j 0, j 1, eq_ix2 j⟩
  rw [cast_apply, Chamfer.KArrays.final2 m c (Chamfer.Finite.isReal_arg0 m hpre c) (Chamfer.Finite.isReal_arg1 m hpre c),
    Chamfer.Ref.near1_stage]
  rfl

open Cert.KernelIdeal Cert.KernelIdeal.Gen in
/-- and the second the array of least distances from the second cloud's points. -/
theorem second_eq (m : (ℓ : Loc nD τ sig) → Buf (Elt Ideal) ℓ) (hpre : Cert.Pre_KernelIdeal m) (c : Dev nD) :
    shapeCast S4x8192 ((dats m 0 c).arrAt 3 cfg0.N) shapeCasts_S4x1x8192_S4x8192
      = Cert.ReferenceIdeal.Read.val_main_v16 (F := Ideal) (m ((c.tc : Thread nD τ).loc main_arg0)) (m ((c.tc : Thread nD τ).loc main_arg1)) := by
  funext j
  obtain ⟨b, n, rfl⟩ : ∃ (b : Fin 4) (n : Fin 8192), j = ix2 b n := ⟨j 0, j 1, eq_ix2 j⟩
  rw [cast_apply, Chamfer.KArrays.final3 m c (Chamfer.Finite.isReal_arg0 m hpre c) (Chamfer.Finite.isReal_arg1 m hpre c),
    Chamfer.Ref.near2_stage]
  rfl

/-- The two idealized programs end with equal results: the same tail of equal arrays. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Chamfer.Ref.tail_eq, (hagree c).1, (hagree c).2,
    ← first_eq m hpre c, ← second_eq m hpre c]
  rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
